-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8x128 : Shape := ⟨3, ![16384, 8, 128]⟩
abbrev S16384x8x64 : Shape := ⟨3, ![16384, 8, 64]⟩
abbrev S64x128 : Shape := ⟨2, ![64, 128]⟩
abbrev S64 : Shape := ⟨1, ![64]⟩
abbrev S192x64 : Shape := ⟨2, ![192, 64]⟩
abbrev S192 : Shape := ⟨1, ![192]⟩
abbrev S8x64x64 : Shape := ⟨3, ![8, 64, 64]⟩
abbrev S8x64 : Shape := ⟨2, ![8, 64]⟩
abbrev S8x32x64 : Shape := ⟨3, ![8, 32, 64]⟩
abbrev S8x32 : Shape := ⟨2, ![8, 32]⟩
abbrev S8x128 : Shape := ⟨2, ![8, 128]⟩
abbrev S8 : Shape := ⟨1, ![8]⟩
abbrev S_ : Shape := ⟨0, ![]⟩

class Facts : Prop where
  bcast_S_S16384x8x128 : S_.BroadcastsInDim S16384x8x128 (![] : Fin 0 → Fin S16384x8x128.rank)
  reducesTo_S16384x8x128_S_d0_1_2 : S16384x8x128.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S8x64 : S_.BroadcastsInDim S8x64 (![] : Fin 0 → Fin S8x64.rank)
  reducesTo_S8x64_S_d0_1 : S8x64.ReducesTo [0, 1] S_
  bcast_S_S8x32x64 : S_.BroadcastsInDim S8x32x64 (![] : Fin 0 → Fin S8x32x64.rank)
  reducesTo_S8x32x64_S_d0_1_2 : S8x32x64.ReducesTo [0, 1, 2] S_
  bcast_S_S8x32 : S_.BroadcastsInDim S8x32 (![] : Fin 0 → Fin S8x32.rank)
  reducesTo_S8x32_S_d0_1 : S8x32.ReducesTo [0, 1] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8x32 .f32) (main_arg12 : FVec F S8x128 .f32) (main_arg13 : FVec F S8 .f32) (main_v48 : IVec S_ 1) (main_v49 : FVec F S8x32x64 .f32) (main_v50 : FVec F S8x32x64 .f32) : IVec S_ 1 :=
  let main_v51 : IVec S8x32x64 1 := cmpf .olt main_v49 main_v50
  let main_c_19 : IVec S_ 1 := constantI S_ 1 1#1
  let main_v52 : IVec S_ 1 := (fun x v => Host.reduce IntOp.andi x v reducesTo_S8x32x64_S_d0_1_2 h_S_) main_v51 main_c_19
  let main_v53 : IVec S_ 1 := andi main_v48 main_v52
  let main_v54 : FVec F S8x32 .f32 := Host.absf main_arg11
  let main_cst_20 : FVec F S_ .f32 := constant S_ .f32 0x7F800000#32
  let main_v55 : FVec F S8x32 .f32 := broadcastInDim S8x32 ![] bcast_S_S8x32 main_cst_20
  let main_v56 : IVec S8x32 1 := cmpf .olt main_v54 main_v55
  let main_c_21 : IVec S_ 1 := constantI S_ 1 1#1
  let main_v57 : IVec S_ 1 := (fun x v => Host.reduce IntOp.andi x v reducesTo_S8x32_S_d0_1 h_S_) main_v56 main_c_21
  let main_v58 : IVec S_ 1 := andi main_v53 main_v57
  let main_v59 : FVec F S8x128 .f32 := Host.absf main_arg12
  let main_cst_22 : FVec F S_ .f32 := constant S_ .f32 0x7F800000#32
  let main_v60 : FVec F S8x128 .f32 := broadcastInDim S8x128 ![] bcast_S_S8x128 main_cst_22
  let main_v61 : IVec S8x128 1 := cmpf .olt main_v59 main_v60
  let main_c_23 : IVec S_ 1 := constantI S_ 1 1#1
  let main_v62 : IVec S_ 1 := (fun x v => Host.reduce IntOp.andi x v reducesTo_S8x128_S_d0_1 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg7 : FVec F S192 .f32) (main_arg8 : FVec F S8x64x64 .f32) (main_arg9 : FVec F S8x64 .f32) (main_arg10 : FVec F S8x32x64 .f32) (main_arg11 : FVec F S8x32 .f32) (main_arg12 : FVec F S8x128 .f32) (main_arg13 : FVec F S8 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S8x64x64 .f32 := Host.absf main_arg8
  let main_cst_14 : FVec F S_ .f32 := constant S_ .f32 0x7F800000#32
  let main_v40 : FVec F S8x64x64 .f32 := broadcastInDim S8x64x64 ![] bcast_S_S8x64x64 main_cst_14
  let main_v41 : IVec S8x64x64 1 := cmpf .olt main_v39 main_v40
  let main_c_15 : IVec S_ 1 := constantI S_ 1 1#1
  let main_v42 : IVec S_ 1 := (fun x v => Host.reduce IntOp.andi x v reducesTo_S8x64x64_S_d0_1_2 h_S_) main_v41 main_c_15
  let main_v43 : IVec S_ 1 := andi main_v38 main_v42
  let main_v44 : FVec F S8x64 .f32 := Host.absf main_arg9
  let main_cst_16 : FVec F S_ .f32 := constant S_ .f32 0x7F800000#32
  let main_v45 : FVec F S8x64 .f32 := broadcastInDim S8x64 ![] bcast_S_S8x64 main_cst_16
  let main_v46 : IVec S8x64 1 := cmpf .olt main_v44 main_v45
  let main_c_17 : IVec S_ 1 := constantI S_ 1 1#1
  let main_v47 : IVec S_ 1 := (fun x v => Host.reduce IntOp.andi x v reducesTo_S8x64_S_d0_1 h_S_) main_v46 main_c_17
  let main_v48 : IVec S_ 1 := andi main_v43 main_v47
  let main_v49 : FVec F S8x32x64 .f32 := Host.absf main_arg10
  let main_cst_18 : FVec F S_ .f32 := constant S_ .f32 0x7F800000#32
  let main_v50 : FVec F S8x32x64 .f32 := broadcastInDim S8x32x64 ![] bcast_S_S8x32x64 main_cst_18
  fn_part3 (F := F) main_arg11 main_arg12 main_arg13 main_v48 main_v49 main_v50

def fn_part1 {F : FTy → Type} [FloatOps F] (main_arg4 : FVec F S192x64 .f32) (main_arg5 : FVec F S192x64 .f32) (main_arg6 : FVec F S192 .f32) (main_arg7 : FVec F S192 .f32) (main_arg8 : FVec F S8x64x64 .f32) (main_arg9 : FVec F S8x64 .f32) (main_arg10 : FVec F S8x32x64 .f32) (main_arg11 : FVec F S8x32 .f32) (main_arg12 : FVec F S8x128 .f32) (main_arg13 : FVec F S8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192x64 .f32 := Host.absf main_arg5
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x8x128 .f32) (main_arg1 : FVec F S16384x8x64 .f32) (main_arg2 : FVec F S64x128 .f32) (main_arg3 : FVec F S64 .f32) (main_arg4 : FVec F S192x64 .f32) (main_arg5 : FVec F S192x64 .f32) (main_arg6 : FVec F S192 .f32) (main_arg7 : FVec F S192 .f32) (main_arg8 : FVec F S8x64x64 .f32) (main_arg9 : FVec F S8x64 .f32) (main_arg10 : FVec F S8x32x64 .f32) (main_arg11 : FVec F S8x32 .f32) (main_arg12 : FVec F S8x128 .f32) (main_arg13 : FVec F S8 .f32) : IVec S_ 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_c : IVec S_ 1 := constantI S_ 1 1#1
  let main_v3 : IVec S_ 1 := (fun x v => Host.reduce IntOp.andi x v reducesTo_S16384x8x128_S_d0_1_2 h_S_) main_v2 main_c
  let main_v4 : FVec F S16384x8x64 .f32 := Host.absf main_arg1
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_c_1 : IVec S_ 1 := constantI S_ 1 1#1
  let main_v7 : IVec S_ 1 := (fun x v => Host.reduce IntOp.andi x v reducesTo_S16384x8x64_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x8x128 : Shape := ⟨3, ![16384, 8, 128]⟩
abbrev S16384x8x64 : Shape := ⟨3, ![16384, 8, 64]⟩
abbrev S64x128 : Shape := ⟨2, ![64, 128]⟩
abbrev S64 : Shape := ⟨1, ![64]⟩
abbrev S192x64 : Shape := ⟨2, ![192, 64]⟩
abbrev S192 : Shape := ⟨1, ![192]⟩
abbrev S8x64x64 : Shape := ⟨3, ![8, 64, 64]⟩
abbrev S8x64 : Shape := ⟨2, ![8, 64]⟩
abbrev S8x32x64 : Shape := ⟨3, ![8, 32, 64]⟩
abbrev S8x32 : Shape := ⟨2, ![8, 32]⟩
abbrev S8x128 : Shape := ⟨2, ![8, 128]⟩
abbrev S8 : Shape := ⟨1, ![8]⟩
abbrev S131072x128 : Shape := ⟨2, ![131072, 128]⟩
abbrev S131072x64 : Shape := ⟨2, ![131072, 64]⟩
abbrev S128x64 : Shape := ⟨2, ![128, 64]⟩
abbrev S128x8 : Shape := ⟨2, ![128, 8]⟩
abbrev S128x72 : Shape := ⟨2, ![128, 72]⟩
abbrev S72 : Shape := ⟨1, ![72]⟩
abbrev S64x192 : Shape := ⟨2, ![64, 192]⟩
abbrev S64x8x64 : Shape := ⟨3, ![64, 8, 64]⟩
abbrev S64x512 : Shape := ⟨2, ![64, 512]⟩
abbrev S512 : Shape := ⟨1, ![512]⟩
abbrev S8x64x32 : Shape := ⟨3, ![8, 64, 32]⟩
abbrev S_ : Shape := ⟨0, ![]⟩
abbrev S512x256 : Shape := ⟨2, ![512, 256]⟩
abbrev S1x64x32 : Shape := ⟨3, ![1, 64, 32]⟩
abbrev S64x32 : Shape := ⟨2, ![64, 32]⟩
abbrev S1 : Shape := ⟨1, ![1]⟩
abbrev S2 : Shape := ⟨1, ![2]⟩
abbrev S256 : Shape := ⟨1, ![256]⟩
abbrev S131072x32 : Shape := ⟨2, ![131072, 32]⟩
abbrev S131072x256 : Shape := ⟨2, ![131072, 256]⟩
abbrev S2048x128 : Shape := ⟨2, ![2048, 128]⟩
abbrev S2048x64 : Shape := ⟨2, ![2048, 64]⟩
abbrev S2048x32 : Shape := ⟨2, ![2048, 32]⟩
abbrev S2048x256 : Shape := ⟨2, ![2048, 256]⟩
abbrev S2048x72 : Shape := ⟨2, ![2048, 72]⟩
abbrev S1x72 : Shape := ⟨2, ![1, 72]⟩
abbrev S2048x8 : Shape := ⟨2, ![2048, 8]⟩
abbrev S2048x192 : Shape := ⟨2, ![2048, 192]⟩
abbrev S1x192 : Shape := ⟨2, ![1, 192]⟩
abbrev S2048x512 : Shape := ⟨2, ![2048, 512]⟩
abbrev S1x512 : Shape := ⟨2, ![1, 512]⟩
abbrev S1x256 : Shape := ⟨2, ![1, 256]⟩
abbrev S2048x1 : Shape := ⟨2, ![2048, 1]⟩
abbrev S131072x8x32 : Shape := ⟨3, ![131072, 8, 32]⟩
abbrev S16384x8x32 : Shape := ⟨3, ![16384, 8, 32]⟩

abbrev nBuf : Space → Nat
  | .hbm => 100
  | .vmem => 20
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S64x128, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S8x64x64, .f32⟩
  | .hbm, ⟨9, _⟩ => ⟨S8x64, .f32⟩
  | .hbm, ⟨10, _⟩ => ⟨S8x32x64, .f32⟩
  | .hbm, ⟨11, _⟩ => ⟨S8x32, .f32⟩
  | .hbm, ⟨12, _⟩ => ⟨S8x128, .f32⟩
  | .hbm, ⟨13, _⟩ => ⟨S8, .f32⟩
  | .hbm, ⟨14, _⟩ => ⟨S131072x128, .f32⟩
  | .hbm, ⟨15, _⟩ => ⟨S131072x64, .f32⟩
  | .hbm, ⟨16, _⟩ => ⟨S128x64, .f32⟩
  | .hbm, ⟨17, _⟩ => ⟨S128x8, .f32⟩
  | .hbm, ⟨18, _⟩ => ⟨S128x72, .f32⟩
  | .hbm, ⟨19, _⟩ => ⟨S72, .f32⟩
  | .hbm, ⟨20, _⟩ => ⟨S64x192, .f32⟩
  | .hbm, ⟨21, _⟩ => ⟨S64x192, .f32⟩
  | .hbm, ⟨22, _⟩ => ⟨S8x64x64, .f32⟩
  | .hbm, ⟨23, _⟩ => ⟨S64x8x64, .f32⟩
  | .hbm, ⟨24, _⟩ => ⟨S64x512, .f32⟩
  | .hbm, ⟨25, _⟩ => ⟨S512, .f32⟩
  | .hbm, ⟨26, _⟩ => ⟨S8x64x32, .f32⟩
  | .hbm, ⟨27, _⟩ => ⟨S_, .f32⟩
  | .hbm, ⟨28, _⟩ => ⟨S512x256, .f32⟩
  | .hbm, ⟨29, _⟩ => ⟨S1x64x32, .f32⟩
  | .hbm, ⟨30, _⟩ => ⟨S64x32, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S512x256, .f32⟩
  | .hbm, ⟨37, _⟩ => ⟨S1x64x32, .f32⟩
  | .hbm, ⟨38, _⟩ => ⟨S64x32, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S512x256, .f32⟩
  | .hbm, ⟨45, _⟩ => ⟨S1x64x32, .f32⟩
  | .hbm, ⟨46, _⟩ => ⟨S64x32, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S512x256, .f32⟩
  | .hbm, ⟨53, _⟩ => ⟨S1x64x32, .f32⟩
  | .hbm, ⟨54, _⟩ => ⟨S64x32, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S512x256, .f32⟩
  | .hbm, ⟨61, _⟩ => ⟨S1x64x32, .f32⟩
  | .hbm, ⟨62, _⟩ => ⟨S64x32, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S512x256, .f32⟩
  | .hbm, ⟨69, _⟩ => ⟨S1x64x32, .f32⟩
  | .hbm, ⟨70, _⟩ => ⟨S64x32, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S512x256, .f32⟩
  | .hbm, ⟨77, _⟩ => ⟨S1x64x32, .f32⟩
  | .hbm, ⟨78, _⟩ => ⟨S64x32, .f32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S2, .i32⟩
  | .hbm, ⟨84, _⟩ => ⟨S512x256, .f32⟩
  | .hbm, ⟨85, _⟩ => ⟨S1x64x32, .f32⟩
  | .hbm, ⟨86, _⟩ => ⟨S64x32, .f32⟩
  | .hbm, ⟨87, _⟩ => ⟨S_, .i32⟩
  | .hbm, ⟨88, _⟩ => ⟨S1, .i32⟩
  | .hbm, ⟨89, _⟩ => ⟨S_, .i32⟩
  | .hbm, ⟨90, _⟩ => ⟨S1, .i32⟩
  | .hbm, ⟨91, _⟩ => ⟨S2, .i32⟩
  | .hbm, ⟨92, _⟩ => ⟨S512x256, .f32⟩
  | .hbm, ⟨93, _⟩ => ⟨S256, .f32⟩
  | .hbm, ⟨94, _⟩ => ⟨S131072x32, .f32⟩
  | .hbm, ⟨95, _⟩ => ⟨S131072x64, .f32⟩
  | .hbm, ⟨96, _⟩ => ⟨S131072x256, .f32⟩
  | .hbm, ⟨97, _⟩ => ⟨S131072x8x32, .f32⟩
  | .hbm, ⟨98, _⟩ => ⟨S16384x8x32, .f32⟩
  | .hbm, ⟨99, _⟩ => ⟨S16384x8x64, .f32⟩
  | .local _ .vmem, ⟨0, _⟩ => ⟨S2048x128, .f32⟩
  | .local _ .vmem, ⟨1, _⟩ => ⟨S2048x128, .f32⟩
  | .local _ .vmem, ⟨2, _⟩ => ⟨S2048x64, .f32⟩
  | .local _ .vmem, ⟨3, _⟩ => ⟨S2048x64, .f32⟩
  | .local _ .vmem, ⟨4, _⟩ => ⟨S128x72, .f32⟩
  | .local _ .vmem, ⟨5, _⟩ => ⟨S72, .f32⟩
  | .local _ .vmem, ⟨6, _⟩ => ⟨S64x192, .f32⟩
  | .local _ .vmem, ⟨7, _⟩ => ⟨S64x192, .f32⟩
  | .local _ .vmem, ⟨8, _⟩ => ⟨S192, .f32⟩
  | .local _ .vmem, ⟨9, _⟩ => ⟨S192, .f32⟩
  | .local _ .vmem, ⟨10, _⟩ => ⟨S64x512, .f32⟩
  | .local _ .vmem, ⟨11, _⟩ => ⟨S512, .f32⟩
  | .local _ .vmem, ⟨12, _⟩ => ⟨S512x256, .f32⟩
  | .local _ .vmem, ⟨13, _⟩ => ⟨S256, .f32⟩
  | .local _ .vmem, ⟨14, _⟩ => ⟨S2048x32, .f32⟩
  | .local _ .vmem, ⟨15, _⟩ => ⟨S2048x32, .f32⟩
  | .local _ .vmem, ⟨16, _⟩ => ⟨S2048x64, .f32⟩
  | .local _ .vmem, ⟨17, _⟩ => ⟨S2048x64, .f32⟩
  | .local _ .vmem, ⟨18, _⟩ => ⟨S2048x256, .f32⟩
  | .local _ .vmem, ⟨19, _⟩ => ⟨S2048x256, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_c_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63_0 : Ref sig .tc := ⟨.hbm, 94, rfl⟩
abbrev main_v63_1 : Ref sig .tc := ⟨.hbm, 95, rfl⟩
abbrev main_v63_2 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S16384x8x128_S131072x128 : S16384x8x128.ShapeCasts S131072x128
  shapeCasts_S16384x8x64_S131072x64 : S16384x8x64.ShapeCasts S131072x64
  transposes_S64x128_S128x64_1_0 : S64x128.Transposes [1, 0] S128x64
  transposes_S8x128_S128x8_1_0 : S8x128.Transposes [1, 0] S128x8
  concatenates_S128x64_S128x8_S128x72_d1 : Shape.Concatenates [S128x64, S128x8] S128x72 1
  concatenates_S64_S8_S72_d0 : Shape.Concatenates [S64, S8] S72 0
  transposes_S192x64_S64x192_1_0 : S192x64.Transposes [1, 0] S64x192
  transposes_S8x64x64_S8x64x64_0_2_1 : S8x64x64.Transposes [0, 2, 1] S8x64x64
  transposes_S8x64x64_S64x8x64_1_0_2 : S8x64x64.Transposes [1, 0, 2] S64x8x64
  shapeCasts_S64x8x64_S64x512 : S64x8x64.ShapeCasts S64x512
  shapeCasts_S8x64_S512 : S8x64.ShapeCasts S512
  transposes_S8x32x64_S8x64x32_0_2_1 : S8x32x64.Transposes [0, 2, 1] S8x64x32
  bcast_S_S512x256 : S_.BroadcastsInDim S512x256 (![] : Fin 0 → Fin S512x256.rank)
  slices_S8x64x32_S1x64x32_0_0_0 : S8x64x32.Slices ![0, 0, 0] S1x64x32
  shapeCasts_S1x64x32_S64x32 : S1x64x32.ShapeCasts S64x32
  bcast_S_S1 : S_.BroadcastsInDim S1 (![] : Fin 0 → Fin S1.rank)
  concatenates_S1_S1_S2_d0 : Shape.Concatenates [S1, S1] S2 0
  slices_S8x64x32_S1x64x32_1_0_0 : S8x64x32.Slices ![1, 0, 0] S1x64x32
  slices_S8x64x32_S1x64x32_2_0_0 : S8x64x32.Slices ![2, 0, 0] S1x64x32
  slices_S8x64x32_S1x64x32_3_0_0 : S8x64x32.Slices ![3, 0, 0] S1x64x32
  slices_S8x64x32_S1x64x32_4_0_0 : S8x64x32.Slices ![4, 0, 0] S1x64x32
  slices_S8x64x32_S1x64x32_5_0_0 : S8x64x32.Slices ![5, 0, 0] S1x64x32
  slices_S8x64x32_S1x64x32_6_0_0 : S8x64x32.Slices ![6, 0, 0] S1x64x32
  slices_S8x64x32_S1x64x32_7_0_0 : S8x64x32.Slices ![7, 0, 0] S1x64x32
  shapeCasts_S8x32_S256 : S8x32.ShapeCasts S256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S128x72_S128x72_0_0 : ∀ a, (![0, 0] : Fin 2 → Nat) a + S128x72.size a ≤ S128x72.size a
  h_S128x72 : 0 < S128x72.numel
  shapeCasts_S128x72_S128x72 : S128x72.ShapeCasts S128x72
  inb_S72_S72_0 : ∀ a, (![0] : Fin 1 → Nat) a + S72.size a ≤ S72.size a
  h_S72 : 0 < S72.numel
  shapeCasts_S72_S72 : S72.ShapeCasts S72
  shapeCasts_S72_S1x72 : S72.ShapeCasts S1x72
  broadcasts_S1x72_S2048x72 : S1x72.Broadcasts S2048x72
  slices_S2048x72_o0_0_S2048x64 : S2048x72.Slices ![0, 0] S2048x64
  slices_S2048x72_o0_64_S2048x8 : S2048x72.Slices ![0, 64] S2048x8
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192_S192_0 : ∀ a, (![0] : Fin 1 → Nat) a + S192.size a ≤ S192.size a
  h_S192 : 0 < S192.numel
  shapeCasts_S192_S1x192 : S192.ShapeCasts S1x192
  broadcasts_S1x192_S2048x192 : S1x192.Broadcasts S2048x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S512_S512 : S512.ShapeCasts S512
  bitsLt_bf16_f32 : FTy.bits .bf16 < FTy.bits .f32
  shapeCasts_S512_S1x512 : S512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S2048x8_o0_0_S2048x1 : S2048x8.Slices ![0, 0] S2048x1
  slices_S2048x256_o0_0_S2048x32 : S2048x256.Slices ![0, 0] S2048x32
  broadcasts_S2048x1_S2048x32 : S2048x1.Broadcasts S2048x32
  slices_S2048x8_o0_1_S2048x1 : S2048x8.Slices ![0, 1] S2048x1
  slices_S2048x256_o0_32_S2048x32 : S2048x256.Slices ![0, 32] S2048x32
  slices_S2048x8_o0_2_S2048x1 : S2048x8.Slices ![0, 2] S2048x1
  slices_S2048x256_o0_64_S2048x32 : S2048x256.Slices ![0, 64] S2048x32
  slices_S2048x8_o0_3_S2048x1 : S2048x8.Slices ![0, 3] S2048x1
  slices_S2048x256_o0_96_S2048x32 : S2048x256.Slices ![0, 96] S2048x32
  slices_S2048x8_o0_4_S2048x1 : S2048x8.Slices ![0, 4] S2048x1
  slices_S2048x256_o0_128_S2048x32 : S2048x256.Slices ![0, 128] S2048x32
  slices_S2048x8_o0_5_S2048x1 : S2048x8.Slices ![0, 5] S2048x1
  slices_S2048x256_o0_160_S2048x32 : S2048x256.Slices ![0, 160] S2048x32
  slices_S2048x8_o0_6_S2048x1 : S2048x8.Slices ![0, 6] S2048x1
  slices_S2048x256_o0_192_S2048x32 : S2048x256.Slices ![0, 192] S2048x32
  slices_S2048x8_o0_7_S2048x1 : S2048x8.Slices ![0, 7] S2048x1
  slices_S2048x256_o0_224_S2048x32 : S2048x256.Slices ![0, 224] S2048x32
  inb_S2048x32_S2048x32_0_0 : ∀ a, (![0, 0] : Fin 2 → Nat) a + S2048x32.size a ≤ S2048x32.size a
  h_S2048x32 : 0 < S2048x32.numel
  shapeCasts_S131072x256_S131072x8x32 : S131072x256.ShapeCasts S131072x8x32
  shapeCasts_S131072x32_S16384x8x32 : S131072x32.ShapeCasts S16384x8x32
  shapeCasts_S131072x64_S16384x8x64 : S131072x64.ShapeCasts S16384x8x64
  scatter_S512x256_S2_S64x32_01_n_01_0_wf : ScatterDims.WF S512x256 S2 S64x32 [0, 1] [] [0, 1] 0
  dot_S2048x128_S128x72_S2048x72_1_0_0_1_n_n_wf : DotDims.WF S2048x128 S128x72 S2048x72 [1] [0] [0] [1] [] []
  dot_S2048x64_S64x192_S2048x192_1_0_0_1_n_n_wf : DotDims.WF S2048x64 S64x192 S2048x192 [1] [0] [0] [1] [] []
  dot_S2048x64_S64x512_S2048x512_1_0_0_1_n_n_wf : DotDims.WF S2048x64 S64x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S131072x64.size a
  hwx0_1 : ∀ i : grid0.Coords, EltTy.bits .f32 = 32 ∨ (Rect.block (s := S131072x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x72.size a ≤ S128x72.size a
  hwx0_2 : ∀ i : grid0.Coords, EltTy.bits .f32 = 32 ∨ (Rect.block (s := S128x72) S128x72.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S72.size a ≤ S72.size a
  hwx0_3 : ∀ i : grid0.Coords, EltTy.bits .f32 = 32 ∨ (Rect.block (s := S72) S72.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x192.size a ≤ S64x192.size a
  hwx0_4 : ∀ i : grid0.Coords, EltTy.bits .f32 = 32 ∨ (Rect.block (s := S64x192) S64x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x192.size a ≤ S64x192.size a
  hwx0_5 : ∀ i : grid0.Coords, EltTy.bits .f32 = 32 ∨ (Rect.block (s := S64x192) S64x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192.size a ≤ S192.size a
  hwx0_6 : ∀ i : grid0.Coords, EltTy.bits .f32 = 32 ∨ (Rect.block (s := S192) S192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192.size a ≤ S192.size a
  hwx0_7 : ∀ i : grid0.Coords, EltTy.bits .f32 = 32 ∨ (Rect.block (s := S192) S192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x512.size a ≤ S64x512.size a
  hwx0_8 : ∀ i : grid0.Coords, EltTy.bits .f32 = 32 ∨ (Rect.block (s := S64x512) S64x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x32.size a ≤ S131072x32.size a
  hwx0_12 : ∀ i : grid0.Coords, EltTy.bits .f32 = 32 ∨ (Rect.block (s := S131072x32) S2048x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x64.size a ≤ S131072x64.size a
  hwx0_13 : ∀ i : grid0.Coords, EltTy.bits .f32 = 32 ∨ (Rect.block (s := S131072x64) S2048x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x256.size a ≤ S131072x256.size a
  hwx0_14 : ∀ i : grid0.Coords, EltTy.bits .f32 = 32 ∨ (Rect.block (s := S131072x256) S2048x256.size (cc0_transform_14 i) (hinb0_14 i)).WholeWords (EltTy.packing .f32)

variable [Facts₀]

def scatter_S512x256_S2_S64x32_01_n_01_0 : ScatterDims S512x256 S2 S64x32 where
  updateWindowDims := [0, 1]
  insertedWindowDims := []
  scatterDimsToOperandDims := [0, 1]
  indexVectorDim := 0
  wf := scatter_S512x256_S2_S64x32_01_n_01_0_wf
def dot_S2048x128_S128x72_S2048x72_1_0_0_1_n_n : DotDims S2048x128 S128x72 S2048x72 where
  lhsContracting := [1]
  rhsContracting := [0]
  lhsNonContracting := [0]
  rhsNonContracting := [1]
  lhsBatch := []
  rhsBatch := []
  wf := dot_S2048x128_S128x72_S2048x72_1_0_0_1_n_n_wf
def dot_S2048x64_S64x192_S2048x192_1_0_0_1_n_n : DotDims S2048x64 S64x192 S2048x192 where
  lhsContracting := [1]
  rhsContracting := [0]
  lhsNonContracting := [0]
  rhsNonContracting := [1]
  lhsBatch := []
  rhsBatch := []
  wf := dot_S2048x64_S64x192_S2048x192_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x72.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S72.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S64x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v62) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v63_0) S2048x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v63_1) S2048x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v63_2) S2048x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x8x128 : Shape := ⟨3, ![16384, 8, 128]⟩
abbrev S16384x8x64 : Shape := ⟨3, ![16384, 8, 64]⟩
abbrev S64x128 : Shape := ⟨2, ![64, 128]⟩
abbrev S64 : Shape := ⟨1, ![64]⟩
abbrev S192x64 : Shape := ⟨2, ![192, 64]⟩
abbrev S192 : Shape := ⟨1, ![192]⟩
abbrev S8x64x64 : Shape := ⟨3, ![8, 64, 64]⟩
abbrev S8x64 : Shape := ⟨2, ![8, 64]⟩
abbrev S8x32x64 : Shape := ⟨3, ![8, 32, 64]⟩
abbrev S8x32 : Shape := ⟨2, ![8, 32]⟩
abbrev S8x128 : Shape := ⟨2, ![8, 128]⟩
abbrev S8 : Shape := ⟨1, ![8]⟩
abbrev S131072x128 : Shape := ⟨2, ![131072, 128]⟩
abbrev S128x64 : Shape := ⟨2, ![128, 64]⟩
abbrev S131072x64 : Shape := ⟨2, ![131072, 64]⟩
abbrev S1x64 : Shape := ⟨2, ![1, 64]⟩
abbrev S_ : Shape := ⟨0, ![]⟩
abbrev S64x192 : Shape := ⟨2, ![64, 192]⟩
abbrev S131072x192 : Shape := ⟨2, ![131072, 192]⟩
abbrev S1x192 : Shape := ⟨2, ![1, 192]⟩
abbrev S8x64x131072 : Shape := ⟨3, ![8, 64, 131072]⟩
abbrev S8x131072x64 : Shape := ⟨3, ![8, 131072, 64]⟩
abbrev S8x1x64 : Shape := ⟨3, ![8, 1, 64]⟩
abbrev S8x131072x32 : Shape := ⟨3, ![8, 131072, 32]⟩
abbrev S8x1x32 : Shape := ⟨3, ![8, 1, 32]⟩
abbrev S128x8 : Shape := ⟨2, ![128, 8]⟩
abbrev S131072x8 : Shape := ⟨2, ![131072, 8]⟩
abbrev S1x8 : Shape := ⟨2, ![1, 8]⟩
abbrev S8x131072 : Shape := ⟨2, ![8, 131072]⟩
abbrev S8x131072x1 : Shape := ⟨3, ![8, 131072, 1]⟩
abbrev S131072x32 : Shape := ⟨2, ![131072, 32]⟩
abbrev S16384x8x32 : Shape := ⟨3, ![16384, 8, 32]⟩
abbrev S131072x8x32 : Shape := ⟨3, ![131072, 8, 32]⟩

abbrev nBuf : Space → Nat
  | .hbm => 104
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S64x128, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S8x64x64, .f32⟩
  | .hbm, ⟨9, _⟩ => ⟨S8x64, .f32⟩
  | .hbm, ⟨10, _⟩ => ⟨S8x32x64, .f32⟩
  | .hbm, ⟨11, _⟩ => ⟨S8x32, .f32⟩
  | .hbm, ⟨12, _⟩ => ⟨S8x128, .f32⟩
  | .hbm, ⟨13, _⟩ => ⟨S8, .f32⟩
  | .hbm, ⟨14, _⟩ => ⟨S131072x128, .f32⟩
  | .hbm, ⟨15, _⟩ => ⟨S128x64, .f32⟩
  | .hbm, ⟨16, _⟩ => ⟨S131072x64, .f32⟩
  | .hbm, ⟨17, _⟩ => ⟨S1x64, .f32⟩
  | .hbm, ⟨18, _⟩ => ⟨S131072x64, .f32⟩
  | .hbm, ⟨19, _⟩ => ⟨S131072x64, .f32⟩
  | .hbm, ⟨20, _⟩ => ⟨S_, .f32⟩
  | .hbm, ⟨21, _⟩ => ⟨S131072x64, .f32⟩
  | .hbm, ⟨22, _⟩ => ⟨S131072x64, .f32⟩
  | .hbm, ⟨23, _⟩ => ⟨S131072x64, .f32⟩
  | .hbm, ⟨24, _⟩ => ⟨S64x192, .f32⟩
  | .hbm, ⟨25, _⟩ => ⟨S131072x192, .f32⟩
  | .hbm, ⟨26, _⟩ => ⟨S1x192, .f32⟩
  | .hbm, ⟨27, _⟩ => ⟨S131072x192, .f32⟩
  | .hbm, ⟨28, _⟩ => ⟨S131072x192, .f32⟩
  | .hbm, ⟨29, _⟩ => ⟨S64x192, .f32⟩
  | .hbm, ⟨30, _⟩ => ⟨S131072x192, .f32⟩
  | .hbm, ⟨31, _⟩ => ⟨S1x192, .f32⟩
  | .hbm, ⟨32, _⟩ => ⟨S131072x192, .f32⟩
  | .hbm, ⟨33, _⟩ => ⟨S131072x192, .f32⟩
  | .hbm, ⟨34, _⟩ => ⟨S131072x64, .f32⟩
  | .hbm, ⟨35, _⟩ => ⟨S131072x64, .f32⟩
  | .hbm, ⟨36, _⟩ => ⟨S131072x64, .f32⟩
  | .hbm, ⟨37, _⟩ => ⟨S131072x64, .f32⟩
  | .hbm, ⟨38, _⟩ => ⟨S131072x64, .f32⟩
  | .hbm, ⟨39, _⟩ => ⟨S131072x64, .f32⟩
  | .hbm, ⟨40, _⟩ => ⟨S131072x64, .f32⟩
  | .hbm, ⟨41, _⟩ => ⟨S131072x64, .f32⟩
  | .hbm, ⟨42, _⟩ => ⟨S131072x64, .f32⟩
  | .hbm, ⟨43, _⟩ => ⟨S_, .f32⟩
  | .hbm, ⟨44, _⟩ => ⟨S131072x64, .f32⟩
  | .hbm, ⟨45, _⟩ => ⟨S131072x64, .f32⟩
  | .hbm, ⟨46, _⟩ => ⟨S_, .f32⟩
  | .hbm, ⟨47, _⟩ => ⟨S131072x64, .f32⟩
  | .hbm, ⟨48, _⟩ => ⟨S131072x64, .f32⟩
  | .hbm, ⟨49, _⟩ => ⟨S131072x64, .f32⟩
  | .hbm, ⟨50, _⟩ => ⟨S131072x64, .f32⟩
  | .hbm, ⟨51, _⟩ => ⟨S131072x64, .f32⟩
  | .hbm, ⟨52, _⟩ => ⟨S_, .f32⟩
  | .hbm, ⟨53, _⟩ => ⟨S131072x64, .f32⟩
  | .hbm, ⟨54, _⟩ => ⟨S131072x64, .f32⟩
  | .hbm, ⟨55, _⟩ => ⟨S_, .f32⟩
  | .hbm, ⟨56, _⟩ => ⟨S131072x64, .f32⟩
  | .hbm, ⟨57, _⟩ => ⟨S131072x64, .f32⟩
  | .hbm, ⟨58, _⟩ => ⟨S131072x64, .f32⟩
  | .hbm, ⟨59, _⟩ => ⟨S131072x64, .f32⟩
  | .hbm, ⟨60, _⟩ => ⟨S131072x64, .f32⟩
  | .hbm, ⟨61, _⟩ => ⟨S_, .f32⟩
  | .hbm, ⟨62, _⟩ => ⟨S131072x64, .f32⟩
  | .hbm, ⟨63, _⟩ => ⟨S131072x64, .f32⟩
  | .hbm, ⟨64, _⟩ => ⟨S131072x64, .f32⟩
  | .hbm, ⟨65, _⟩ => ⟨S131072x64, .f32⟩
  | .hbm, ⟨66, _⟩ => ⟨S131072x64, .f32⟩
  | .hbm, ⟨67, _⟩ => ⟨S8x64x131072, .f32⟩
  | .hbm, ⟨68, _⟩ => ⟨S8x131072x64, .f32⟩
  | .hbm, ⟨69, _⟩ => ⟨S8x1x64, .f32⟩
  | .hbm, ⟨70, _⟩ => ⟨S8x131072x64, .f32⟩
  | .hbm, ⟨71, _⟩ => ⟨S8x131072x64, .f32⟩
  | .hbm, ⟨72, _⟩ => ⟨S_, .f32⟩
  | .hbm, ⟨73, _⟩ => ⟨S8x131072x64, .f32⟩
  | .hbm, ⟨74, _⟩ => ⟨S8x131072x64, .f32⟩
  | .hbm, ⟨75, _⟩ => ⟨S8x131072x32, .f32⟩
  | .hbm, ⟨76, _⟩ => ⟨S8x1x32, .f32⟩
  | .hbm, ⟨77, _⟩ => ⟨S8x131072x32, .f32⟩
  | .hbm, ⟨78, _⟩ => ⟨S8x131072x32, .f32⟩
  | .hbm, ⟨79, _⟩ => ⟨S128x8, .f32⟩
  | .hbm, ⟨80, _⟩ => ⟨S131072x8, .f32⟩
  | .hbm, ⟨81, _⟩ => ⟨S1x8, .f32⟩
  | .hbm, ⟨82, _⟩ => ⟨S131072x8, .f32⟩
  | .hbm, ⟨83, _⟩ => ⟨S131072x8, .f32⟩
  | .hbm, ⟨84, _⟩ => ⟨S131072x8, .f32⟩
  | .hbm, ⟨85, _⟩ => ⟨S131072x8, .f32⟩
  | .hbm, ⟨86, _⟩ => ⟨S_, .f32⟩
  | .hbm, ⟨87, _⟩ => ⟨S131072x8, .f32⟩
  | .hbm, ⟨88, _⟩ => ⟨S131072x8, .f32⟩
  | .hbm, ⟨89, _⟩ => ⟨S_, .f32⟩
  | .hbm, ⟨90, _⟩ => ⟨S131072x8, .f32⟩
  | .hbm, ⟨91, _⟩ => ⟨S131072x8, .f32⟩
  | .hbm, ⟨92, _⟩ => ⟨S8x131072, .f32⟩
  | .hbm, ⟨93, _⟩ => ⟨S8x131072x1, .f32⟩
  | .hbm, ⟨94, _⟩ => ⟨S8x131072x32, .f32⟩
  | .hbm, ⟨95, _⟩ => ⟨S8x131072x32, .f32⟩
  | .hbm, ⟨96, _⟩ => ⟨S_, .f32⟩
  | .hbm, ⟨97, _⟩ => ⟨S131072x32, .f32⟩
  | .hbm, ⟨98, _⟩ => ⟨S_, .f32⟩
  | .hbm, ⟨99, _⟩ => ⟨S131072x32, .f32⟩
  | .hbm, ⟨100, _⟩ => ⟨S131072x32, .f32⟩
  | .hbm, ⟨101, _⟩ => ⟨S16384x8x32, .f32⟩
  | .hbm, ⟨102, _⟩ => ⟨S16384x8x64, .f32⟩
  | .hbm, ⟨103, _⟩ => ⟨S131072x8x32, .f32⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_cst_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_4 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_6 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  shapeCasts_S16384x8x128_S131072x128 : S16384x8x128.ShapeCasts S131072x128
  transposes_S64x128_S128x64_1_0 : S64x128.Transposes [1, 0] S128x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  shapeCasts_S16384x8x64_S131072x64 : S16384x8x64.ShapeCasts S131072x64
  transposes_S192x64_S64x192_1_0 : S192x64.Transposes [1, 0] S64x192
  bcast_S192_S1x192_1 : S192.BroadcastsInDim S1x192 (![1] : Fin 1 → Fin S1x192.rank)
  bcast_S1x192_S131072x192_0_1 : S1x192.BroadcastsInDim S131072x192 (![0, 1] : Fin 2 → Fin S131072x192.rank)
  slices_S131072x192_S131072x64_0_0 : S131072x192.Slices ![0, 0] S131072x64
  slices_S131072x192_S131072x64_0_64 : S131072x192.Slices ![0, 64] S131072x64
  slices_S131072x192_S131072x64_0_128 : S131072x192.Slices ![0, 128] S131072x64
  transposes_S8x64x131072_S8x131072x64_0_2_1 : S8x64x131072.Transposes [0, 2, 1] S8x131072x64
  bcast_S8x64_S8x1x64_0_2 : S8x64.BroadcastsInDim S8x1x64 (![0, 2] : Fin 2 → Fin S8x1x64.rank)
  bcast_S8x1x64_S8x131072x64_0_1_2 : S8x1x64.BroadcastsInDim S8x131072x64 (![0, 1, 2] : Fin 3 → Fin S8x131072x64.rank)
  bcast_S_S8x131072x64 : S_.BroadcastsInDim S8x131072x64 (![] : Fin 0 → Fin S8x131072x64.rank)
  bcast_S8x32_S8x1x32_0_2 : S8x32.BroadcastsInDim S8x1x32 (![0, 2] : Fin 2 → Fin S8x1x32.rank)
  bcast_S8x1x32_S8x131072x32_0_1_2 : S8x1x32.BroadcastsInDim S8x131072x32 (![0, 1, 2] : Fin 3 → Fin S8x131072x32.rank)
  transposes_S8x128_S128x8_1_0 : S8x128.Transposes [1, 0] S128x8
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  transposes_S131072x8_S8x131072_1_0 : S131072x8.Transposes [1, 0] S8x131072
  bcast_S8x131072_S8x131072x1_0_1 : S8x131072.BroadcastsInDim S8x131072x1 (![0, 1] : Fin 2 → Fin S8x131072x1.rank)
  bcast_S8x131072x1_S8x131072x32_0_1_2 : S8x131072x1.BroadcastsInDim S8x131072x32 (![0, 1, 2] : Fin 3 → Fin S8x131072x32.rank)
  reducesTo_S8x131072x32_S131072x32_d0 : S8x131072x32.ReducesTo [0] S131072x32
  h_S_ : 0 < S_.numel
  bcast_S_S131072x32 : S_.BroadcastsInDim S131072x32 (![] : Fin 0 → Fin S131072x32.rank)
  shapeCasts_S131072x32_S16384x8x32 : S131072x32.ShapeCasts S16384x8x32
  shapeCasts_S131072x64_S16384x8x64 : S131072x64.ShapeCasts S16384x8x64
  transposes_S8x131072x32_S131072x8x32_1_0_2 : S8x131072x32.Transposes [1, 0, 2] S131072x8x32
  dot_S131072x128_S128x64_S131072x64_1_0_0_1_n_n_wf : DotDims.WF S131072x128 S128x64 S131072x64 [1] [0] [0] [1] [] []
  dot_S131072x64_S64x192_S131072x192_1_0_0_1_n_n_wf : DotDims.WF S131072x64 S64x192 S131072x192 [1] [0] [0] [1] [] []
  dot_S8x64x64_S131072x64_S8x64x131072_2_1_01_0_n_n_wf : DotDims.WF S8x64x64 S131072x64 S8x64x131072 [2] [1] [0, 1] [0] [] []
  dot_S8x131072x64_S8x32x64_S8x131072x32_2_2_1_1_0_0_wf : DotDims.WF S8x131072x64 S8x32x64 S8x131072x32 [2] [2] [1] [1] [0] [0]
  dot_S131072x128_S128x8_S131072x8_1_0_0_1_n_n_wf : DotDims.WF S131072x128 S128x8 S131072x8 [1] [0] [0] [1] [] []

variable [Facts₀]

def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x192_S131072x192_1_0_0_1_n_n : DotDims S131072x64 S64x192 S131072x192 where
  lhsContracting := [1]
  rhsContracting := [0]
  lhsNonContracting := [0]
  rhsNonContracting := [1]
  lhsBatch := []
  rhsBatch := []
  wf := dot_S131072x64_S64x192_S131072x192_1_0_0_1_n_n_wf
def dot_S8x64x64_S131072x64_S8x64x131072_2_1_01_0_n_n : DotDims S8x64x64 S131072x64 S8x64x131072 where
  lhsContracting := [2]
  rhsContracting := [1]
  lhsNonContracting := [0, 1]
  rhsNonContracting := [0]
  lhsBatch := []
  rhsBatch := []
  wf := dot_S8x64x64_S131072x64_S8x64x131072_2_1_01_0_n_n_wf
def dot_S8x131072x64_S8x32x64_S8x131072x32_2_2_1_1_0_0 : DotDims S8x131072x64 S8x32x64 S8x131072x32 where
  lhsContracting := [2]
  rhsContracting := [2]
  lhsNonContracting := [1]
  rhsNonContracting := [1]
  lhsBatch := [0]
  rhsBatch := [0]
  wf := dot_S8x131072x64_S8x32x64_S8x131072x32_2_2_1_1_0_0_wf
def dot_S131072x128_S128x8_S131072x8_1_0_0_1_n_n : DotDims S131072x128 S128x8 S131072x8 where
  lhsContracting := [1]
  rhsContracting := [0]
  lhsNonContracting := [0]
  rhsNonContracting := [1]
  lhsBatch := []
  rhsBatch := []
  wf := dot_S131072x128_S128x8_S131072x8_1_0_0_1_n_n_wf

class Facts : Prop extends Facts₀ where

variable [Facts]
-- ==== Proof.RowSpec.lean ====
/-
  One row of the network, over the extended reals.

  A row carries an input vector x (128 entries) and a hidden vector h (64 entries). With the weights in the
  layout the arguments have:
    feat j    = max (sum_e x e * fcW[j,e] + fcB[j]) 0                       the input layer, 64 features
    gate n    = sigmoid (sum_e x e * gW[n,e] + gB[n])                       the eight mixing weights
    gi q, gh q                                                               the two 192-wide gate pre-activations
    r, z      = sigmoid of the first and second 64-wide thirds of gi + gh
    cand      = tanh (third third of gi + r * third third of gh)
    newH j    = (1 - z j) * cand j + z j * h j                              the new hidden vector
    hid n k   = max (sum_j newH j * ew1[n,k,j] + eb1[n,k]) 0                expert n, first layer
    expert n a = sum_k hid n k * ew2[n,a,k] + eb2[n,a]                      expert n, 32 outputs
    mixed a   = (sum_n gate n * expert n a) * (1/8)                         the weighted mean over experts
  The words of +0.0 and 1.0 stay words: both programs spell the same ones.
-/
import Idealize.ShloMosaic.PureOps.Ideal
import Idealize.ShloMosaic.Lib.ValueIdx

noncomputable section

open scoped BigOperators

namespace Cert.RowSpec

open Idealize.ShloMosaic Idealize.ShloMosaic.ValueIdx

/-- The word of +0.0. -/
abbrev zeroW : EReal := Ideal.ofBits .f32 0x00000000#32
/-- The word of 1.0. -/
abbrev oneW : EReal := Ideal.ofBits .f32 0x3F800000#32

/-- The weights, in the layout of the arguments. -/
structure Params where
  fcW : (⟨2, ![64, 128]⟩ : Shape).Idx → EReal
  fcB : (⟨1, ![64]⟩ : Shape).Idx → EReal
  wih : (⟨2, ![192, 64]⟩ : Shape).Idx → EReal
  whh : (⟨2, ![192, 64]⟩ : Shape).Idx → EReal
  bih : (⟨1, ![192]⟩ : Shape).Idx → EReal
  bhh : (⟨1, ![192]⟩ : Shape).Idx → EReal
  ew1 : (⟨3, ![8, 64, 64]⟩ : Shape).Idx → EReal
  eb1 : (⟨2, ![8, 64]⟩ : Shape).Idx → EReal
  ew2 : (⟨3, ![8, 32, 64]⟩ : Shape).Idx → EReal
  eb2 : (⟨2, ![8, 32]⟩ : Shape).Idx → EReal
  gW : (⟨2, ![8, 128]⟩ : Shape).Idx → EReal
  gB : (⟨1, ![8]⟩ : Shape).Idx → EReal

/-- Column o + j of a 192-wide row, for one of its three 64-wide thirds. -/
abbrev third (o : Nat) (j : Fin 64) (ho : o + 64 ≤ 192) : Fin 192 := ⟨o + j.val, by have := j.isLt; omega⟩

variable (P : Params) (x : Fin 128 → EReal) (h : Fin 64 → EReal)

/-- The input layer: 64 features of the row's input vector. -/
def feat (j : Fin 64) : EReal := max ((∑ e : Fin 128, x e * P.fcW (ix2 j e)) + P.fcB (ix1 j)) zeroW

/-- The eight mixing weights of the row. -/
def gate (n : Fin 8) : EReal := Ideal.logistic ((∑ e : Fin 128, x e * P.gW (ix2 n e)) + P.gB (ix1 n))

/-- The input-side gate pre-activations. -/
def gi (q : Fin 192) : EReal := (∑ k : Fin 64, feat P x k * P.wih (ix2 q k)) + P.bih (ix1 q)

/-- The hidden-side gate pre-activations. -/
def gh (q : Fin 192) : EReal := (∑ k : Fin 64, h k * P.whh (ix2 q k)) + P.bhh (ix1 q)

/-- The reset gate. -/
def rGate (j : Fin 64) : EReal :=
  Ideal.logistic (gi P x (third 0 j (by omega)) + gh P h (third 0 j (by omega)))

/-- The update gate. -/
def zGate (j : Fin 64) : EReal :=
  Ideal.logistic (gi P x (third 64 j (by omega)) + gh P h (third 64 j (by omega)))

/-- The candidate hidden vector. -/
def cand (j : Fin 64) : EReal :=
  Ideal.tanh (gi P x (third 128 j (by omega)) + rGate P x h j * gh P h (third 128 j (by omega)))

/-- The new hidden vector. -/
def newH (j : Fin 64) : EReal := (oneW - zGate P x h j) * cand P x h j + zGate P x h j * h j

/-- Expert n, first layer. -/
def hid (n : Fin 8) (k : Fin 64) : EReal :=
  max ((∑ j : Fin 64, newH P x h j * P.ew1 (ix3 n k j)) + P.eb1 (ix2 n k)) zeroW

/-- Expert n, its 32 outputs. -/
def expert (n : Fin 8) (a : Fin 32) : EReal :=
  (∑ k : Fin 64, hid P x h n k * P.ew2 (ix3 n a k)) + P.eb2 (ix2 n a)

/-- The mean over the experts of gate times expert. -/
def mixed (a : Fin 32) : EReal :=
  (∑ n : Fin 8, gate P x n * expert P x h n a) * Ideal.ofBits .f32 0x3E000000#32

/-! ## Whole arrays: R rows -/

variable {R : Nat} (X : (⟨2, ![R, 128]⟩ : Shape).Idx → EReal) (H : (⟨2, ![R, 64]⟩ : Shape).Idx → EReal)

/-- Row m of an R-by-c array. -/
abbrev row {c : Nat} (A : (⟨2, ![R, c]⟩ : Shape).Idx → EReal) (m : Fin R) : Fin c → EReal := fun e => A (ix2 m e)

/-- The new hidden vectors of all rows. -/
def hiddenArr : (⟨2, ![R, 64]⟩ : Shape).Idx → EReal := fun i => newH P (row X (i 0)) (row H (i 0)) (i 1)

/-- The mixed outputs of all rows. -/
def mixedArr : (⟨2, ![R, 32]⟩ : Shape).Idx → EReal := fun i => mixed P (row X (i 0)) (row H (i 0)) (i 1)

/-- The experts' outputs of all rows, row-major in (row, expert, output). -/
def expertArr : (⟨3, ![R, 8, 32]⟩ : Shape).Idx → EReal :=
  fun i => expert P (row X (i 0)) (row H (i 0)) (i 1) (i 2)

end Cert.RowSpec

end
-- ==== Proof.Consts.lean ====
/-
  The float words both programs spell, as the extended reals they denote: +0.0, 1.0, 8.0 and 0.125.
  The mean over the eight experts is a division by 8.0 on one side and a product with 0.125 on the other;
  0.125 is exactly 1/8, so the two agree on every extended real.
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 8.0 denotes the real 8. -/
theorem ofBits_eight : Ideal.ofBits .f32 0x41000000#32 = ((8 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- Dividing by 8.0 is multiplying by 0.125, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

end Cert.Consts

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibDenseT.lean ====
/-
  A linear layer with the weight matrix stored output-major, read at an entry, generic in the sizes.

  The weights `W` are a `B × K` matrix (one row per output); the layer multiplies an `A × K` matrix `x` by the
  transpose of `W`. Entry `(r, j)` of the product is the sum over `k` of `x (r, k) · W (j, k)`: for the matrix
  unit's product into a zero accumulator (`matmulT_zero_apply`) and for the host's product (`dotT_apply`), over the
  extended reals, at any precision attribute and any float formats of the operands. With a bias row added, the entry
  is that sum plus the bias at `j`: the bias a one-row matrix broadcast down the rows (`matmulT_rowBias_apply`), or a
  vector broadcast to one row and then down the rows (`dotT_vecBias_apply`).
-/
import proofs.«157973_j80066780332773_2_alg».proof.Proof.LibContractPlain
import Idealize.ShloMosaic.Lib.ValueLayout
import Idealize.ShloMosaic.Lib.Pipeline.Value

noncomputable section

open scoped BigOperators

namespace Cert.LibDenseT

open Idealize.ShloMosaic Idealize.ShloMosaic.ValueIdx Cert.LibContractPlain

/-- The matrix unit's product of `x` by the transposed weights, into a zero accumulator, at `(r, j)`. -/
theorem matmulT_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    FloatOps.matmul (plainDims A K B wf) prec x (transpose ⟨2, ![K, B]⟩ [1, 0] W hT)
        (constant (F := Ideal) ⟨2, ![A, B]⟩ .f32 0x00000000#32) (ix2 r j)
      = ∑ k : Fin K, x (ix2 r k) * W (ix2 j k) := by
  rw [matmulPlain_zero_apply]
  refine Finset.sum_congr rfl fun k _ => ?_
  rw [transpose_ix2_apply]

/-- The host's product of `x` by the transposed weights, at `(r, j)`. -/
theorem dotT_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    Host.dotGeneral (plainDims A K B wf) prec x (transpose ⟨2, ![K, B]⟩ [1, 0] W hT) (ix2 r j)
      = ∑ k : Fin K, x (ix2 r k) * W (ix2 j k) := by
  rw [dotPlain_apply]
  refine Finset.sum_congr rfl fun k _ => ?_
  rw [transpose_ix2_apply]

/-- A one-row matrix broadcast down `A` rows reads, at `(r, j)`, the row's entry `j`. -/
theorem rowDown_apply {α : Type} {A B : Nat} (b : (⟨2, ![1, B]⟩ : Shape).Idx → α)
    (h : (⟨2, ![1, B]⟩ : Shape).Broadcasts ⟨2, ![A, B]⟩) (r : Fin A) (j : Fin B) :
    broadcastTo ⟨2, ![A, B]⟩ b h (ix2 r j) = b (ix2 (0 : Fin 1) j) :=
  broadcastTo_1b_ab_apply b h r j

/-- A vector broadcast to one row and then down `A` rows reads, at `(r, j)`, the vector's entry `j`. -/
theorem vecDown_apply {α : Type} {A B : Nat} (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (r : Fin A) (j : Fin B) :
    broadcastInDim ⟨2, ![A, B]⟩ ![0, 1] h2 (broadcastInDim ⟨2, ![1, B]⟩ ![1] h1 b) (ix2 r j) = b (ix1 j) := by
  refine (broadcastInDim_apply _ h2 _ (ix2 r j) (ix2 (0 : Fin 1) j) (fun c => match c with
    | ⟨0, _⟩ => by
      show 0 = if (1 : Nat) = 1 then 0 else r.val
      rw [if_pos rfl]
    | ⟨1, _⟩ => by
      show j.val = if B = 1 then 0 else j.val
      split
      · have := j.isLt; omega
      · rfl)).trans ?_
  exact broadcastInDim_apply _ h1 b (ix2 (0 : Fin 1) j) (ix1 j) (fun c => match c with
    | ⟨0, _⟩ => by
      show j.val = if B = 1 then 0 else j.val
      split
      · have := j.isLt; omega
      · rfl)

/-- A vector reshaped to one row reads, at `(0, j)`, the vector's entry `j`. -/
theorem vecAsRow_apply {α : Type} {B : Nat} (b : (⟨1, ![B]⟩ : Shape).Idx → α)
    (h : (⟨1, ![B]⟩ : Shape).ShapeCasts ⟨2, ![1, B]⟩) (u : Fin 1) (j : Fin B) :
    shapeCast ⟨2, ![1, B]⟩ b h (ix2 u j) = b (ix1 j) :=
  shapeCast_apply b h _ _ (by
    have hu : u.val = 0 := by omega
    rw [Shape.rowMajor_val_two, Shape.rowMajor_val_one]
    show j.val = u.val * B + j.val
    rw [hu, Nat.zero_mul, Nat.zero_add])

end Cert.LibDenseT

end
-- ==== Proof.LibLayoutCols.lean ====
/-
  Layout operations of a host program read at one index, for arrays of rank one and two given by coordinates.

  A broadcast, a slice of columns, a reversal of the columns, a concatenation of columns and a gather of whole columns
  each read, at the entry (n, k) of their result, one entry of one operand. The lemmas name that entry by its
  coordinates, so that a value at an index is rewritten operation by operation down to the arrays the program starts from.
-/
import Idealize.ShloMosaic.Lib.Pipeline.Value
import Idealize.ShloMosaic.Lib.ValueIdx

noncomputable section

namespace Cert.RefLayout

open Idealize.ShloMosaic Idealize.ShloMosaic.ValueIdx

variable {α : Type}

/-! ## Broadcasts -/

/-- A scalar broadcast to any shape reads the scalar at every index. -/
theorem bcast0_apply (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A length-N array made the one column of an [N, 1] array: entry (n, 0) is entry n. -/
theorem bcast_col_apply {N : Nat} (h : (⟨1, ![N]⟩ : Shape).BroadcastsInDim ⟨2, ![N, 1]⟩ ![0])
    (x : (⟨1, ![N]⟩ : Shape).Idx → α) (n : Fin N) (k : Fin 1) :
    broadcastInDim ⟨2, ![N, 1]⟩ ![0] h x (ix2 n k) = x (ix1 n) :=
  broadcastInDim_apply _ h x _ (ix1 n) fun a => match a with
    | ⟨0, _⟩ => by
      show n.val = if N = 1 then 0 else n.val
      split
      · have := n.isLt; omega
      · rfl

/-- A length-W array made the one row of a [1, W] array: entry (0, k) is entry k. -/
theorem bcast_row_apply {W : Nat} (h : (⟨1, ![W]⟩ : Shape).BroadcastsInDim ⟨2, ![1, W]⟩ ![1])
    (x : (⟨1, ![W]⟩ : Shape).Idx → α) (n : Fin 1) (k : Fin W) :
    broadcastInDim ⟨2, ![1, W]⟩ ![1] h x (ix2 n k) = x (ix1 k) :=
  broadcastInDim_apply _ h x _ (ix1 k) fun a => match a with
    | ⟨0, _⟩ => by
      show k.val = if W = 1 then 0 else k.val
      split
      · have := k.isLt; omega
      · rfl

/-- A [1, W] array repeated down N rows: entry (n, k) is entry (0, k). -/
theorem bcast_rows_apply {N W : Nat} (h : (⟨2, ![1, W]⟩ : Shape).BroadcastsInDim ⟨2, ![N, W]⟩ ![0, 1])
    (x : (⟨2, ![1, W]⟩ : Shape).Idx → α) (n : Fin N) (k : Fin W) :
    broadcastInDim ⟨2, ![N, W]⟩ ![0, 1] h x (ix2 n k) = x (ix2 0 k) :=
  broadcastInDim_apply _ h x _ (ix2 0 k) fun a => match a with
    | ⟨0, _⟩ => rfl
    | ⟨1, _⟩ => by
      show k.val = if W = 1 then 0 else k.val
      split
      · have := k.isLt; omega
      · rfl

/-- An [N, 1] array repeated across W columns: entry (n, k) is entry (n, 0). -/
theorem bcast_cols_apply {N W : Nat} (h : (⟨2, ![N, 1]⟩ : Shape).BroadcastsInDim ⟨2, ![N, W]⟩ ![0, 1])
    (x : (⟨2, ![N, 1]⟩ : Shape).Idx → α) (n : Fin N) (k : Fin W) :
    broadcastInDim ⟨2, ![N, W]⟩ ![0, 1] h x (ix2 n k) = x (ix2 n 0) :=
  broadcastInDim_apply _ h x _ (ix2 n 0) fun a => match a with
    | ⟨0, _⟩ => by
      show n.val = if N = 1 then 0 else n.val
      split
      · have := n.isLt; omega
      · rfl
    | ⟨1, _⟩ => rfl

/-! ## A slice of columns, and the columns reversed -/

/-- Columns o, …, o + W - 1 of an [N, M] array: entry (n, k) is entry (n, o + k). -/
theorem slice_cols_apply {N M W : Nat} (o : Nat) (h : (⟨2, ![N, M]⟩ : Shape).Slices ![0, o] ⟨2, ![N, W]⟩)
    (x : (⟨2, ![N, M]⟩ : Shape).Idx → α) (n : Fin N) (k : Fin W) (hk : o + k.val < M) :
    extractStridedSlice ⟨2, ![N, W]⟩ ![0, o] x h (ix2 n k) = x (ix2 n ⟨o + k.val, hk⟩) :=
  extractStridedSlice_apply _ x h _ _ fun a => match a with
    | ⟨0, _⟩ => by show n.val = 0 + n.val; omega
    | ⟨1, _⟩ => rfl

/-- The columns of an [N, W] array in the opposite order: entry (n, k) is entry (n, W - 1 - k). -/
theorem reverse_cols_apply {N W : Nat} (x : (⟨2, ![N, W]⟩ : Shape).Idx → α) (n : Fin N) (k : Fin W) :
    Host.reverse (s := ⟨2, ![N, W]⟩) [1] x (ix2 n k) = x (ix2 n k.rev) := by
  unfold Host.reverse
  refine congrArg x (funext fun a => ?_)
  match a with
  | ⟨0, _⟩ => rfl
  | ⟨1, _⟩ => rfl

/-! ## Columns laid side by side -/

/-- W arrays of shape [N, 1] concatenated along the columns: entry (n, k) is entry (n, 0) of the k-th. -/
theorem cat_cols_apply {N W : Nat} (f : Fin W → ((⟨2, ![N, 1]⟩ : Shape).Idx → α))
    (h : Shape.Concatenates ((List.ofFn fun c : Fin W => (⟨⟨2, ![N, 1]⟩, f c⟩ : (s : Shape) × (s.Idx → α))).map (·.1)) ⟨2, ![N, W]⟩ 1)
    (n : Fin N) (k : Fin W) :
    concatenate ⟨2, ![N, W]⟩ 1 (List.ofFn fun c : Fin W => (⟨⟨2, ![N, 1]⟩, f c⟩ : (s : Shape) × (s.Idx → α))) h (ix2 n k)
      = f k (ix2 n 0) :=
  concatenate_ofFn_unit_apply (t := ⟨2, ![N, W]⟩) (s₁ := ⟨2, ![N, 1]⟩) 1 f h rfl rfl (ix2 n k) k rfl (ix2 n 0)
    fun b hb => match b with
      | ⟨0, _⟩ => rfl
      | ⟨1, _⟩ => absurd rfl hb

/-- Two to nine columns side by side, as literal lists: entry (n, k) is entry (n, 0) of the k-th column. -/
theorem cat2_apply {N : Nat} (c0 c1 : (⟨2, ![N, 1]⟩ : Shape).Idx → α) (h) (n : Fin N) (k : Fin 2) :
    concatenate ⟨2, ![N, 2]⟩ 1 [⟨⟨2, ![N, 1]⟩, c0⟩, ⟨⟨2, ![N, 1]⟩, c1⟩] h (ix2 n k) = ![c0, c1] k (ix2 n 0) :=
  cat_cols_apply ![c0, c1] h n k

theorem cat3_apply {N : Nat} (c0 c1 c2 : (⟨2, ![N, 1]⟩ : Shape).Idx → α) (h) (n : Fin N) (k : Fin 3) :
    concatenate ⟨2, ![N, 3]⟩ 1 [⟨⟨2, ![N, 1]⟩, c0⟩, ⟨⟨2, ![N, 1]⟩, c1⟩, ⟨⟨2, ![N, 1]⟩, c2⟩] h (ix2 n k) = ![c0, c1, c2] k (ix2 n 0) :=
  cat_cols_apply ![c0, c1, c2] h n k

theorem cat4_apply {N : Nat} (c0 c1 c2 c3 : (⟨2, ![N, 1]⟩ : Shape).Idx → α) (h) (n : Fin N) (k : Fin 4) :
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n k) = ![c0, c1, c2, c3] k (ix2 n 0) :=
  cat_cols_apply ![c0, c1, c2, c3] h n k

theorem cat5_apply {N : Nat} (c0 c1 c2 c3 c4 : (⟨2, ![N, 1]⟩ : Shape).Idx → α) (h) (n : Fin N) (k : Fin 5) :
    concatenate ⟨2, ![N, 5]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩] h (ix2 n k) = ![c0, c1, c2, c3, c4] k (ix2 n 0) :=
  cat_cols_apply ![c0, c1, c2, c3, c4] h n k

theorem cat6_apply {N : Nat} (c0 c1 c2 c3 c4 c5 : (⟨2, ![N, 1]⟩ : Shape).Idx → α) (h) (n : Fin N) (k : Fin 6) :
    concatenate ⟨2, ![N, 6]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩] h (ix2 n k) = ![c0, c1, c2, c3, c4, c5] k (ix2 n 0) :=
  cat_cols_apply ![c0, c1, c2, c3, c4, c5] h n k

theorem cat7_apply {N : Nat} (c0 c1 c2 c3 c4 c5 c6 : (⟨2, ![N, 1]⟩ : Shape).Idx → α) (h) (n : Fin N) (k : Fin 7) :
    concatenate ⟨2, ![N, 7]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩] h (ix2 n k) = ![c0, c1, c2, c3, c4, c5, c6] k (ix2 n 0) :=
  cat_cols_apply ![c0, c1, c2, c3, c4, c5, c6] h n k

theorem cat8_apply {N : Nat} (c0 c1 c2 c3 c4 c5 c6 c7 : (⟨2, ![N, 1]⟩ : Shape).Idx → α) (h) (n : Fin N) (k : Fin 8) :
    concatenate ⟨2, ![N, 8]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩] h (ix2 n k) = ![c0, c1, c2, c3, c4, c5, c6, c7] k (ix2 n 0) :=
  cat_cols_apply ![c0, c1, c2, c3, c4, c5, c6, c7] h n k

theorem cat9_apply {N : Nat} (c0 c1 c2 c3 c4 c5 c6 c7 c8 : (⟨2, ![N, 1]⟩ : Shape).Idx → α) (h) (n : Fin N) (k : Fin 9) :
    concatenate ⟨2, ![N, 9]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩, ⟨⟨2, ![N, 1]⟩, c8⟩] h (ix2 n k) = ![c0, c1, c2, c3, c4, c5, c6, c7, c8] k (ix2 n 0) :=
  cat_cols_apply ![c0, c1, c2, c3, c4, c5, c6, c7, c8] h n k

/-! ## Three blocks of columns side by side -/

/-- The first block of [A | B | C]. -/
theorem cat3blocks_left {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : k.val < a) :
    concatenate ⟨2, ![N, a + b + c]⟩ 1 [⟨⟨2, ![N, a]⟩, xa⟩, ⟨⟨2, ![N, b]⟩, xb⟩, ⟨⟨2, ![N, c]⟩, xc⟩] h (ix2 n k) = xa (ix2 n ⟨k.val, hk⟩) :=
  concatenate_apply_piece 1 _ h (ix2 n k) 0 (by simp) ⟨2, ![N, a]⟩ xa rfl rfl 0 rfl (ix2 n ⟨k.val, hk⟩)
    (fun b hb => match b with
      | ⟨0, _⟩ => rfl
      | ⟨1, _⟩ => absurd rfl hb)
    (by show 0 + k.val = k.val; omega)

/-- The middle block of [A | B | C]. -/
theorem cat3blocks_mid {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a ≤ k.val) (hk' : k.val - a < b) :
    concatenate ⟨2, ![N, a + b + c]⟩ 1 [⟨⟨2, ![N, a]⟩, xa⟩, ⟨⟨2, ![N, b]⟩, xb⟩, ⟨⟨2, ![N, c]⟩, xc⟩] h (ix2 n k) = xb (ix2 n ⟨k.val - a, hk'⟩) :=
  concatenate_apply_piece 1 _ h (ix2 n k) 1 (by simp) ⟨2, ![N, b]⟩ xb rfl rfl a (by simp) (ix2 n ⟨k.val - a, hk'⟩)
    (fun b hb => match b with
      | ⟨0, _⟩ => rfl
      | ⟨1, _⟩ => absurd rfl hb)
    (by show a + (k.val - a) = k.val; omega)

/-- The last block of [A | B | C]. -/
theorem cat3blocks_right {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a + b ≤ k.val) :
    concatenate ⟨2, ![N, a + b + c]⟩ 1 [⟨⟨2, ![N, a]⟩, xa⟩, ⟨⟨2, ![N, b]⟩, xb⟩, ⟨⟨2, ![N, c]⟩, xc⟩] h (ix2 n k)
      = xc (ix2 n ⟨k.val - (a + b), by have := k.isLt; omega⟩) :=
  concatenate_apply_piece 1 _ h (ix2 n k) 2 (by simp) ⟨2, ![N, c]⟩ xc rfl rfl (a + b) (by simp) (ix2 n ⟨k.val - (a + b), by have := k.isLt; omega⟩)
    (fun b hb => match b with
      | ⟨0, _⟩ => rfl
      | ⟨1, _⟩ => absurd rfl hb)
    (by show a + b + (k.val - (a + b)) = k.val; omega)

/-! ## A gather of whole columns -/

/-- The dimension numbers of a gather of whole columns: operand [N, M], start indices [W, 1], result [N, W];
    the one offset axis is the rows, the columns are collapsed and indexed. -/
abbrev colDims (N M W : Nat) (wf : GatherDims.WF ⟨2, ![N, M]⟩ ⟨2, ![W, 1]⟩ ⟨2, ![N, W]⟩ [0] [1] [] [1] [] 1 ![N, 1]) :
    GatherDims ⟨2, ![N, M]⟩ ⟨2, ![W, 1]⟩ ⟨2, ![N, W]⟩ where
  offsetDims := [0]
  collapsedSliceDims := [1]
  operandBatchingDims := []
  startIndicesBatchingDims := []
  startIndexMap := [1]
  indexVectorDim := 1
  sliceSizes := ![N, 1]
  wf := wf

/-- The gather read at (n, k): row n of the operand's column idx[k, 0], the start index read signed and clamped
    into [0, M - 1]. -/
theorem gather_cols_apply {N M W w : Nat} (hM : 0 < M)
    (wf : GatherDims.WF ⟨2, ![N, M]⟩ ⟨2, ![W, 1]⟩ ⟨2, ![N, W]⟩ [0] [1] [] [1] [] 1 ![N, 1])
    (x : (⟨2, ![N, M]⟩ : Shape).Idx → α) (idx : IVec ⟨2, ![W, 1]⟩ w) (n : Fin N) (k : Fin W) :
    Host.gather (colDims N M W wf) x idx (ix2 n k)
      = x (ix2 n ⟨min (idx (ix2 k 0)).toInt.toNat (M - 1), by omega⟩) := by
  unfold Host.gather
  congr 1
  funext a
  refine Fin.ext ?_
  match a with
  | ⟨0, _⟩ =>
    show (colDims N M W wf).start (ix2 n k) idx 0 + (colDims N M W wf).batchCoord (ix2 n k) 0
      + (colDims N M W wf).offCoord (ix2 n k) 0 = n.val
    rw [GatherDims.batchCoord_eq_zero _ _ _ List.not_mem_nil]
    have hs : (colDims N M W wf).start (ix2 n k) idx 0 = 0 := by
      unfold GatherDims.start
      rw [dif_neg (show ¬ (0 : Fin 2) ∈ ([1] : List (Fin 2)) by decide)]
    have ho : (colDims N M W wf).offCoord (ix2 n k) 0 = n.val := by
      unfold GatherDims.offCoord
      rw [dif_pos ((GatherDims.mem_sKept _ _).2 ⟨(show ¬ (0 : Fin 2) ∈ ([1] : List (Fin 2)) by decide), List.not_mem_nil⟩)]
      rfl
    rw [hs, ho]; omega
  | ⟨1, _⟩ =>
    show (colDims N M W wf).start (ix2 n k) idx 1 + (colDims N M W wf).batchCoord (ix2 n k) 1
      + (colDims N M W wf).offCoord (ix2 n k) 1 = min (idx (ix2 k 0)).toInt.toNat (M - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N M W wf).startIndexMap from List.mem_singleton.mpr rfl)]
    have hsi : (colDims N M W wf).siIdx (ix2 n k) ⟨List.idxOf (1 : Fin 2) (colDims N M W wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

/-! ## The host's quotient at an index -/

/-- On the extended reals the host's quotient of two arrays is, entry by entry, the total quotient of the entries. -/
theorem hostDivf_apply {s : Shape} {φ : FTy} (a b : FVec Ideal s φ) (i : s.Idx) : Host.divf a b i = Ideal.div (a i) (b i) := rfl

/-! ## A table of words read at an index -/

/-- A length-W table given by its entries in row-major order, read at entry k. -/
theorem table_apply (W : Nat) {β : Type} (hW : (⟨1, ![W]⟩ : Shape).numel = W) (T : Fin W → β) (k : Fin W) :
    T (((⟨1, ![W]⟩ : Shape).rowMajor (ix1 k)).cast hW) = T k :=
  congrArg T (Fin.ext (Shape.rowMajor_val_one _))

end Cert.RefLayout

end
-- ==== Proof.KernelGru.lean ====
/-
  The recurrent step of one row, as the kernel's body computes it on a block of 2048 rows.

  The body multiplies the block of input rows by ONE 128-by-72 matrix holding the input layer (columns 0..63) and the
  mixing gate (columns 64..71) side by side, adds the fused bias, and splits the result: the first 64 columns go through
  max(., 0) to give the features, the last 8 through the sigmoid to give the mixing weights. The features against the
  transposed input-side recurrent matrix, and the block of hidden rows against the transposed hidden-side one, give the
  two 192-wide pre-activations; their three 64-wide thirds give the reset gate, the update gate and the candidate, and
  the new hidden vector is (1 - z) * cand + z * h. Every entry (p, j) of each of these depends on row p of the two
  blocks only, and is the corresponding function of that row in the row specification, once each weight block is
  known to hold the arguments' weights in the kernel's layout (the hypotheses of `GruLayout`). A matrix product into a
  zero accumulator is a plain sum over the contracted coordinate on the extended reals.
-/
import proofs.«157973_j80066780332773_2_alg».proof.Proof.Gen.KernelIdeal.Skeleton
import proofs.«157973_j80066780332773_2_alg».proof.Proof.RowSpec
import proofs.«157973_j80066780332773_2_alg».proof.Proof.Consts
import proofs.«157973_j80066780332773_2_alg».proof.Proof.LibContractPlain
import proofs.«157973_j80066780332773_2_alg».proof.Proof.LibDenseT
import proofs.«157973_j80066780332773_2_alg».proof.Proof.LibLayoutCols
import Idealize.ShloMosaic.Lib.Pipeline.Value
import Idealize.ShloMosaic.Lib.ValueIdx
import Idealize.ShloMosaic.Lib.ValueLayout

noncomputable section

open scoped BigOperators

namespace Cert.KernelRows

open Cert.KernelIdeal Cert.KernelIdeal.Gen Idealize.ShloMosaic Idealize.ShloMosaic.ValueIdx
open Cert.LibContractPlain Cert.LibDenseT Cert.RefLayout Cert.RowSpec

/-- The sigmoid and the hyperbolic tangent of a vector, at an entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The weight blocks the body loads hold the arguments' weights in the kernel's layout: the input layer and the
    mixing gate side by side in one 128-by-72 matrix (columns 0..63 and 64..71) with their biases side by side, the
    two recurrent matrices transposed. -/
structure GruLayout (P : Params) (v4 : Vec Ideal S128x72 .f32) (v6 : Vec Ideal S72 .f32)
    (v17 v19 : Vec Ideal S64x192 .f32) (v21 v22 : Vec Ideal S192 .f32) : Prop where
  fcW : ∀ (e : Fin 128) (j : Fin 64), v4 (ix2 e ⟨0 + j.val, by have := j.isLt; omega⟩) = P.fcW (ix2 j e)
  gW : ∀ (e : Fin 128) (n : Fin 8), v4 (ix2 e ⟨64 + n.val, by have := n.isLt; omega⟩) = P.gW (ix2 n e)
  fcB : ∀ j : Fin 64, v6 (ix1 ⟨0 + j.val, by have := j.isLt; omega⟩) = P.fcB (ix1 j)
  gB : ∀ n : Fin 8, v6 (ix1 ⟨64 + n.val, by have := n.isLt; omega⟩) = P.gB (ix1 n)
  wih : ∀ (k : Fin 64) (q : Fin 192), v17 (ix2 k q) = P.wih (ix2 q k)
  whh : ∀ (k : Fin 64) (q : Fin 192), v19 (ix2 k q) = P.whh (ix2 q k)
  bih : ∀ q : Fin 192, v21 (ix1 q) = P.bih (ix1 q)
  bhh : ∀ q : Fin 192, v22 (ix1 q) = P.bhh (ix1 q)

variable {P : Params} {v4 : Vec Ideal S128x72 .f32} {v6 : Vec Ideal S72 .f32}
  {v17 v19 : Vec Ideal S64x192 .f32} {v21 v22 : Vec Ideal S192 .f32}

/-- The fused input-layer / gate pre-activation at (p, c): row p of the input block against column c of the fused
    matrix, plus the fused bias at c. -/
theorem fused_at (x0 : Vec Ideal S2048x128 .f32) (v4 : Vec Ideal S128x72 .f32) (v6 : Vec Ideal S72 .f32)
    (p : Fin 2048) (c : Fin 72) :
    k0_pay3 (F := Ideal) x0 v4 v6 (ix2 p c) = (∑ e : Fin 128, x0 (ix2 p e) * v4 (ix2 e c)) + v6 (ix1 c) := by
  unfold k0_pay3
  simp only [shapeCast_self]
  rw [addf_apply, rowDown_apply, vecAsRow_apply]
  congr 1
  exact matmulPlain_zero_apply 2048 128 72 _ (some .fp32) x0 v4 p c

/-- The mixing weights of row p. -/
theorem gate_at (L : GruLayout P v4 v6 v17 v19 v21 v22) (x0 : Vec Ideal S2048x128 .f32) (p : Fin 2048) (n : Fin 8) :
    k0_pay4 (F := Ideal) x0 v4 v6 (ix2 p n) = gate P (fun e => x0 (ix2 p e)) n := by
  unfold k0_pay4
  show Ideal.logistic (extractStridedSlice S2048x8 ![0, 64] (k0_pay3 x0 v4 v6) slices_S2048x72_o0_64_S2048x8 (ix2 p n)) = _
  rw [slice_cols_apply 64 _ _ p n (by have := n.isLt; omega), fused_at]
  unfold gate
  simp only [L.gW, L.gB]

/-- The input layer's features of row p. -/
theorem feat_at (L : GruLayout P v4 v6 v17 v19 v21 v22) (x0 : Vec Ideal S2048x128 .f32) (p : Fin 2048) (k : Fin 64) :
    maximumf (extractStridedSlice S2048x64 ![0, 0] (k0_pay3 (F := Ideal) x0 v4 v6) slices_S2048x72_o0_0_S2048x64)
      (broadcast S2048x64 (Scalar.ofBits (F := Ideal) .f32 0x00000000#32)) (ix2 p k)
      = feat P (fun e => x0 (ix2 p e)) k := by
  rw [maximumf_apply, slice_cols_apply 0 _ _ p k (by have := k.isLt; omega), fused_at, broadcast_apply]
  unfold feat
  simp only [L.fcW, L.fcB]
  rfl

/-- The input-side gate pre-activations of row p. -/
theorem gi_at (L : GruLayout P v4 v6 v17 v19 v21 v22) (x0 : Vec Ideal S2048x128 .f32) (p : Fin 2048) (q : Fin 192) :
    k0_pay5 (F := Ideal) x0 v4 v6 v17 v21 (ix2 p q) = gi P (fun e => x0 (ix2 p e)) q := by
  unfold k0_pay5
  simp only [shapeCast_self]
  rw [addf_apply, rowDown_apply, vecAsRow_apply]
  refine (congrArg (· + v21 (ix1 q)) (matmulPlain_zero_apply 2048 64 192 _ (some .fp32) _ v17 p q)).trans ?_
  unfold gi
  simp only [feat_at L, L.wih, L.bih]

/-- The hidden-side gate pre-activations of row p. -/
theorem gh_at (L : GruLayout P v4 v6 v17 v19 v21 v22) (x1 : Vec Ideal S2048x64 .f32) (p : Fin 2048) (q : Fin 192) :
    k0_pay6 (F := Ideal) x1 v19 v22 (ix2 p q) = gh P (fun k => x1 (ix2 p k)) q := by
  unfold k0_pay6 k0_pay2
  simp only [shapeCast_self]
  rw [addf_apply, rowDown_apply, vecAsRow_apply]
  refine (congrArg (· + v22 (ix1 q)) (matmulPlain_zero_apply 2048 64 192 _ (some .fp32) x1 v19 p q)).trans ?_
  unfold gh
  simp only [L.whh, L.bhh]

/-- The candidate's input-side third of row p. -/
theorem giN_at (L : GruLayout P v4 v6 v17 v19 v21 v22) (x0 : Vec Ideal S2048x128 .f32) (p : Fin 2048) (j : Fin 64) :
    k0_pay7 (F := Ideal) x0 v4 v6 v17 v21 (ix2 p j) = gi P (fun e => x0 (ix2 p e)) (third 128 j (by omega)) := by
  unfold k0_pay7
  rw [slice_cols_apply 128 _ _ p j (by have := j.isLt; omega), gi_at L]

/-- The update gate of row p. -/
theorem z_at (L : GruLayout P v4 v6 v17 v19 v21 v22) (x0 : Vec Ideal S2048x128 .f32) (x1 : Vec Ideal S2048x64 .f32)
    (p : Fin 2048) (j : Fin 64) :
    k0_pay8 (F := Ideal) x0 x1 v4 v6 v17 v19 v21 v22 (ix2 p j)
      = zGate P (fun e => x0 (ix2 p e)) (fun k => x1 (ix2 p k)) j := by
  unfold k0_pay8
  rw [logistic_apply, addf_apply, slice_cols_apply 64 _ _ p j (by have := j.isLt; omega),
    slice_cols_apply 64 _ _ p j (by have := j.isLt; omega), gi_at L, gh_at L]
  rfl

/-- The reset gate of row p times the candidate's hidden-side third. -/
theorem rh_at (L : GruLayout P v4 v6 v17 v19 v21 v22) (x0 : Vec Ideal S2048x128 .f32) (x1 : Vec Ideal S2048x64 .f32)
    (p : Fin 2048) (j : Fin 64) :
    k0_pay9 (F := Ideal) x0 x1 v4 v6 v17 v19 v21 v22 (ix2 p j)
      = rGate P (fun e => x0 (ix2 p e)) (fun k => x1 (ix2 p k)) j
          * gh P (fun k => x1 (ix2 p k)) (third 128 j (by omega)) := by
  unfold k0_pay9
  rw [mulf_apply, logistic_apply, addf_apply, slice_cols_apply 0 _ _ p j (by have := j.isLt; omega),
    slice_cols_apply 0 _ _ p j (by have := j.isLt; omega),
    slice_cols_apply 128 _ _ p j (by have := j.isLt; omega), gi_at L, gh_at L, gh_at L]
  rfl

/-- THE NEW HIDDEN VECTOR of row p, as the body stores it. -/
theorem hidden_at (L : GruLayout P v4 v6 v17 v19 v21 v22) (x0 : Vec Ideal S2048x128 .f32) (x1 : Vec Ideal S2048x64 .f32)
    (p : Fin 2048) (j : Fin 64) :
    k0_pay10 (F := Ideal) (k0_pay2 x1) (k0_pay7 x0 v4 v6 v17 v21) (k0_pay8 x0 x1 v4 v6 v17 v19 v21 v22)
        (k0_pay9 x0 x1 v4 v6 v17 v19 v21 v22) (ix2 p j)
      = newH P (fun e => x0 (ix2 p e)) (fun k => x1 (ix2 p k)) j := by
  unfold k0_pay10
  show (oneW - k0_pay8 x0 x1 v4 v6 v17 v19 v21 v22 (ix2 p j))
        * Ideal.tanh (k0_pay7 x0 v4 v6 v17 v21 (ix2 p j) + k0_pay9 x0 x1 v4 v6 v17 v19 v21 v22 (ix2 p j))
      + k0_pay8 x0 x1 v4 v6 v17 v19 v21 v22 (ix2 p j) * k0_pay2 x1 (ix2 p j) = _
  rw [z_at L, giN_at L, rh_at L]
  unfold k0_pay2
  simp only [shapeCast_self]
  rfl

end Cert.KernelRows

end
-- ==== Proof.KernelBlocks.lean ====
/-
  The kernel's windows, point by point.

  The call runs over 64 grid points. At point t the two row windows (the input rows and the hidden rows) and the three
  output windows hold rows t*2048 .. t*2048+2047 of their arrays, all columns; each of the ten weight windows holds
  its whole array at every point. Both facts are read off the printed index maps, decided once over the grid: a
  block's coordinate along an axis is always (block index) * (block size) + (coordinate inside the block).
  The weights, as the arguments hold them, are the row specification's parameters.
-/
import proofs.«157973_j80066780332773_2_alg».proof.Proof.Gen.KernelIdeal.Frame
import proofs.«157973_j80066780332773_2_alg».proof.Proof.KernelGru
import Idealize.ShloMosaic.Lib.Pipeline.Value
import Idealize.ShloMosaic.Lib.ValueIdx

set_option maxRecDepth 16384

noncomputable section

open scoped BigOperators

namespace Cert.KernelArrays

open Cert.KernelIdeal Cert.KernelIdeal.Gen Idealize.ShloMosaic Idealize.ShloMosaic.TcCoe Idealize.ShloMosaic.ValueIdx
open Idealize.SL.Sem
open Idealize.ShloMosaic.Pipeline (Dat)
open Cert.RowSpec Cert.KernelRows

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 64 grid points: the five row windows (input rows, hidden rows and the
    three outputs) are at block t along the rows and block 0 along the columns; every weight window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

theorem idx_facts_w : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

/-! ## A weight window's block is its whole array, at every point -/

theorem iblk2 (c : Dev nD) (t : Fin cfg0.N) : iblk m c 2 t = V m c main_v4 := by
  funext y
  show V m c main_v4 (((cfg0.win 2).blk t).view.emb y) = V m c main_v4 y
  congr 1
  funext a; apply Fin.ext
  obtain ⟨e0, e1, -, -, -, -, -, -, -, -, -, -, -, -, -⟩ := idx_facts_w t
  match a with
  | ⟨0, _⟩ => show win0_2.index t (0 : Fin 2) * 128 + 1 * (y 0).val = (y 0).val; omega
  | ⟨1, _⟩ => show win0_2.index t (1 : Fin 2) * 72 + 1 * (y 1).val = (y 1).val; omega

theorem iblk3 (c : Dev nD) (t : Fin cfg0.N) : iblk m c 3 t = V m c main_v5 := by
  funext y
  show V m c main_v5 (((cfg0.win 3).blk t).view.emb y) = V m c main_v5 y
  congr 1
  funext a; apply Fin.ext
  obtain ⟨-, -, e0, -, -, -, -, -, -, -, -, -, -, -, -⟩ := idx_facts_w t
  match a with
  | ⟨0, _⟩ => show win0_3.index t (0 : Fin 1) * 72 + 1 * (y 0).val = (y 0).val; omega

theorem iblk4 (c : Dev nD) (t : Fin cfg0.N) : iblk m c 4 t = V m c main_v6 := by
  funext y
  show V m c main_v6 (((cfg0.win 4).blk t).view.emb y) = V m c main_v6 y
  congr 1
  funext a; apply Fin.ext
  obtain ⟨-, -, -, e0, e1, -, -, -, -, -, -, -, -, -, -⟩ := idx_facts_w t
  match a with
  | ⟨0, _⟩ => show win0_4.index t (0 : Fin 2) * 64 + 1 * (y 0).val = (y 0).val; omega
  | ⟨1, _⟩ => show win0_4.index t (1 : Fin 2) * 192 + 1 * (y 1).val = (y 1).val; omega

theorem iblk5 (c : Dev nD) (t : Fin cfg0.N) : iblk m c 5 t = V m c main_v7 := by
  funext y
  show V m c main_v7 (((cfg0.win 5).blk t).view.emb y) = V m c main_v7 y
  congr 1
  funext a; apply Fin.ext
  obtain ⟨-, -, -, -, -, e0, e1, -, -, -, -, -, -, -, -⟩ := idx_facts_w t
  match a with
  | ⟨0, _⟩ => show win0_5.index t (0 : Fin 2) * 64 + 1 * (y 0).val = (y 0).val; omega
  | ⟨1, _⟩ => show win0_5.index t (1 : Fin 2) * 192 + 1 * (y 1).val = (y 1).val; omega

theorem iblk6 (c : Dev nD) (t : Fin cfg0.N) : iblk m c 6 t = V m c main_arg6 := by
  funext y
  show V m c main_arg6 (((cfg0.win 6).blk t).view.emb y) = V m c main_arg6 y
  congr 1
  funext a; apply Fin.ext
  obtain ⟨-, -, -, -, -, -, -, e0, -, -, -, -, -, -, -⟩ := idx_facts_w t
  match a with
  | ⟨0, _⟩ => show win0_6.index t (0 : Fin 1) * 192 + 1 * (y 0).val = (y 0).val; omega

theorem iblk7 (c : Dev nD) (t : Fin cfg0.N) : iblk m c 7 t = V m c main_arg7 := by
  funext y
  show V m c main_arg7 (((cfg0.win 7).blk t).view.emb y) = V m c main_arg7 y
  congr 1
  funext a; apply Fin.ext
  obtain ⟨-, -, -, -, -, -, -, -, e0, -, -, -, -, -, -⟩ := idx_facts_w t
  match a with
  | ⟨0, _⟩ => show win0_7.index t (0 : Fin 1) * 192 + 1 * (y 0).val = (y 0).val; omega

theorem iblk8 (c : Dev nD) (t : Fin cfg0.N) : iblk m c 8 t = V m c main_v10 := by
  funext y
  show V m c main_v10 (((cfg0.win 8).blk t).view.emb y) = V m c main_v10 y
  congr 1
  funext a; apply Fin.ext
  obtain ⟨-, -, -, -, -, -, -, -, -, e0, e1, -, -, -, -⟩ := idx_facts_w t
  match a with
  | ⟨0, _⟩ => show win0_8.index t (0 : Fin 2) * 64 + 1 * (y 0).val = (y 0).val; omega
  | ⟨1, _⟩ => show win0_8.index t (1 : Fin 2) * 512 + 1 * (y 1).val = (y 1).val; omega

theorem iblk9 (c : Dev nD) (t : Fin cfg0.N) : iblk m c 9 t = V m c main_v11 := by
  funext y
  show V m c main_v11 (((cfg0.win 9).blk t).view.emb y) = V m c main_v11 y
  congr 1
  funext a; apply Fin.ext
  obtain ⟨-, -, -, -, -, -, -, -, -, -, -, e0, -, -, -⟩ := idx_facts_w t
  match a with
  | ⟨0, _⟩ => show win0_9.index t (0 : Fin 1) * 512 + 1 * (y 0).val = (y 0).val; omega

theorem iblk10 (c : Dev nD) (t : Fin cfg0.N) : iblk m c 10 t = V m c main_v61 := by
  funext y
  show V m c main_v61 (((cfg0.win 10).blk t).view.emb y) = V m c main_v61 y
  congr 1
  funext a; apply Fin.ext
  obtain ⟨-, -, -, -, -, -, -, -, -, -, -, -, e0, e1, -⟩ := idx_facts_w t
  match a with
  | ⟨0, _⟩ => show win0_10.index t (0 : Fin 2) * 512 + 1 * (y 0).val = (y 0).val; omega
  | ⟨1, _⟩ => show win0_10.index t (1 : Fin 2) * 256 + 1 * (y 1).val = (y 1).val; omega

theorem iblk11 (c : Dev nD) (t : Fin cfg0.N) : iblk m c 11 t = V m c main_v62 := by
  funext y
  show V m c main_v62 (((cfg0.win 11).blk t).view.emb y) = V m c main_v62 y
  congr 1
  funext a; apply Fin.ext
  obtain ⟨-, -, -, -, -, -, -, -, -, -, -, -, -, -, e0⟩ := idx_facts_w t
  match a with
  | ⟨0, _⟩ => show win0_11.index t (0 : Fin 1) * 256 + 1 * (y 0).val = (y 0).val; omega

/-! ## A row window's block holds 2048 consecutive rows of its array -/

theorem hN : cfg0.N = 64 := N_0

/-- The row of the big arrays that row p of point t's blocks is. -/
abbrev bigRow (t : Fin cfg0.N) (p : Fin 2048) : Fin 131072 :=
  ⟨t.val * 2048 + p.val, by have := t.isLt; have := p.isLt; have := hN; omega⟩

theorem rows0 (c : Dev nD) (t : Fin cfg0.N) (p : Fin 2048) :
    (fun e : Fin 128 => iblk m c 0 t (ix2 p e)) = row (V m c main_v0) (bigRow t p) := by
  funext e
  show V m c main_v0 (((cfg0.win 0).blk t).view.emb (ix2 p e)) = V m c main_v0 (ix2 (bigRow t p) e)
  congr 1
  funext a; apply Fin.ext
  obtain ⟨e0, e1, -⟩ := idx_facts t
  match a with
  | ⟨0, _⟩ => show win0_0.index t (0 : Fin 2) * 2048 + 1 * p.val = t.val * 2048 + p.val; omega
  | ⟨1, _⟩ => show win0_0.index t (1 : Fin 2) * 128 + 1 * e.val = e.val; omega

theorem rows1 (c : Dev nD) (t : Fin cfg0.N) (p : Fin 2048) :
    (fun k : Fin 64 => iblk m c 1 t (ix2 p k)) = row (V m c main_v1) (bigRow t p) := by
  funext e
  show V m c main_v1 (((cfg0.win 1).blk t).view.emb (ix2 p e)) = V m c main_v1 (ix2 (bigRow t p) e)
  congr 1
  funext a; apply Fin.ext
  obtain ⟨-, -, e0, e1, -⟩ := idx_facts t
  match a with
  | ⟨0, _⟩ => show win0_1.index t (0 : Fin 2) * 2048 + 1 * p.val = t.val * 2048 + p.val; omega
  | ⟨1, _⟩ => show win0_1.index t (1 : Fin 2) * 64 + 1 * e.val = e.val; omega

/-- The weights, as the arguments hold them, as the row specification's parameters. -/
def kparams (c : Dev nD) : Params where
  fcW := m ((c : Thread nD τ).loc main_arg2)
  fcB := m ((c : Thread nD τ).loc main_arg3)
  wih := m ((c : Thread nD τ).loc main_arg4)
  whh := m ((c : Thread nD τ).loc main_arg5)
  bih := m ((c : Thread nD τ).loc main_arg6)
  bhh := m ((c : Thread nD τ).loc main_arg7)
  ew1 := m ((c : Thread nD τ).loc main_arg8)
  eb1 := m ((c : Thread nD τ).loc main_arg9)
  ew2 := m ((c : Thread nD τ).loc main_arg10)
  eb2 := m ((c : Thread nD τ).loc main_arg11)
  gW := m ((c : Thread nD τ).loc main_arg12)
  gB := m ((c : Thread nD τ).loc main_arg13)

/-- The recurrent weights' layout, of the arrays the region finds. -/
abbrev GruOK (c : Dev nD) : Prop :=
  GruLayout (kparams m c) (V m c main_v4) (V m c main_v5) (V m c main_v6) (V m c main_v7) (V m c main_arg6) (V m c main_arg7)

end Cert.KernelArrays

end
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.KernelExperts.lean ====
/-
  The eight experts of one row, as the kernel's body computes them on a block of 2048 rows.

  The body applies all eight experts with two matrix products. The first multiplies the block of new hidden vectors by
  ONE 64-by-512 matrix holding the eight first-layer matrices side by side (expert n's unit k in column n * 64 + k),
  adds the biases and takes max(., 0): 512 hidden units per row. The second multiplies those by ONE 512-by-256 matrix
  that is block diagonal: column n * 32 + a (output a of expert n) has expert n's second-layer weights in the rows
  n * 64 … n * 64 + 63 and zeros elsewhere. So the contraction over the 512 hidden units, grouped as eight blocks of
  64, keeps block n only: the other blocks contribute products with 0, and x * 0 = 0 for every extended real x (the
  infinities included). What remains is expert n's second layer on expert n's first layer, the row specification's
  `expert`. The operands of both products are first narrowed to a shorter float format; on the extended reals that
  is the identity.
-/
import proofs.«157973_j80066780332773_2_alg».proof.Proof.KernelGru
import proofs.«157973_j80066780332773_2_alg».proof.Proof.LibBlockedSums

noncomputable section

open scoped BigOperators

namespace Cert.KernelRows

open Cert.KernelIdeal Cert.KernelIdeal.Gen Idealize.ShloMosaic Idealize.ShloMosaic.ValueIdx
open Cert.LibContractPlain Cert.LibDenseT Cert.RefLayout Cert.RowSpec

/-- The experts' weight blocks hold the arguments' weights in the kernel's layout: the eight first-layer matrices
    transposed and side by side in one 64-by-512 matrix (expert n's unit k in column n * 64 + k) with their biases
    side by side; the eight second-layer matrices transposed and placed along the diagonal of a 512-by-256 matrix
    (expert n's output a in column n * 32 + a, fed by the rows n * 64 + k only, every other entry zero) with their
    biases side by side. -/
structure ExpertLayout (P : Params) (v50 : Vec Ideal S64x512 .f32) (v52 : Vec Ideal S512 .f32)
    (v62 : Vec Ideal S512x256 .f32) (v64 : Vec Ideal S256 .f32) : Prop where
  w1 : ∀ (j : Fin 64) (n : Fin 8) (k : Fin 64),
    v50 (ix2 j ⟨n.val * 64 + k.val, by have := n.isLt; have := k.isLt; omega⟩) = P.ew1 (ix3 n k j)
  b1 : ∀ (n : Fin 8) (k : Fin 64),
    v52 (ix1 ⟨n.val * 64 + k.val, by have := n.isLt; have := k.isLt; omega⟩) = P.eb1 (ix2 n k)
  w2 : ∀ (n' : Fin 8) (k : Fin 64) (n : Fin 8) (a : Fin 32),
    v62 (ix2 ⟨n'.val * 64 + k.val, by have := n'.isLt; have := k.isLt; omega⟩
        ⟨n.val * 32 + a.val, by have := n.isLt; have := a.isLt; omega⟩)
      = if n' = n then P.ew2 (ix3 n a k) else 0
  b2 : ∀ (n : Fin 8) (a : Fin 32),
    v64 (ix1 ⟨n.val * 32 + a.val, by have := n.isLt; have := a.isLt; omega⟩) = P.eb2 (ix2 n a)

variable {P : Params} {v4 : Vec Ideal S128x72 .f32} {v6 : Vec Ideal S72 .f32}
  {v17 v19 : Vec Ideal S64x192 .f32} {v21 v22 : Vec Ideal S192 .f32}
  {v50 : Vec Ideal S64x512 .f32} {v52 : Vec Ideal S512 .f32} {v62 : Vec Ideal S512x256 .f32} {v64 : Vec Ideal S256 .f32}

/-- The experts' outputs at (p, c), whatever the blocks hold: the new hidden vector of row p against column u of the
    first matrix, plus the first bias at u, through max(., 0), for each of the 512 hidden units u; those against column c
    of the second matrix, plus the second bias at c. Both products are sums over the contracted coordinate, and the
    narrowing of their operands to the shorter format changes nothing on the extended reals. -/
theorem experts_raw_at (v3 v33 v40 v41 : FVec Ideal S2048x64 .f32) (v50 : Vec Ideal S64x512 .f32)
    (v52 : Vec Ideal S512 .f32) (v62 : Vec Ideal S512x256 .f32) (v64 : Vec Ideal S256 .f32) (p : Fin 2048) (c : Fin 256) :
    k0_pay11 (F := Ideal) v3 v33 v40 v41 v50 v52 v62 v64 (ix2 p c)
      = (∑ u : Fin 512, max ((∑ j : Fin 64, k0_pay10 v3 v33 v40 v41 (ix2 p j) * v50 (ix2 j u)) + v52 (ix1 u)) zeroW
            * v62 (ix2 u c)) + v64 (ix1 c) := by
  unfold k0_pay11
  simp only [shapeCast_self]
  rw [addf_apply, rowDown_apply, vecAsRow_apply]
  refine (congrArg (· + v64 (ix1 c)) (matmulPlain_zero_apply 2048 512 256 _ none _ _ p c)).trans ?_
  congr 1
  refine Finset.sum_congr rfl fun u _ => ?_
  rw [truncf_apply, truncf_apply, maximumf_apply, addf_apply, rowDown_apply, vecAsRow_apply, broadcast_apply]
  refine congrArg (fun t => max (t + v52 (ix1 u)) zeroW * v62 (ix2 u c))
    ((matmulPlain_zero_apply 2048 64 512 _ none _ _ p u).trans ?_)
  refine Finset.sum_congr rfl fun j _ => ?_
  rw [truncf_apply, truncf_apply]

/-- OUTPUT a OF EXPERT n at row p, as the body stores it in column n * 32 + a. The second product runs over all 512
    hidden units; grouped as eight blocks of 64, every block other than n meets only zeros of the block-diagonal
    matrix, and x * 0 = 0 for every extended real x, so block n alone remains: expert n's second layer applied to
    expert n's first layer. -/
theorem expert_at (L : GruLayout P v4 v6 v17 v19 v21 v22) (E : ExpertLayout P v50 v52 v62 v64)
    (x0 : Vec Ideal S2048x128 .f32) (x1 : Vec Ideal S2048x64 .f32) (p : Fin 2048) (n : Fin 8) (a : Fin 32) :
    k0_pay11 (F := Ideal) (k0_pay2 x1) (k0_pay7 x0 v4 v6 v17 v21) (k0_pay8 x0 x1 v4 v6 v17 v19 v21 v22)
        (k0_pay9 x0 x1 v4 v6 v17 v19 v21 v22) v50 v52 v62 v64
        (ix2 p ⟨n.val * 32 + a.val, by have := n.isLt; have := a.isLt; omega⟩)
      = expert P (fun e => x0 (ix2 p e)) (fun k => x1 (ix2 p k)) n a := by
  rw [experts_raw_at, E.b2]
  unfold expert
  congr 1
  refine (BlockedSums.sum_blocks 8 64 _).trans ?_
  rw [Finset.sum_eq_single n]
  · refine Finset.sum_congr rfl fun k _ => ?_
    rw [E.w2, if_pos rfl, E.b1]
    unfold hid
    simp only [hidden_at L, E.w1]
  · intro n' _ hne
    refine Finset.sum_eq_zero fun k _ => ?_
    rw [E.w2, if_neg hne, mul_zero]
  · intro h
    exact absurd (Finset.mem_univ n) h

end Cert.KernelRows
-- ==== Proof.KernelMix.lean ====
/-
  The gated mean of one row, as the kernel's body computes it on a block of 2048 rows.

  The body holds the eight mixing weights of every row as a 2048-by-8 block and the experts' outputs as a 2048-by-256
  block, output a of expert n in column n * 32 + a. It starts an accumulator at the word of +0.0 and, for
  n = 0, …, 7 in order, adds column n of the weights (a 2048-by-1 slice repeated across 32 columns) times columns
  n * 32 … n * 32 + 31 of the outputs; the result is multiplied by the word of 0.125. At an entry (p, a) that is
  (0 + g 0 * e 0 + g 1 * e 1 + … + g 7 * e 7) * 0.125 with g n the weight n of row p and e n output a of expert n at
  row p: the sum over the eight experts of weight times output, times 0.125, which is the row specification's `mixed`
  (it keeps the same word of 0.125). Only 0 + s = s is used of the extended reals.
-/
import proofs.«157973_j80066780332773_2_alg».proof.Proof.KernelExperts

noncomputable section

open scoped BigOperators

namespace Cert.KernelRows

open Cert.KernelIdeal Cert.KernelIdeal.Gen Idealize.ShloMosaic Idealize.ShloMosaic.ValueIdx
open Cert.LibContractPlain Cert.LibDenseT Cert.RefLayout Cert.RowSpec

variable {P : Params} {v4 : Vec Ideal S128x72 .f32} {v6 : Vec Ideal S72 .f32}
  {v17 v19 : Vec Ideal S64x192 .f32} {v21 v22 : Vec Ideal S192 .f32}
  {v50 : Vec Ideal S64x512 .f32} {v52 : Vec Ideal S512 .f32} {v62 : Vec Ideal S512x256 .f32} {v64 : Vec Ideal S256 .f32}

/-- A one-column matrix repeated across B columns reads, at (p, a), the column's entry p. -/
theorem colAcross_apply {α : Type} {A B : Nat} (v : (⟨2, ![A, 1]⟩ : Shape).Idx → α)
    (h : (⟨2, ![A, 1]⟩ : Shape).Broadcasts ⟨2, ![A, B]⟩) (p : Fin A) (a : Fin B) :
    broadcastTo ⟨2, ![A, B]⟩ v h (ix2 p a) = v (ix2 p (0 : Fin 1)) := by
  refine broadcastTo_apply v h (ix2 p a) (ix2 p (0 : Fin 1)) fun ax => ?_
  match ax with
  | ⟨0, _⟩ =>
    show p.val = if A = 1 then 0 else p.val
    split
    · have := p.isLt; omega
    · rfl
  | ⟨1, _⟩ => rfl

/-- One term of the mean at (p, a): column n of the mixing weights, repeated across the 32 outputs, times columns
    n * 32 … n * 32 + 31 of the experts' outputs, is weight n of row p times output a of expert n at row p. The two
    column offsets are given as numbers o1 = n and o2 = n * 32, as the body spells them. -/
theorem term_at (L : GruLayout P v4 v6 v17 v19 v21 v22) (E : ExpertLayout P v50 v52 v62 v64)
    (x0 : Vec Ideal S2048x128 .f32) (x1 : Vec Ideal S2048x64 .f32) (p : Fin 2048) (a : Fin 32) (n : Fin 8)
    (o1 o2 : Nat) (e1 : o1 = n.val) (e2 : o2 = n.val * 32)
    (h1 : S2048x8.Slices ![0, o1] S2048x1) (hb : S2048x1.Broadcasts S2048x32) (h2 : S2048x256.Slices ![0, o2] S2048x32) :
    broadcastTo S2048x32 (extractStridedSlice S2048x1 ![0, o1] (k0_pay4 (F := Ideal) x0 v4 v6) h1) hb (ix2 p a)
        * extractStridedSlice S2048x32 ![0, o2]
            (k0_pay11 (F := Ideal) (k0_pay2 x1) (k0_pay7 x0 v4 v6 v17 v21) (k0_pay8 x0 x1 v4 v6 v17 v19 v21 v22)
              (k0_pay9 x0 x1 v4 v6 v17 v19 v21 v22) v50 v52 v62 v64) h2 (ix2 p a)
      = gate P (fun e => x0 (ix2 p e)) n * expert P (fun e => x0 (ix2 p e)) (fun k => x1 (ix2 p k)) n a := by
  subst e1 e2
  rw [colAcross_apply, slice_cols_apply n.val _ _ p (0 : Fin 1) (by have := n.isLt; show n.val + 0 < 8; omega),
    slice_cols_apply (n.val * 32) _ _ p a (by have := n.isLt; have := a.isLt; omega),
    show (⟨n.val + (0 : Fin 1).val, by have := n.isLt; show n.val + 0 < 8; omega⟩ : Fin 8) = n from Fin.ext (Nat.add_zero _),
    gate_at L, expert_at L E]

/-- THE MIXED OUTPUT a of row p, as the body stores it. The accumulator starts at the word of +0.0 and adds the eight
    terms weight n times expert n's output, n = 0, …, 7 in order; the sum is multiplied by the word of 0.125. On the
    extended reals 0 + s = s, and the eight terms in order are the sum over n. -/
theorem mixed_at (L : GruLayout P v4 v6 v17 v19 v21 v22) (E : ExpertLayout P v50 v52 v62 v64)
    (x0 : Vec Ideal S2048x128 .f32) (x1 : Vec Ideal S2048x64 .f32) (p : Fin 2048) (a : Fin 32) :
    k0_pay1 (F := Ideal) (k0_pay4 x0 v4 v6)
        (k0_pay11 (k0_pay2 x1) (k0_pay7 x0 v4 v6 v17 v21) (k0_pay8 x0 x1 v4 v6 v17 v19 v21 v22)
          (k0_pay9 x0 x1 v4 v6 v17 v19 v21 v22) v50 v52 v62 v64)
        (k0_pay12 (k0_pay2 x1) (k0_pay4 x0 v4 v6) (k0_pay7 x0 v4 v6 v17 v21) (k0_pay8 x0 x1 v4 v6 v17 v19 v21 v22)
          (k0_pay9 x0 x1 v4 v6 v17 v19 v21 v22) v50 v52 v62 v64)
        (k0_pay13 (k0_pay4 x0 v4 v6)) (ix2 p a)
      = mixed P (fun e => x0 (ix2 p e)) (fun k => x1 (ix2 p k)) a := by
  unfold k0_pay1 k0_pay12 k0_pay13
  simp only [mulf_apply, addf_apply, broadcast_apply]
  rw [term_at L E x0 x1 p a 0 0 0 rfl rfl, term_at L E x0 x1 p a 1 1 32 rfl rfl, term_at L E x0 x1 p a 2 2 64 rfl rfl,
    term_at L E x0 x1 p a 3 3 96 rfl rfl, term_at L E x0 x1 p a 4 4 128 rfl rfl, term_at L E x0 x1 p a 5 5 160 rfl rfl,
    term_at L E x0 x1 p a 6 6 192 rfl rfl, term_at L E x0 x1 p a 7 7 224 rfl rfl]
  simp only [Ideal.ofBits_def]
  rw [Cert.Consts.ofBits_zero, zero_add]
  unfold mixed
  rw [Fin.sum_univ_eight]

end Cert.KernelRows
-- ==== Proof.KernelArrays.lean ====
/-
  From blocks to arrays, and the kernel's run.

  Grid point t writes back, into each of the three output arrays, rows t*2048 .. t*2048+2047: entry (p, .) of what it
  writes depends on row p of its two row blocks only, and is the row specification's function of row t*2048+p of the
  big arrays (the entry lemmas of the body, under the layout of the weight arrays). The 64 blocks tile each array (row r
  is in the block of point r / 2048), so after the run the hidden-state array holds the new hidden vector of every row,
  the mixed array the gated mean of every row, and the experts' array every expert's outputs with (expert, output)
  flattened to 256 columns. The host then reshapes the three arrays (the experts' 256 columns split back to 8 experts by 32 outputs), and the
  arguments are unchanged.
-/
import proofs.«157973_j80066780332773_2_alg».proof.Proof.KernelBlocks
import proofs.«157973_j80066780332773_2_alg».proof.Proof.KernelMix
import Idealize.ShloMosaic.Lib.StableHlo.Run

set_option maxRecDepth 16384

noncomputable section

open scoped BigOperators

namespace Cert.KernelArrays

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.RowSpec Cert.KernelRows

variable (m : (ℓ : Loc nD τ sig) → Buf (Elt Ideal) ℓ) (ρ : Dev nD → PrngReg)

/-- The experts' weight layout, of the arrays the region finds. -/
abbrev ExpertOK (c : Dev nD) : Prop :=
  ExpertLayout (kparams m c) (V m c main_v10) (V m c main_v11) (V m c main_v61) (V m c main_v62)

/-- The experts' outputs of all rows with (expert, output) flattened to 256 columns: column n*32+a is output a of
    expert n. -/
def expertFlat {R : Nat} (P : Params) (X : (⟨2, ![R, 128]⟩ : Shape).Idx → EReal) (H : (⟨2, ![R, 64]⟩ : Shape).Idx → EReal) :
    (⟨2, ![R, 256]⟩ : Shape).Idx → EReal :=
  fun i => expert P (row X (i 0)) (row H (i 0))
    ⟨(i 1).val / 32, by have h : (i 1).val < 256 := (i 1).isLt; show (i 1).val / 32 < 8; omega⟩
    ⟨(i 1).val % 32, by show (i 1).val % 32 < 32; omega⟩

/-- The flattened experts' array, split back to [rows, 8, 32], is the experts' outputs of every row. -/
theorem unflatten {R : Nat} (P : Params) (X : (⟨2, ![R, 128]⟩ : Shape).Idx → EReal) (H : (⟨2, ![R, 64]⟩ : Shape).Idx → EReal)
    (h : (⟨2, ![R, 256]⟩ : Shape).ShapeCasts ⟨3, ![R, 8, 32]⟩) :
    shapeCast ⟨3, ![R, 8, 32]⟩ (expertFlat P X H) h = expertArr P X H := by
  funext i
  have h1 : (i 1).val < 8 := (i 1).isLt
  have h2 : (i 2).val < 32 := (i 2).isLt
  rw [shapeCast_apply (expertFlat P X H) h i
    (ix2 (i 0) ⟨(i 1).val * 32 + (i 2).val, by omega⟩)
    (by rewrite [Shape.rowMajor_val_two, Shape.rowMajor_val_three]
        show (i 0).val * 256 + ((i 1).val * 32 + (i 2).val) = ((i 0).val * 8 + (i 1).val) * 32 + (i 2).val
        omega)]
  unfold expertFlat expertArr
  have e1 : (⟨((i 1).val * 32 + (i 2).val) / 32, by omega⟩ : Fin 8) = i 1 := Fin.ext (by show ((i 1).val * 32 + (i 2).val) / 32 = (i 1).val; omega)
  have e2 : (⟨((i 1).val * 32 + (i 2).val) % 32, by omega⟩ : Fin 32) = i 2 := Fin.ext (by show ((i 1).val * 32 + (i 2).val) % 32 = (i 2).val; omega)
  show expert P (row X (i 0)) (row H (i 0)) ⟨((i 1).val * 32 + (i 2).val) / 32, _⟩ ⟨((i 1).val * 32 + (i 2).val) % 32, _⟩ = _
  rw [e1, e2]

/-- Column cc of the body's flattened experts' outputs is output cc % 32 of expert cc / 32. -/
theorem expert_flat_at {P : Params} {v4 : Vec Ideal S128x72 .f32} {v6 : Vec Ideal S72 .f32}
    {v17 v19 : Vec Ideal S64x192 .f32} {v21 v22 : Vec Ideal S192 .f32} {v50 : Vec Ideal S64x512 .f32}
    {v52 : Vec Ideal S512 .f32} {v62 : Vec Ideal S512x256 .f32} {v64 : Vec Ideal S256 .f32}
    (L : GruLayout P v4 v6 v17 v19 v21 v22) (E : ExpertLayout P v50 v52 v62 v64)
    (x0 : Vec Ideal S2048x128 .f32) (x1 : Vec Ideal S2048x64 .f32) (p : Fin 2048) (cc : Fin 256) :
    k0_pay11 (F := Ideal) (k0_pay2 x1) (k0_pay7 x0 v4 v6 v17 v21) (k0_pay8 x0 x1 v4 v6 v17 v19 v21 v22)
        (k0_pay9 x0 x1 v4 v6 v17 v19 v21 v22) v50 v52 v62 v64 (ix2 p cc)
      = expert P (fun e => x0 (ix2 p e)) (fun k => x1 (ix2 p k))
          ⟨cc.val / 32, by have := cc.isLt; omega⟩ ⟨cc.val % 32, by omega⟩ := by
  have hc := cc.isLt
  rw [show ix2 p cc = ix2 p (⟨(⟨cc.val / 32, by omega⟩ : Fin 8).val * 32 + (⟨cc.val % 32, by omega⟩ : Fin 32).val,
      by show cc.val / 32 * 32 + cc.val % 32 < 256; omega⟩ : Fin 256) from
    congrArg (ix2 p) (Fin.ext (by show cc.val = cc.val / 32 * 32 + cc.val % 32; omega))]
  exact expert_at L E x0 x1 p _ _

/-! ## What a point writes back is its block of the whole-array function -/
theorem flushed13_eq (c : Dev nD) (L : GruOK m c) (t : Fin cfg0.N) :
    (dats m 0 c).flushed 13 t
      = ((cfg0.win 13).blk t).view.read (Elt Ideal) (hiddenArr (kparams m c) (V m c main_v0) (V m c main_v1)) := by
  show (cfg0.win 13).cut (grid0.coords t) ((dats m 0 c).after 13 t) = _
  rw [after0_13]
  unfold out0_13
  rw [View.canon_unit_zero hz2]
  simp only [View.ld_unit_zero (S := S2048x128) hz2, View.ld_unit_zero (S := S2048x64) hz2,
    View.ld_unit_zero (S := S128x72) hz2, View.ld_unit_zero (S := S72) hz1, View.ld_unit_zero (S := S64x192) hz2,
    View.ld_unit_zero (S := S192) hz1]
  rw [iblk2, iblk3, iblk4, iblk5, iblk6, iblk7]
  funext y
  obtain ⟨p, j, rfl⟩ : ∃ (p : Fin 2048) (j : Fin 64), y = ix2 p j := ⟨y 0, y 1, eq_ix2 y⟩
  refine (hidden_at L (iblk m c 0 t) (iblk m c 1 t) p j).trans ?_
  rw [rows0, rows1]
  have h0 : ((cfg0.win 13).blk t).view.emb (ix2 p j) = ix2 (bigRow t p) j := by
    funext a; apply Fin.ext
    obtain ⟨-, -, -, -, -, -, e0, e1, -⟩ := idx_facts t
    match a with
    | ⟨0, _⟩ => show win0_13.index t (0 : Fin 2) * 2048 + 1 * p.val = t.val * 2048 + p.val; omega
    | ⟨1, _⟩ => show win0_13.index t (1 : Fin 2) * 64 + 1 * j.val = j.val; omega
  show _ = hiddenArr (kparams m c) (V m c main_v0) (V m c main_v1) (((cfg0.win 13).blk t).view.emb (ix2 p j))
  rw [h0]
  rfl

theorem flushed12_eq (c : Dev nD) (L : GruOK m c) (E : ExpertOK m c) (t : Fin cfg0.N) :
    (dats m 0 c).flushed 12 t
      = ((cfg0.win 12).blk t).view.read (Elt Ideal) (mixedArr (kparams m c) (V m c main_v0) (V m c main_v1)) := by
  show (cfg0.win 12).cut (grid0.coords t) ((dats m 0 c).after 12 t) = _
  rw [after0_12]
  unfold out0_12
  rw [View.canon_unit_zero hz2]
  simp only [View.ld_unit_zero (S := S2048x128) hz2, View.ld_unit_zero (S := S2048x64) hz2,
    View.ld_unit_zero (S := S128x72) hz2, View.ld_unit_zero (S := S72) hz1, View.ld_unit_zero (S := S64x192) hz2,
    View.ld_unit_zero (S := S192) hz1, View.ld_unit_zero (S := S64x512) hz2, View.ld_unit_zero (S := S512) hz1,
    View.ld_unit_zero (S := S512x256) hz2, View.ld_unit_zero (S := S256) hz1]
  rw [iblk2, iblk3, iblk4, iblk5, iblk6, iblk7, iblk8, iblk9, iblk10, iblk11]
  funext y
  obtain ⟨p, a, rfl⟩ : ∃ (p : Fin 2048) (a : Fin 32), y = ix2 p a := ⟨y 0, y 1, eq_ix2 y⟩
  refine (mixed_at L E (iblk m c 0 t) (iblk m c 1 t) p a).trans ?_
  rw [rows0, rows1]
  have h0 : ((cfg0.win 12).blk t).view.emb (ix2 p a) = ix2 (bigRow t p) a := by
    funext ax; apply Fin.ext
    obtain ⟨-, -, -, -, f0, f1, e0, e1, g0, g1⟩ := idx_facts t
    match ax with
    | ⟨0, _⟩ => show win0_12.index t (0 : Fin 2) * 2048 + 1 * p.val = t.val * 2048 + p.val; omega
    | ⟨1, _⟩ => show win0_12.index t (1 : Fin 2) * 32 + 1 * a.val = a.val; omega
  show _ = mixedArr (kparams m c) (V m c main_v0) (V m c main_v1) (((cfg0.win 12).blk t).view.emb (ix2 p a))
  rw [h0]
  rfl

theorem flushed14_eq (c : Dev nD) (L : GruOK m c) (E : ExpertOK m c) (t : Fin cfg0.N) :
    (dats m 0 c).flushed 14 t
      = ((cfg0.win 14).blk t).view.read (Elt Ideal) (expertFlat (kparams m c) (V m c main_v0) (V m c main_v1)) := by
  show (cfg0.win 14).cut (grid0.coords t) ((dats m 0 c).after 14 t) = _
  rw [after0_14]
  unfold out0_14
  rw [View.canon_unit_zero hz2]
  simp only [View.ld_unit_zero (S := S2048x128) hz2, View.ld_unit_zero (S := S2048x64) hz2,
    View.ld_unit_zero (S := S128x72) hz2, View.ld_unit_zero (S := S72) hz1, View.ld_unit_zero (S := S64x192) hz2,
    View.ld_unit_zero (S := S192) hz1, View.ld_unit_zero (S := S64x512) hz2, View.ld_unit_zero (S := S512) hz1,
    View.ld_unit_zero (S := S512x256) hz2, View.ld_unit_zero (S := S256) hz1]
  rw [iblk2, iblk3, iblk4, iblk5, iblk6, iblk7, iblk8, iblk9, iblk10, iblk11]
  funext y
  obtain ⟨p, cc, rfl⟩ : ∃ (p : Fin 2048) (cc : Fin 256), y = ix2 p cc := ⟨y 0, y 1, eq_ix2 y⟩
  refine (expert_flat_at L E (iblk m c 0 t) (iblk m c 1 t) p cc).trans ?_
  rw [rows0, rows1]
  have h0 : ((cfg0.win 14).blk t).view.emb (ix2 p cc) = ix2 (bigRow t p) cc := by
    funext ax; apply Fin.ext
    obtain ⟨-, -, -, -, f0, f1, e0, e1, g0, g1⟩ := idx_facts t
    match ax with
    | ⟨0, _⟩ => show win0_14.index t (0 : Fin 2) * 2048 + 1 * p.val = t.val * 2048 + p.val; omega
    | ⟨1, _⟩ => show win0_14.index t (1 : Fin 2) * 256 + 1 * cc.val = cc.val; omega
  show _ = expertFlat (kparams m c) (V m c main_v0) (V m c main_v1) (((cfg0.win 14).blk t).view.emb (ix2 p cc))
  rw [h0]
  rfl

/-! ## The blocks tile each array -/

/-- The grid point that writes row r: r / 2048. -/
def pointOf (r : Fin 131072) : Fin cfg0.N :=
  ⟨r.val / 2048, by have h : grid0.N = 64 := N_0; have := r.isLt; show r.val / 2048 < grid0.N; omega⟩

theorem pointOf_val (r : Fin 131072) : (pointOf r).val = r.val / 2048 := rfl

/-- An index of the mixed array is in point t's block iff each coordinate is in the block's range. -/
theorem mem_blk12 (t : Fin cfg0.N) (i : S131072x32.Idx) :
    i ∈ ((cfg0.win 12).blk t).view.set ↔ ∀ a : Fin 2, win0_12.index t a * S2048x32.size a ≤ (i a).val
      ∧ (i a).val < win0_12.index t a * S2048x32.size a + S2048x32.size a := by
  show i ∈ ((View.whole main_v63_0).slice (win0_12.rect t)).set ↔ _
  rw [View.set_slice_whole, Rect.mem_set_unit]
  exact Iff.rfl

/-- Row r of the mixed array is written by point r / 2048. -/
theorem cover12 (i : S131072x32.Idx) :
    ∃ t : Fin cfg0.N, (cfg0.win 12).flush t = true ∧ i ∈ ((cfg0.win 12).blk t).view.set := by
  have hi0 : (i 0).val < 131072 := (i 0).isLt
  have hi1 : (i 1).val < 32 := (i 1).isLt
  refine ⟨pointOf (i 0), flush0_12 _, ?_⟩
  rw [mem_blk12]
  obtain ⟨-, -, -, -, f0, f1, e0, e1, g0, g1⟩ := idx_facts (pointOf (i 0))
  have hp := pointOf_val (i 0)
  intro a
  match a with
  | ⟨0, _⟩ =>
    show win0_12.index (pointOf (i 0)) (0 : Fin 2) * 2048 ≤ (i 0).val
      ∧ (i 0).val < win0_12.index (pointOf (i 0)) (0 : Fin 2) * 2048 + 2048
    omega
  | ⟨1, _⟩ =>
    show win0_12.index (pointOf (i 0)) (1 : Fin 2) * 32 ≤ (i 1).val
      ∧ (i 1).val < win0_12.index (pointOf (i 0)) (1 : Fin 2) * 32 + 32
    omega

/-- An index of the hidden-state array is in point t's block iff each coordinate is in the block's range. -/
theorem mem_blk13 (t : Fin cfg0.N) (i : S131072x64.Idx) :
    i ∈ ((cfg0.win 13).blk t).view.set ↔ ∀ a : Fin 2, win0_13.index t a * S2048x64.size a ≤ (i a).val
      ∧ (i a).val < win0_13.index t a * S2048x64.size a + S2048x64.size a := by
  show i ∈ ((View.whole main_v63_1).slice (win0_13.rect t)).set ↔ _
  rw [View.set_slice_whole, Rect.mem_set_unit]
  exact Iff.rfl

/-- Row r of the hidden-state array is written by point r / 2048. -/
theorem cover13 (i : S131072x64.Idx) :
    ∃ t : Fin cfg0.N, (cfg0.win 13).flush t = true ∧ i ∈ ((cfg0.win 13).blk t).view.set := by
  have hi0 : (i 0).val < 131072 := (i 0).isLt
  have hi1 : (i 1).val < 64 := (i 1).isLt
  refine ⟨pointOf (i 0), flush0_13 _, ?_⟩
  rw [mem_blk13]
  obtain ⟨-, -, -, -, f0, f1, e0, e1, g0, g1⟩ := idx_facts (pointOf (i 0))
  have hp := pointOf_val (i 0)
  intro a
  match a with
  | ⟨0, _⟩ =>
    show win0_13.index (pointOf (i 0)) (0 : Fin 2) * 2048 ≤ (i 0).val
      ∧ (i 0).val < win0_13.index (pointOf (i 0)) (0 : Fin 2) * 2048 + 2048
    omega
  | ⟨1, _⟩ =>
    show win0_13.index (pointOf (i 0)) (1 : Fin 2) * 64 ≤ (i 1).val
      ∧ (i 1).val < win0_13.index (pointOf (i 0)) (1 : Fin 2) * 64 + 64
    omega

/-- An index of the experts' array is in point t's block iff each coordinate is in the block's range. -/
theorem mem_blk14 (t : Fin cfg0.N) (i : S131072x256.Idx) :
    i ∈ ((cfg0.win 14).blk t).view.set ↔ ∀ a : Fin 2, win0_14.index t a * S2048x256.size a ≤ (i a).val
      ∧ (i a).val < win0_14.index t a * S2048x256.size a + S2048x256.size a := by
  show i ∈ ((View.whole main_v63_2).slice (win0_14.rect t)).set ↔ _
  rw [View.set_slice_whole, Rect.mem_set_unit]
  exact Iff.rfl

/-- Row r of the experts' array is written by point r / 2048. -/
theorem cover14 (i : S131072x256.Idx) :
    ∃ t : Fin cfg0.N, (cfg0.win 14).flush t = true ∧ i ∈ ((cfg0.win 14).blk t).view.set := by
  have hi0 : (i 0).val < 131072 := (i 0).isLt
  have hi1 : (i 1).val < 256 := (i 1).isLt
  refine ⟨pointOf (i 0), flush0_14 _, ?_⟩
  rw [mem_blk14]
  obtain ⟨-, -, -, -, f0, f1, e0, e1, g0, g1⟩ := idx_facts (pointOf (i 0))
  have hp := pointOf_val (i 0)
  intro a
  match a with
  | ⟨0, _⟩ =>
    show win0_14.index (pointOf (i 0)) (0 : Fin 2) * 2048 ≤ (i 0).val
      ∧ (i 0).val < win0_14.index (pointOf (i 0)) (0 : Fin 2) * 2048 + 2048
    omega
  | ⟨1, _⟩ =>
    show win0_14.index (pointOf (i 0)) (1 : Fin 2) * 256 ≤ (i 1).val
      ∧ (i 1).val < win0_14.index (pointOf (i 0)) (1 : Fin 2) * 256 + 256
    omega

/-! ## The arrays after the run -/

theorem final12 (c : Dev nD) (L : GruOK m c) (E : ExpertOK m c) :
    (dats m 0 c).arrAt 12 cfg0.N = mixedArr (kparams m c) (V m c main_v0) (V m c main_v1) :=
  (dats m 0 c).arrAt_eq_of_cover 12 _ (fun t _ => flushed12_eq m c L E t) cover12

theorem final13 (c : Dev nD) (L : GruOK m c) :
    (dats m 0 c).arrAt 13 cfg0.N = hiddenArr (kparams m c) (V m c main_v0) (V m c main_v1) :=
  (dats m 0 c).arrAt_eq_of_cover 13 _ (fun t _ => flushed13_eq m c L t) cover13

theorem final14 (c : Dev nD) (L : GruOK m c) (E : ExpertOK m c) :
    (dats m 0 c).arrAt 14 cfg0.N = expertFlat (kparams m c) (V m c main_v0) (V m c main_v1) :=
  (dats m 0 c).arrAt_eq_of_cover 14 _ (fun t _ => flushed14_eq m c L E t) cover14

/-! ## The host's three reshapes after the call -/

theorem tail65 (c : Dev nD) (L : GruOK m c) (E : ExpertOK m c) :
    Pipeline.afterTail₀ cfgs (dats m) 0 (V0 m) [hostOps1] c main_v65
      = shapeCast S16384x8x32 (mixedArr (kparams m c) (V m c main_v0) (V m c main_v1)) shapeCasts_S131072x32_S16384x8x32 := by
  unfold Pipeline.afterTail₀
  show StableHlo.after hostOps1 _ (Proc.devRef .tc main_v65) = _
  after_results
  exact congrArg (fun A => shapeCast S16384x8x32 A shapeCasts_S131072x32_S16384x8x32)
    ((Pipeline.withArrays_arr spec0 launch0.win.arr_inj c _ _ 12).trans (final12 m c L E))

theorem tail66 (c : Dev nD) (L : GruOK m c) :
    Pipeline.afterTail₀ cfgs (dats m) 0 (V0 m) [hostOps1] c main_v66
      = shapeCast S16384x8x64 (hiddenArr (kparams m c) (V m c main_v0) (V m c main_v1)) shapeCasts_S131072x64_S16384x8x64 := by
  unfold Pipeline.afterTail₀
  show StableHlo.after hostOps1 _ (Proc.devRef .tc main_v66) = _
  after_results
  exact congrArg (fun A => shapeCast S16384x8x64 A shapeCasts_S131072x64_S16384x8x64)
    ((Pipeline.withArrays_arr spec0 launch0.win.arr_inj c _ _ 13).trans (final13 m c L))

theorem tail64 (c : Dev nD) (L : GruOK m c) (E : ExpertOK m c) :
    Pipeline.afterTail₀ cfgs (dats m) 0 (V0 m) [hostOps1] c main_v64
      = expertArr (kparams m c) (V m c main_v0) (V m c main_v1) := by
  unfold Pipeline.afterTail₀
  show StableHlo.after hostOps1 _ (Proc.devRef .tc main_v64) = _
  after_results
  exact (congrArg (fun A => shapeCast S131072x8x32 A shapeCasts_S131072x256_S131072x8x32)
    ((Pipeline.withArrays_arr spec0 launch0.win.arr_inj c _ _ 14).trans (final14 m c L E))).trans
    (unflatten (R := 131072) (kparams m c) (V m c main_v0) (V m c main_v1) shapeCasts_S131072x256_S131072x8x32)

/-! ## The run -/

/-- THE KERNEL'S RUN: every weakly fair execution terminates with the three results at the reshaped whole-array
    functions of the row specification, and the arguments unchanged. -/
theorem kernel_run (L : ∀ c, GruOK m c) (E : ∀ c, ExpertOK m c) :
    θ_run defs (onTc (τ := τ) (main (F := Ideal))) ⟨m, fun _ => 0, ρ⟩ (fun r => ∀ c : Dev nD,
      r.2.mem ((c.tc : Thread nD τ).loc main_v65)
        = shapeCast S16384x8x32 (mixedArr (kparams m c) (V m c main_v0) (V m c main_v1)) shapeCasts_S131072x32_S16384x8x32
      ∧ r.2.mem ((c.tc : Thread nD τ).loc main_v66)
        = shapeCast S16384x8x64 (hiddenArr (kparams m c) (V m c main_v0) (V m c main_v1)) shapeCasts_S131072x64_S16384x8x64
      ∧ r.2.mem ((c.tc : Thread nD τ).loc main_v64) = expertArr (kparams m c) (V m c main_v0) (V m c main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v65 (Pipeline.mem_restRefs_of main_v65 (by decide) (by decide))).trans (tail65 m c (L c) (E c)),
      ((h c).2 main_v66 (Pipeline.mem_restRefs_of main_v66 (by decide) (by decide))).trans (tail66 m c (L c)),
      ((h c).2 main_v64 (Pipeline.mem_restRefs_of main_v64 (by decide) (by decide))).trans (tail64 m c (L c) (E c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩)
    (run_main m ρ)

end Cert.KernelArrays

end
-- ==== Proof.KernelWeights.lean ====
/-
  The weight arrays the kernel's host program builds before its one region, read at an index.

  Before the region the host program reshapes the two row inputs, transposes the dense layers' weights, lays the
  input layer's and the gate's weights side by side (and their biases end to end), and merges the eight experts'
  first-layer weights into one [64, 512] array. Each lemma below reads one of those arrays, as the region finds it,
  at an index given by its coordinates, and names the entry of the argument array it holds.
-/
import proofs.«157973_j80066780332773_2_alg».proof.Proof.Gen.KernelIdeal.Frame
import Idealize.ShloMosaic.Lib.Pipeline.Value
import Idealize.ShloMosaic.Lib.ValueIdx

noncomputable section

namespace Cert.KernelWeights

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Idealize.ShloMosaic.Ideal) ℓ) (c : Dev nD)

/-! ## The arrays as terms over the arguments -/

/-- The input rows: the [16384, 8, 128] argument with its two leading axes merged. -/
theorem in_rows : (V m c main_v0 : S131072x128.Idx → EReal)
    = shapeCast S131072x128 (m ((c : Thread nD τ).loc main_arg0)) shapeCasts_S16384x8x128_S131072x128 := by
  show StableHlo.after hostOps0 (fun b => m (c, b)) (Proc.devRef .tc main_v0) = _
  after_results; rfl

/-- The hidden rows: the [16384, 8, 64] argument with its two leading axes merged. -/
theorem hid_rows : (V m c main_v1 : S131072x64.Idx → EReal)
    = shapeCast S131072x64 (m ((c : Thread nD τ).loc main_arg1)) shapeCasts_S16384x8x64_S131072x64 := by
  show StableHlo.after hostOps0 (fun b => m (c, b)) (Proc.devRef .tc main_v1) = _
  after_results; rfl

theorem fcgate_term : (V m c main_v4 : S128x72.Idx → EReal)
    = concatenate S128x72 1
        [⟨S128x64, transpose S128x64 [1, 0] (m ((c : Thread nD τ).loc main_arg2)) transposes_S64x128_S128x64_1_0⟩,
         ⟨S128x8, transpose S128x8 [1, 0] (m ((c : Thread nD τ).loc main_arg12)) transposes_S8x128_S128x8_1_0⟩]
        concatenates_S128x64_S128x8_S128x72_d1 := by
  show StableHlo.after hostOps0 (fun b => m (c, b)) (Proc.devRef .tc main_v4) = _
  after_results

theorem fcgate_b_term : (V m c main_v5 : S72.Idx → EReal)
    = concatenate S72 0 [⟨S64, m ((c : Thread nD τ).loc main_arg3)⟩, ⟨S8, m ((c : Thread nD τ).loc main_arg13)⟩]
        concatenates_S64_S8_S72_d0 := by
  show StableHlo.after hostOps0 (fun b => m (c, b)) (Proc.devRef .tc main_v5) = _
  after_results

theorem wih_term : (V m c main_v6 : S64x192.Idx → EReal)
    = transpose S64x192 [1, 0] (m ((c : Thread nD τ).loc main_arg4)) transposes_S192x64_S64x192_1_0 := by
  show StableHlo.after hostOps0 (fun b => m (c, b)) (Proc.devRef .tc main_v6) = _
  after_results

theorem whh_term : (V m c main_v7 : S64x192.Idx → EReal)
    = transpose S64x192 [1, 0] (m ((c : Thread nD τ).loc main_arg5)) transposes_S192x64_S64x192_1_0 := by
  show StableHlo.after hostOps0 (fun b => m (c, b)) (Proc.devRef .tc main_v7) = _
  after_results

theorem w1cat_term : (V m c main_v10 : S64x512.Idx → EReal)
    = shapeCast S64x512
        (transpose S64x8x64 [1, 0, 2]
          (transpose S8x64x64 [0, 2, 1] (m ((c : Thread nD τ).loc main_arg8)) transposes_S8x64x64_S8x64x64_0_2_1)
          transposes_S8x64x64_S64x8x64_1_0_2)
        shapeCasts_S64x8x64_S64x512 := by
  show StableHlo.after hostOps0 (fun b => m (c, b)) (Proc.devRef .tc main_v10) = _
  after_results; rfl

theorem b1cat_term : (V m c main_v11 : S512.Idx → EReal)
    = shapeCast S512 (m ((c : Thread nD τ).loc main_arg9)) shapeCasts_S8x64_S512 := by
  show StableHlo.after hostOps0 (fun b => m (c, b)) (Proc.devRef .tc main_v11) = _
  after_results; rfl

theorem b2cat_term : (V m c main_v62 : S256.Idx → EReal)
    = shapeCast S256 (m ((c : Thread nD τ).loc main_arg11)) shapeCasts_S8x32_S256 := by
  show StableHlo.after hostOps0 (fun b => m (c, b)) (Proc.devRef .tc main_v62) = _
  after_results; rfl

/-! ## The input layer's and the gate's weights, side by side -/

/-- Columns 0..63 of the [128, 72] array are the input layer's weights, transposed. -/
theorem fcgate_fc (e : Fin 128) (j : Fin 64) :
    (V m c main_v4 : S128x72.Idx → EReal) (ix2 e ⟨j.val, by have := j.isLt; omega⟩)
      = m ((c : Thread nD τ).loc main_arg2) (ix2 j e) := by
  rw [fcgate_term]
  refine (concatenate_pair_apply_left (t := S128x72) (s₁ := S128x64) (s₂ := S128x8) 1 _ _
    concatenates_S128x64_S128x8_S128x72_d1 _ rfl (ix2 e j) (fun b => match b with
      | ⟨0, _⟩ => rfl
      | ⟨1, _⟩ => rfl)).trans ?_
  exact transpose_apply [1, 0] _ transposes_S64x128_S128x64_1_0 (ix2 e j) (ix2 j e) (fun b => match b with
    | ⟨0, _⟩ => rfl
    | ⟨1, _⟩ => rfl)

/-- Columns 64..71 of the [128, 72] array are the gate's weights, transposed. -/
theorem fcgate_gate (e : Fin 128) (n : Fin 8) :
    (V m c main_v4 : S128x72.Idx → EReal) (ix2 e ⟨64 + n.val, by have := n.isLt; omega⟩)
      = m ((c : Thread nD τ).loc main_arg12) (ix2 n e) := by
  rw [fcgate_term]
  refine (concatenate_pair_apply_right (t := S128x72) (s₁ := S128x64) (s₂ := S128x8) 1 _ _
    concatenates_S128x64_S128x8_S128x72_d1 _ rfl rfl (ix2 e n) (fun b => match b with
      | ⟨0, _⟩ => fun _ => rfl
      | ⟨1, _⟩ => fun hb => absurd rfl hb)
    (by show n.val + 64 = 64 + n.val; omega)).trans ?_
  exact transpose_apply [1, 0] _ transposes_S8x128_S128x8_1_0 (ix2 e n) (ix2 n e) (fun b => match b with
    | ⟨0, _⟩ => rfl
    | ⟨1, _⟩ => rfl)

/-- Entries 0..63 of the [72] bias are the input layer's. -/
theorem fcgate_b_fc (j : Fin 64) :
    (V m c main_v5 : S72.Idx → EReal) (ix1 ⟨j.val, by have := j.isLt; omega⟩)
      = m ((c : Thread nD τ).loc main_arg3) (ix1 j) := by
  rw [fcgate_b_term]
  exact concatenate_pair_apply_left (t := S72) (s₁ := S64) (s₂ := S8) 0 _ _
    concatenates_S64_S8_S72_d0 _ rfl (ix1 j) (fun b => match b with
      | ⟨0, _⟩ => rfl)

/-- Entries 64..71 of the [72] bias are the gate's. -/
theorem fcgate_b_gate (n : Fin 8) :
    (V m c main_v5 : S72.Idx → EReal) (ix1 ⟨64 + n.val, by have := n.isLt; omega⟩)
      = m ((c : Thread nD τ).loc main_arg13) (ix1 n) := by
  rw [fcgate_b_term]
  exact concatenate_pair_apply_right (t := S72) (s₁ := S64) (s₂ := S8) 0 _ _
    concatenates_S64_S8_S72_d0 _ rfl rfl (ix1 n) (fun b => match b with
      | ⟨0, _⟩ => fun hb => absurd rfl hb)
    (by show n.val + 64 = 64 + n.val; omega)

/-! ## The recurrent cell's weights, transposed -/

theorem wih_t (k : Fin 64) (q : Fin 192) :
    (V m c main_v6 : S64x192.Idx → EReal) (ix2 k q) = m ((c : Thread nD τ).loc main_arg4) (ix2 q k) := by
  rw [wih_term]
  exact transpose_apply [1, 0] _ transposes_S192x64_S64x192_1_0 (ix2 k q) (ix2 q k) (fun b => match b with
    | ⟨0, _⟩ => rfl
    | ⟨1, _⟩ => rfl)

theorem whh_t (k : Fin 64) (q : Fin 192) :
    (V m c main_v7 : S64x192.Idx → EReal) (ix2 k q) = m ((c : Thread nD τ).loc main_arg5) (ix2 q k) := by
  rw [whh_term]
  exact transpose_apply [1, 0] _ transposes_S192x64_S64x192_1_0 (ix2 k q) (ix2 q k) (fun b => match b with
    | ⟨0, _⟩ => rfl
    | ⟨1, _⟩ => rfl)

/-! ## The experts' first layer, merged: column n * 64 + k of row j is weight (n, k, j) -/

theorem w1cat (j : Fin 64) (n : Fin 8) (k : Fin 64) :
    (V m c main_v10 : S64x512.Idx → EReal) (ix2 j ⟨n.val * 64 + k.val, by have := n.isLt; have := k.isLt; omega⟩)
      = m ((c : Thread nD τ).loc main_arg8) (ix3 n k j) := by
  rw [w1cat_term]
  refine (shapeCast_apply _ shapeCasts_S64x8x64_S64x512 _ (ix3 j n k) (by
    rewrite [Shape.rowMajor_val_three, Shape.rowMajor_val_two]
    show (j.val * 8 + n.val) * 64 + k.val = j.val * 512 + (n.val * 64 + k.val); omega)).trans ?_
  refine (transpose_apply [1, 0, 2] _ transposes_S8x64x64_S64x8x64_1_0_2 (ix3 j n k) (ix3 n j k) (fun b => match b with
    | ⟨0, _⟩ => rfl
    | ⟨1, _⟩ => rfl
    | ⟨2, _⟩ => rfl)).trans ?_
  exact transpose_apply [0, 2, 1] _ transposes_S8x64x64_S8x64x64_0_2_1 (ix3 n j k) (ix3 n k j) (fun b => match b with
    | ⟨0, _⟩ => rfl
    | ⟨1, _⟩ => rfl
    | ⟨2, _⟩ => rfl)

/-- The experts' first-layer biases end to end. -/
theorem b1cat (n : Fin 8) (k : Fin 64) :
    (V m c main_v11 : S512.Idx → EReal) (ix1 ⟨n.val * 64 + k.val, by have := n.isLt; have := k.isLt; omega⟩)
      = m ((c : Thread nD τ).loc main_arg9) (ix2 n k) := by
  rw [b1cat_term]
  exact shapeCast_apply _ shapeCasts_S8x64_S512 _ (ix2 n k) (by
    rewrite [Shape.rowMajor_val_two, Shape.rowMajor_val_one]
    show n.val * 64 + k.val = n.val * 64 + k.val; rfl)

/-- The experts' second-layer biases end to end. -/
theorem b2cat (n : Fin 8) (a : Fin 32) :
    (V m c main_v62 : S256.Idx → EReal) (ix1 ⟨n.val * 32 + a.val, by have := n.isLt; have := a.isLt; omega⟩)
      = m ((c : Thread nD τ).loc main_arg11) (ix2 n a) := by
  rw [b2cat_term]
  exact shapeCast_apply _ shapeCasts_S8x32_S256 _ (ix2 n a) (by
    rewrite [Shape.rowMajor_val_two, Shape.rowMajor_val_one]
    show n.val * 32 + a.val = n.val * 32 + a.val; rfl)

end Cert.KernelWeights

end
-- ==== Proof.LibScatterSet.lean ====
/-
  A host scatter whose body returns the update (an overwrite), read at an index.

  The scatter folds over the update's indices in row-major order, each step overwriting the operand's element at the
  update index's target. When every update index has a target inside the operand and distinct update indices have
  distinct targets, the order does not matter: the result at a target is that target's update, and every other
  element is the operand's.
-/
import Idealize.ShloMosaic.PureOps.ShapeOps
import Idealize.ShloMosaic.Lib.ValueIdx

noncomputable section

namespace Cert.LibScatterSet

open Idealize.ShloMosaic

variable {α : Type}

/-- A left fold of overwrites leaves alone an index that none of the steps targets. -/
theorem foldl_set_of_forall_ne {ι κ : Type} [inst : DecidableEq ι] (g : κ → ι) (upd : κ → α) :
    ∀ (L : List κ) (x : ι → α) (i : ι), (∀ n ∈ L, g n ≠ i) →
      (L.foldl (fun r n => fun i' => if i' = g n then upd n else r i') x) i = x i
  | [], _, _, _ => rfl
  | n :: L, x, i, h => by
    rw [List.foldl_cons, foldl_set_of_forall_ne g upd L _ i (fun k hk => h k (List.mem_cons_of_mem _ hk))]
    exact if_neg (fun e => h n List.mem_cons_self e.symm)

/-- A left fold of overwrites at pairwise distinct targets holds, at a step's target, that step's value. -/
theorem foldl_set_of_mem {ι κ : Type} [inst : DecidableEq ι] (g : κ → ι) (hg : Function.Injective g) (upd : κ → α) :
    ∀ (L : List κ), L.Nodup → ∀ (x : ι → α) (n0 : κ), n0 ∈ L →
      (L.foldl (fun r n => fun i' => if i' = g n then upd n else r i') x) (g n0) = upd n0
  | [], _, _, _, h => absurd h List.not_mem_nil
  | n :: L, hL, x, n0, h => by
    rw [List.foldl_cons]
    rcases List.mem_cons.mp h with e | h'
    · subst e
      rw [foldl_set_of_forall_ne g upd L _ (g n0)
        (fun k hk e => (List.nodup_cons.mp hL).1 (hg e ▸ hk))]
      exact if_pos rfl
    · exact foldl_set_of_mem g hg upd L (List.nodup_cons.mp hL).2 _ n0 h'

variable {s si u : Shape} {w : Nat}

/-- The overwriting scatter as a fold of plain overwrites, when every update index has a target. -/
theorem scatter_set_eq_foldl (d : ScatterDims s si u) (x : s.Idx → α) (idx : IVec si w) (upd : u.Idx → α)
    (g : u.Idx → s.Idx) (h : ∀ j, d.resultIdx? j idx = some (g j)) :
    Host.scatter d (fun _ b => b) x idx upd
      = (List.finRange u.numel).foldl (fun r n => fun i' =>
          if i' = (g ∘ u.rowMajor.symm) n then (upd ∘ u.rowMajor.symm) n else r i') x := by
  unfold Host.scatter
  congr 1
  funext r n
  rw [h]
  rfl

/-- At an update index's target the overwriting scatter holds that update. -/
theorem scatter_set_at (d : ScatterDims s si u) (x : s.Idx → α) (idx : IVec si w) (upd : u.Idx → α)
    (g : u.Idx → s.Idx) (hg : Function.Injective g) (h : ∀ j, d.resultIdx? j idx = some (g j)) (j : u.Idx) :
    Host.scatter d (fun _ b => b) x idx upd (g j) = upd j := by
  rw [scatter_set_eq_foldl d x idx upd g h]
  have := foldl_set_of_mem (g ∘ u.rowMajor.symm) (hg.comp u.rowMajor.symm.injective) (upd ∘ u.rowMajor.symm)
    (List.finRange u.numel) (List.nodup_finRange _) x (u.rowMajor j) (List.mem_finRange _)
  simpa only [Function.comp_apply, Equiv.symm_apply_apply] using this

/-- Away from every target the overwriting scatter keeps the operand. -/
theorem scatter_set_away (d : ScatterDims s si u) (x : s.Idx → α) (idx : IVec si w) (upd : u.Idx → α)
    (g : u.Idx → s.Idx) (h : ∀ j, d.resultIdx? j idx = some (g j)) (i : s.Idx) (hi : ∀ j, g j ≠ i) :
    Host.scatter d (fun _ b => b) x idx upd i = x i := by
  rw [scatter_set_eq_foldl d x idx upd g h]
  exact foldl_set_of_forall_ne (g ∘ u.rowMajor.symm) (upd ∘ u.rowMajor.symm) (List.finRange u.numel) x i
    (fun n _ => hi _)

end Cert.LibScatterSet

end
-- ==== Proof.LibWindowScatter.lean ====
/-
  An overwriting host scatter of ONE whole window, read at an index, for any sizes.

  The scatter writes a whole [P, Q] update as one window of an [R, C] array (jnp's x.at[r:r+P, c0:c0+Q].set(u)): both
  axes of the update are window axes, none is inserted, and the window's corner (r, c0) is read off a two-entry index
  vector. Entry (r + k, c0 + a) of the result is entry (k, a) of the update (`block_at`), and every entry outside the
  window is the operand's (`block_away`). Built on the reading of an overwriting scatter as a fold of plain
  overwrites at pairwise distinct targets.
-/
import proofs.«157973_j80066780332773_2_alg».proof.Proof.LibScatterSet
import Idealize.ShloMosaic.PureOps.ShapeOps
import Idealize.ShloMosaic.Lib.Pipeline.Value
import Idealize.ShloMosaic.Lib.ValueIdx

noncomputable section

namespace Cert.LibWindowScatter

open Idealize.ShloMosaic Idealize.ShloMosaic.ValueIdx

/-! ## One window scatter, read at an index

  The scatter writes a whole [P, Q] update as one window of an [R, C] array; the window's corner (r, c0) is read off a
  two-entry index vector. Entry (r + k, c0 + a) of the result is entry (k, a) of the update, and every entry outside
  the window is the operand's. -/

section Block
variable {R C P Q : Nat}

/-- The dimension numbers of that scatter: both axes of the update are window axes, none is inserted, and the two
    entries of the index vector are the starts on axes 0 and 1. -/
abbrev blockDims (wf : ScatterDims.WF ⟨2, ![R, C]⟩ ⟨1, ![2]⟩ ⟨2, ![P, Q]⟩ [0, 1] [] [0, 1] 0) :
    ScatterDims ⟨2, ![R, C]⟩ ⟨1, ![2]⟩ ⟨2, ![P, Q]⟩ :=
  { updateWindowDims := [0, 1], insertedWindowDims := [], scatterDimsToOperandDims := [0, 1], indexVectorDim := 0, wf := wf }

variable (wf : ScatterDims.WF ⟨2, ![R, C]⟩ ⟨1, ![2]⟩ ⟨2, ![P, Q]⟩ [0, 1] [] [0, 1] 0)

/-- The window's start on axis 0 is the index vector's entry 0. -/
theorem block_start0 {w : Nat} (j : (⟨2, ![P, Q]⟩ : Shape).Idx) (idx : IVec ⟨1, ![2]⟩ w) :
    (blockDims wf).start j idx 0 = (idx (ix1 0)).toInt := by
  have hm : (0 : Fin 2) ∈ (blockDims wf).scatterDimsToOperandDims := show (0 : Fin 2) ∈ [(0 : Fin 2), 1] by decide
  unfold ScatterDims.start
  rw [dif_pos hm]
  refine congrArg (fun i => (idx i).toInt) (funext fun b => ?_)
  match b with
  | ⟨0, _⟩ => rfl

/-- The window's start on axis 1 is the index vector's entry 1. -/
theorem block_start1 {w : Nat} (j : (⟨2, ![P, Q]⟩ : Shape).Idx) (idx : IVec ⟨1, ![2]⟩ w) :
    (blockDims wf).start j idx 1 = (idx (ix1 1)).toInt := by
  have hm : (1 : Fin 2) ∈ (blockDims wf).scatterDimsToOperandDims := show (1 : Fin 2) ∈ [(0 : Fin 2), 1] by decide
  unfold ScatterDims.start
  rw [dif_pos hm]
  refine congrArg (fun i => (idx i).toInt) (funext fun b => ?_)
  match b with
  | ⟨0, _⟩ => rfl

/-- The window coordinate on axis 0 is the update index's coordinate 0. -/
theorem block_window0 (j : (⟨2, ![P, Q]⟩ : Shape).Idx) : (blockDims wf).window j 0 = (j 0).val := by
  have hm : (0 : Fin 2) ∈ (blockDims wf).sKept :=
    show (0 : Fin 2) ∈ (List.finRange 2).filter (fun a => decide (a ∉ ([] : List (Fin 2)))) by decide
  unfold ScatterDims.window
  rw [dif_pos hm]
  rfl

/-- The window coordinate on axis 1 is the update index's coordinate 1. -/
theorem block_window1 (j : (⟨2, ![P, Q]⟩ : Shape).Idx) : (blockDims wf).window j 1 = (j 1).val := by
  have hm : (1 : Fin 2) ∈ (blockDims wf).sKept :=
    show (1 : Fin 2) ∈ (List.finRange 2).filter (fun a => decide (a ∉ ([] : List (Fin 2)))) by decide
  unfold ScatterDims.window
  rw [dif_pos hm]
  rfl

/-- Where update index j lands when the window's corner is (r, c0). -/
def corner (r c0 : Nat) (hr : r + P ≤ R) (hc : c0 + Q ≤ C) (j : (⟨2, ![P, Q]⟩ : Shape).Idx) : (⟨2, ![R, C]⟩ : Shape).Idx :=
  ix2 ⟨r + (j 0).val, by have := idx2_lt0 j; omega⟩ ⟨c0 + (j 1).val, by have := idx2_lt1 j; omega⟩

theorem corner_inj (r c0 : Nat) (hr : r + P ≤ R) (hc : c0 + Q ≤ C) : Function.Injective (corner r c0 hr hc) := by
  intro j j' h
  have h0 : r + (j 0).val = r + (j' 0).val := congrArg (fun i => (i 0).val) h
  have h1 : c0 + (j 1).val = c0 + (j' 1).val := congrArg (fun i => (i 1).val) h
  funext a
  match a with
  | ⟨0, _⟩ => exact Fin.ext (by show (j 0).val = (j' 0).val; omega)
  | ⟨1, _⟩ => exact Fin.ext (by show (j 1).val = (j' 1).val; omega)

/-- With the corner (r, c0) inside the operand far enough for the whole window, every update index lands. -/
theorem block_resultIdx {w : Nat} (j : (⟨2, ![P, Q]⟩ : Shape).Idx) (idx : IVec ⟨1, ![2]⟩ w) (r c0 : Nat)
    (h0 : (idx (ix1 0)).toInt = (r : Int)) (h1 : (idx (ix1 1)).toInt = (c0 : Int)) (hr : r + P ≤ R) (hc : c0 + Q ≤ C) :
    (blockDims wf).resultIdx? j idx = some (corner r c0 hr hc j) := by
  have hj0 := idx2_lt0 j
  have hj1 := idx2_lt1 j
  have e0 : (blockDims wf).start j idx 0 + ((blockDims wf).window j 0 : Int) = ((r + (j 0).val : Nat) : Int) := by
    rw [block_start0, block_window0, h0]; omega
  have e1 : (blockDims wf).start j idx 1 + ((blockDims wf).window j 1 : Int) = ((c0 + (j 1).val : Nat) : Int) := by
    rw [block_start1, block_window1, h1]; omega
  have H : ∀ a, 0 ≤ (blockDims wf).start j idx a + ((blockDims wf).window j a : Int) ∧
      (blockDims wf).start j idx a + ((blockDims wf).window j a : Int) < ((⟨2, ![R, C]⟩ : Shape).size a : Int) := fun a =>
    match a with
    | ⟨0, _⟩ => by
      show 0 ≤ (blockDims wf).start j idx 0 + ((blockDims wf).window j 0 : Int) ∧
        (blockDims wf).start j idx 0 + ((blockDims wf).window j 0 : Int) < (R : Int)
      rw [e0]; omega
    | ⟨1, _⟩ => by
      show 0 ≤ (blockDims wf).start j idx 1 + ((blockDims wf).window j 1 : Int) ∧
        (blockDims wf).start j idx 1 + ((blockDims wf).window j 1 : Int) < (C : Int)
      rw [e1]; omega
  unfold ScatterDims.resultIdx?
  rw [dif_pos H]
  refine congrArg some (funext fun a => ?_)
  match a with
  | ⟨0, _⟩ =>
    exact Fin.ext (by
      show ((blockDims wf).start j idx 0 + ((blockDims wf).window j 0 : Int)).toNat = r + (j 0).val
      rw [e0]; omega)
  | ⟨1, _⟩ =>
    exact Fin.ext (by
      show ((blockDims wf).start j idx 1 + ((blockDims wf).window j 1 : Int)).toNat = c0 + (j 1).val
      rw [e1]; omega)

variable {α : Type}

/-- Inside the window the result holds the update. -/
theorem block_at {w : Nat} (x : (⟨2, ![R, C]⟩ : Shape).Idx → α) (idx : IVec ⟨1, ![2]⟩ w)
    (upd : (⟨2, ![P, Q]⟩ : Shape).Idx → α) (r c0 : Nat)
    (h0 : (idx (ix1 0)).toInt = (r : Int)) (h1 : (idx (ix1 1)).toInt = (c0 : Int)) (hr : r + P ≤ R) (hc : c0 + Q ≤ C)
    (k : Fin P) (a : Fin Q) :
    Host.scatter (blockDims wf) (fun _ b => b) x idx upd
        (ix2 ⟨r + k.val, by have := k.isLt; omega⟩ ⟨c0 + a.val, by have := a.isLt; omega⟩) = upd (ix2 k a) :=
  Cert.LibScatterSet.scatter_set_at (blockDims wf) x idx upd (corner r c0 hr hc) (corner_inj r c0 hr hc)
    (fun j => block_resultIdx wf j idx r c0 h0 h1 hr hc) (ix2 k a)

/-- Outside the window the result holds the operand. -/
theorem block_away {w : Nat} (x : (⟨2, ![R, C]⟩ : Shape).Idx → α) (idx : IVec ⟨1, ![2]⟩ w)
    (upd : (⟨2, ![P, Q]⟩ : Shape).Idx → α) (r c0 : Nat)
    (h0 : (idx (ix1 0)).toInt = (r : Int)) (h1 : (idx (ix1 1)).toInt = (c0 : Int)) (hr : r + P ≤ R) (hc : c0 + Q ≤ C)
    (i : (⟨2, ![R, C]⟩ : Shape).Idx)
    (hi : ¬ (r ≤ (i 0).val ∧ (i 0).val < r + P ∧ c0 ≤ (i 1).val ∧ (i 1).val < c0 + Q)) :
    Host.scatter (blockDims wf) (fun _ b => b) x idx upd i = x i :=
  Cert.LibScatterSet.scatter_set_away (blockDims wf) x idx upd (corner r c0 hr hc)
    (fun j => block_resultIdx wf j idx r c0 h0 h1 hr hc) i (fun j e => hi (by
      have hj0 := idx2_lt0 j
      have hj1 := idx2_lt1 j
      have e0 : r + (j 0).val = (i 0).val := congrArg (fun i' => (i' 0).val) e
      have e1 : c0 + (j 1).val = (i 1).val := congrArg (fun i' => (i' 1).val) e
      omega))

end Block

end Cert.LibWindowScatter

end
-- ==== Proof.KernelWeightsDiag.lean ====
/-
  The block-diagonal second layer of the experts, as the kernel's host program builds it, read at an index.

  The program starts from a [512, 256] array holding the word of +0.0 everywhere and overwrites, for each expert
  t = 0..7, the [64, 32] window whose corner is (64 t, 32 t) with that expert's second-layer weights, their two axes
  swapped. Each overwrite is a scatter of one window whose corner is read off a two-entry index vector. The windows
  lie down the diagonal and do not meet, so entry (n' * 64 + k, n * 32 + a) of the result is weight (n, a, k) of
  expert n when n' = n, and 0 otherwise.

  One such scatter read at an index, for any sizes, is a lemma of its own; here the eight are chained.
-/
import proofs.«157973_j80066780332773_2_alg».proof.Proof.Gen.KernelIdeal.Frame
import proofs.«157973_j80066780332773_2_alg».proof.Proof.Consts
import proofs.«157973_j80066780332773_2_alg».proof.Proof.LibScatterSet
import proofs.«157973_j80066780332773_2_alg».proof.Proof.LibWindowScatter
import Idealize.ShloMosaic.Lib.Pipeline.Value
import Idealize.ShloMosaic.Lib.ValueIdx

noncomputable section

namespace Cert.KernelWeights

open Cert.KernelIdeal Cert.KernelIdeal.Gen Idealize.ShloMosaic Idealize.ShloMosaic.TcCoe Idealize.ShloMosaic.ValueIdx
open Idealize.SL.Sem Idealize.ShloMosaic.StableHlo
open Cert.LibWindowScatter

/-! ## Eight [64, 32] blocks down the diagonal of a [512, 256] array -/

section Diag
variable (wf : ScatterDims.WF ⟨2, ![512, 256]⟩ ⟨1, ![2]⟩ ⟨2, ![64, 32]⟩ [0, 1] [] [0, 1] 0) {α : Type}

/-- Writing block t of the diagonal: entry (n' * 64 + k, n * 32 + a) changes exactly when n' = n = t. -/
theorem diag_step {w : Nat} (x : (⟨2, ![512, 256]⟩ : Shape).Idx → α) (idx : IVec ⟨1, ![2]⟩ w)
    (upd : (⟨2, ![64, 32]⟩ : Shape).Idx → α) (t : Nat) (ht : t < 8)
    (h0 : (idx (ix1 0)).toInt = ((t * 64 : Nat) : Int)) (h1 : (idx (ix1 1)).toInt = ((t * 32 : Nat) : Int))
    (n' : Fin 8) (k : Fin 64) (n : Fin 8) (a : Fin 32) :
    Host.scatter (blockDims wf) (fun _ b => b) x idx upd
        (ix2 ⟨n'.val * 64 + k.val, by have := n'.isLt; have := k.isLt; omega⟩
          ⟨n.val * 32 + a.val, by have := n.isLt; have := a.isLt; omega⟩)
      = if n'.val = t ∧ n.val = t then upd (ix2 k a)
        else x (ix2 ⟨n'.val * 64 + k.val, by have := n'.isLt; have := k.isLt; omega⟩
          ⟨n.val * 32 + a.val, by have := n.isLt; have := a.isLt; omega⟩) := by
  have hn' := n'.isLt
  have hn := n.isLt
  have hk := k.isLt
  have ha := a.isLt
  by_cases h : n'.val = t ∧ n.val = t
  · rw [if_pos h]
    obtain ⟨e1, e2⟩ := h
    subst e1
    have h1' : (idx (ix1 1)).toInt = ((n.val * 32 : Nat) : Int) := by rw [h1, e2]
    exact block_at wf x idx upd (n'.val * 64) (n.val * 32) h0 h1' (by omega) (by omega) k a
  · rw [if_neg h]
    exact block_away wf x idx upd (t * 64) (t * 32) h0 h1 (by omega) (by omega) _ (fun hi => h (by
      have hi0 : t * 64 ≤ n'.val * 64 + k.val := hi.1
      have hi1 : n'.val * 64 + k.val < t * 64 + 64 := hi.2.1
      have hi2 : t * 32 ≤ n.val * 32 + a.val := hi.2.2.1
      have hi3 : n.val * 32 + a.val < t * 32 + 32 := hi.2.2.2
      omega))

/-- The invariant of the chain: after blocks 0..T-1 are written into an array constant at z, entry
    (n' * 64 + k, n * 32 + a) is entry (n, a, k) of A on the diagonal blocks already written and z elsewhere. -/
def DiagInv (A : (⟨3, ![8, 32, 64]⟩ : Shape).Idx → α) (z : α) (T : Nat) (x : (⟨2, ![512, 256]⟩ : Shape).Idx → α) : Prop :=
  ∀ (n' : Fin 8) (k : Fin 64) (n : Fin 8) (a : Fin 32),
    x (ix2 ⟨n'.val * 64 + k.val, by have := n'.isLt; have := k.isLt; omega⟩
        ⟨n.val * 32 + a.val, by have := n.isLt; have := a.isLt; omega⟩)
      = if n' = n ∧ n.val < T then A (ix3 n a k) else z

theorem diagInv_step {w : Nat} (A : (⟨3, ![8, 32, 64]⟩ : Shape).Idx → α) (z : α)
    (x : (⟨2, ![512, 256]⟩ : Shape).Idx → α) (idx : IVec ⟨1, ![2]⟩ w)
    (upd : (⟨2, ![64, 32]⟩ : Shape).Idx → α) (t : Nat) (ht : t < 8)
    (h0 : (idx (ix1 0)).toInt = ((t * 64 : Nat) : Int)) (h1 : (idx (ix1 1)).toInt = ((t * 32 : Nat) : Int))
    (hupd : ∀ (k : Fin 64) (a : Fin 32), upd (ix2 k a) = A (ix3 ⟨t, ht⟩ a k))
    (hx : DiagInv A z t x) :
    DiagInv A z (t + 1) (Host.scatter (blockDims wf) (fun _ b => b) x idx upd) := by
  intro n' k n a
  rw [diag_step wf x idx upd t ht h0 h1 n' k n a, hx n' k n a, hupd k a]
  by_cases h : n'.val = t ∧ n.val = t
  · rw [if_pos h]
    obtain ⟨e1, e2⟩ := h
    have en : n = ⟨t, ht⟩ := Fin.ext e2
    have en' : n' = n := Fin.ext (e1.trans e2.symm)
    rw [if_pos ⟨en', by omega⟩, en]
  · rw [if_neg h]
    by_cases h2 : n' = n ∧ n.val < t
    · rw [if_pos h2, if_pos ⟨h2.1, by omega⟩]
    · rw [if_neg h2, if_neg]
      intro h3
      obtain ⟨e, hlt⟩ := h3
      by_cases h4 : n.val < t
      · exact h2 ⟨e, h4⟩
      · exact h ⟨by rw [e]; omega, by omega⟩

end Diag

/-! ## The block-diagonal second layer of the experts -/

/-- One link of the chain: an overwriting scatter of a [64, 32] window into the [512, 256] array. -/
abbrev scat (x : S512x256.Idx → EReal) (i : IVec S2 32) (u : S64x32.Idx → EReal) : S512x256.Idx → EReal :=
  Host.scatter (blockDims scatter_S512x256_S2_S64x32_01_n_01_0_wf) (fun _ b => b) x i u

/-- The update of block t: slice t of the second-layer weights with their last two axes swapped, its unit axis dropped. -/
abbrev updN (A : S8x32x64.Idx → EReal) (t : Nat) (h : S8x64x32.Slices ![t, 0, 0] S1x64x32) : S64x32.Idx → EReal :=
  shapeCast S64x32
    (extractStridedSlice S1x64x32 ![t, 0, 0] (transpose S8x64x32 [0, 2, 1] A transposes_S8x32x64_S8x64x32_0_2_1) h)
    shapeCasts_S1x64x32_S64x32

/-- The index vector (r, c0): two one-entry integer arrays end to end. -/
abbrev idxN (r c0 : BitVec 32) : IVec S2 32 :=
  concatenate S2 0
    [⟨S1, broadcastInDim S1 ![] bcast_S_S1 (constantI S_ 32 r)⟩, ⟨S1, broadcastInDim S1 ![] bcast_S_S1 (constantI S_ 32 c0)⟩]
    concatenates_S1_S1_S2_d0

/-- The array the chain starts from: the word of +0.0 everywhere. -/
abbrev W0 : S512x256.Idx → EReal :=
  broadcastInDim S512x256 ![] bcast_S_S512x256 (constant (F := Idealize.ShloMosaic.Ideal) S_ .f32 0x00000000#32)

theorem idxN_at0 (r c0 : BitVec 32) : idxN r c0 (ix1 0) = r := by
  refine (concatenate_pair_apply_left (t := S2) (s₁ := S1) (s₂ := S1) 0 _ _ concatenates_S1_S1_S2_d0 (ix1 0) rfl (ix1 0)
    (fun b => match b with
      | ⟨0, _⟩ => rfl)).trans ?_
  exact broadcastInDim_apply ![] bcast_S_S1 _ (ix1 0) ix0 (fun a => a.elim0)

theorem idxN_at1 (r c0 : BitVec 32) : idxN r c0 (ix1 1) = c0 := by
  refine (concatenate_pair_apply_right (t := S2) (s₁ := S1) (s₂ := S1) 0 _ _ concatenates_S1_S1_S2_d0 (ix1 1) rfl rfl (ix1 0)
    (fun b => match b with
      | ⟨0, _⟩ => fun hb => absurd rfl hb) rfl).trans ?_
  exact broadcastInDim_apply ![] bcast_S_S1 _ (ix1 0) ix0 (fun a => a.elim0)

/-- Entry (k, a) of block t's update is weight (t, a, k). -/
theorem updN_at (A : S8x32x64.Idx → EReal) (t : Nat) (ht : t < 8) (h : S8x64x32.Slices ![t, 0, 0] S1x64x32)
    (k : Fin 64) (a : Fin 32) : updN A t h (ix2 k a) = A (ix3 ⟨t, ht⟩ a k) := by
  refine (shapeCast_apply _ shapeCasts_S1x64x32_S64x32 (ix2 k a) (ix3 0 k a) (by
    rewrite [Shape.rowMajor_val_three, Shape.rowMajor_val_two]
    show (0 * 64 + k.val) * 32 + a.val = k.val * 32 + a.val; omega)).trans ?_
  refine (extractStridedSlice_apply ![t, 0, 0] _ h (ix3 0 k a) (ix3 ⟨t, ht⟩ k a) (fun b => match b with
    | ⟨0, _⟩ => by show t = t + 0; omega
    | ⟨1, _⟩ => by show k.val = 0 + k.val; omega
    | ⟨2, _⟩ => by show a.val = 0 + a.val; omega)).trans ?_
  exact transpose_apply [0, 2, 1] A transposes_S8x32x64_S8x64x32_0_2_1 (ix3 ⟨t, ht⟩ k a) (ix3 ⟨t, ht⟩ a k) (fun b => match b with
    | ⟨0, _⟩ => rfl
    | ⟨1, _⟩ => rfl
    | ⟨2, _⟩ => rfl)

/-- The eight scatters over the array of zeros. -/
def diagTerm (A : S8x32x64.Idx → EReal) : S512x256.Idx → EReal :=
  scat (scat (scat (scat (scat (scat (scat (scat W0
    (idxN 0#32 0#32) (updN A 0 slices_S8x64x32_S1x64x32_0_0_0))
    (idxN 64#32 32#32) (updN A 1 slices_S8x64x32_S1x64x32_1_0_0))
    (idxN 128#32 64#32) (updN A 2 slices_S8x64x32_S1x64x32_2_0_0))
    (idxN 192#32 96#32) (updN A 3 slices_S8x64x32_S1x64x32_3_0_0))
    (idxN 256#32 128#32) (updN A 4 slices_S8x64x32_S1x64x32_4_0_0))
    (idxN 320#32 160#32) (updN A 5 slices_S8x64x32_S1x64x32_5_0_0))
    (idxN 384#32 192#32) (updN A 6 slices_S8x64x32_S1x64x32_6_0_0))
    (idxN 448#32 224#32) (updN A 7 slices_S8x64x32_S1x64x32_7_0_0)

/-- One link of the chain, with the index vector's entries read. -/
theorem link (A : S8x32x64.Idx → EReal) (z : EReal) (x : S512x256.Idx → EReal) (r c0 : BitVec 32) (t : Nat) (ht : t < 8)
    (h : S8x64x32.Slices ![t, 0, 0] S1x64x32)
    (hr : r.toInt = ((t * 64 : Nat) : Int)) (hc : c0.toInt = ((t * 32 : Nat) : Int))
    (hx : DiagInv A z t x) : DiagInv A z (t + 1) (scat x (idxN r c0) (updN A t h)) :=
  diagInv_step scatter_S512x256_S2_S64x32_01_n_01_0_wf A z x (idxN r c0) (updN A t h) t ht
    (by rw [idxN_at0]; exact hr) (by rw [idxN_at1]; exact hc) (updN_at A t ht h) hx

/-- The block-diagonal array at (n' * 64 + k, n * 32 + a): weight (n, a, k) on the diagonal blocks, 0 elsewhere. -/
theorem diagTerm_at (A : S8x32x64.Idx → EReal) (n' : Fin 8) (k : Fin 64) (n : Fin 8) (a : Fin 32) :
    diagTerm A (ix2 ⟨n'.val * 64 + k.val, by have := n'.isLt; have := k.isLt; omega⟩
        ⟨n.val * 32 + a.val, by have := n.isLt; have := a.isLt; omega⟩)
      = if n' = n then A (ix3 n a k) else 0 := by
  have hn := n.isLt
  have h0 : DiagInv A (Idealize.ShloMosaic.Ideal.ofBits .f32 0x00000000#32) 0 W0 := fun n' k n a => by
    rw [if_neg (fun h => Nat.not_lt_zero _ h.2)]
    exact broadcastInDim_apply ![] bcast_S_S512x256 _ _ ix0 (fun a => a.elim0)
  have h1 := link A _ _ 0#32 0#32 0 (by omega) slices_S8x64x32_S1x64x32_0_0_0 (by decide) (by decide) h0
  have h2 := link A _ _ 64#32 32#32 1 (by omega) slices_S8x64x32_S1x64x32_1_0_0 (by decide) (by decide) h1
  have h3 := link A _ _ 128#32 64#32 2 (by omega) slices_S8x64x32_S1x64x32_2_0_0 (by decide) (by decide) h2
  have h4 := link A _ _ 192#32 96#32 3 (by omega) slices_S8x64x32_S1x64x32_3_0_0 (by decide) (by decide) h3
  have h5 := link A _ _ 256#32 128#32 4 (by omega) slices_S8x64x32_S1x64x32_4_0_0 (by decide) (by decide) h4
  have h6 := link A _ _ 320#32 160#32 5 (by omega) slices_S8x64x32_S1x64x32_5_0_0 (by decide) (by decide) h5
  have h7 := link A _ _ 384#32 192#32 6 (by omega) slices_S8x64x32_S1x64x32_6_0_0 (by decide) (by decide) h6
  have h8 := link A _ _ 448#32 224#32 7 (by omega) slices_S8x64x32_S1x64x32_7_0_0 (by decide) (by decide) h7
  refine (h8 n' k n a).trans ?_
  rw [Cert.Consts.ofBits_zero]
  by_cases e : n' = n
  · rw [if_pos e, if_pos ⟨e, hn⟩]
  · rw [if_neg e, if_neg (fun h => e h.1)]

/-! ## The array the region finds -/

variable (m : (ℓ : Loc nD τ sig) → Buf (Elt Idealize.ShloMosaic.Ideal) ℓ) (c : Dev nD)

set_option maxHeartbeats 40000000 in
/-- The [512, 256] array the region finds is the chain of the eight scatters over the second-layer weights. -/
theorem w2diag_term : (V m c main_v61 : S512x256.Idx → EReal) = diagTerm (m ((c : Thread nD τ).loc main_arg10)) := by
  show StableHlo.after hostOps0 (fun b => m (c, b)) (Proc.devRef .tc main_v61) = _
  after_results_simp; rfl

/-- Entry (n' * 64 + k, n * 32 + a) of it: weight (n, a, k) on the diagonal blocks, 0 elsewhere. -/
theorem w2diag (n' : Fin 8) (k : Fin 64) (n : Fin 8) (a : Fin 32) :
    (V m c main_v61 : S512x256.Idx → EReal)
        (ix2 ⟨n'.val * 64 + k.val, by have := n'.isLt; have := k.isLt; omega⟩
          ⟨n.val * 32 + a.val, by have := n.isLt; have := a.isLt; omega⟩)
      = if n' = n then (m ((c : Thread nD τ).loc main_arg10) : S8x32x64.Idx → EReal) (ix3 n a k) else (0 : EReal) := by
  rw [w2diag_term]
  exact diagTerm_at _ n' k n a

end Cert.KernelWeights

end
-- ==== Proof.KernelLayout.lean ====
/-
  The weight arrays the call reads hold the arguments' weights in the kernel's layout.

  Before the call the host lays the input layer and the mixing gate side by side (one 128-by-72 matrix, one 72-vector),
  transposes the two recurrent matrices, concatenates the experts' first layers column-block by column-block, and
  places the experts' transposed second layers down the diagonal of a zero 512-by-256 matrix. Read at an index, each
  of these arrays is an entry of one argument (or zero, off the diagonal blocks): the layout hypotheses under which the
  body's entries are the row specification's.
-/
import proofs.«157973_j80066780332773_2_alg».proof.Proof.KernelArrays
import proofs.«157973_j80066780332773_2_alg».proof.Proof.KernelWeights
import proofs.«157973_j80066780332773_2_alg».proof.Proof.KernelWeightsDiag

noncomputable section

namespace Cert.KernelArrays

open Cert.KernelIdeal Cert.KernelIdeal.Gen Idealize.ShloMosaic Idealize.ShloMosaic.TcCoe Idealize.ShloMosaic.ValueIdx
open Idealize.SL.Sem
open Cert.RowSpec Cert.KernelRows

variable (m : (ℓ : Loc nD τ sig) → Buf (Elt Ideal) ℓ)

/-- The recurrent step's weight arrays are laid out as the body expects. -/
theorem gruOK (c : Dev nD) : GruOK m c where
  fcW := fun e j =>
    (congrArg (fun q : Fin 72 => V m c main_v4 (ix2 e q))
      (show (⟨0 + j.val, by have := j.isLt; omega⟩ : Fin 72) = ⟨j.val, by have := j.isLt; omega⟩ from
        Fin.ext (Nat.zero_add _))).trans (Cert.KernelWeights.fcgate_fc m c e j)
  gW := fun e n => Cert.KernelWeights.fcgate_gate m c e n
  fcB := fun j =>
    (congrArg (fun q : Fin 72 => V m c main_v5 (ix1 q))
      (show (⟨0 + j.val, by have := j.isLt; omega⟩ : Fin 72) = ⟨j.val, by have := j.isLt; omega⟩ from
        Fin.ext (Nat.zero_add _))).trans (Cert.KernelWeights.fcgate_b_fc m c j)
  gB := fun n => Cert.KernelWeights.fcgate_b_gate m c n
  wih := fun k q => Cert.KernelWeights.wih_t m c k q
  whh := fun k q => Cert.KernelWeights.whh_t m c k q
  bih := fun q => congrFun (V_main_arg6 m c) (ix1 q)
  bhh := fun q => congrFun (V_main_arg7 m c) (ix1 q)

/-- The experts' weight arrays are laid out as the body expects: first layers concatenated column-block by
    column-block, second layers down the diagonal of a matrix that is zero elsewhere. -/
theorem expertOK (c : Dev nD) : ExpertOK m c where
  w1 := fun j n k => Cert.KernelWeights.w1cat m c j n k
  b1 := fun n k => Cert.KernelWeights.b1cat m c n k
  w2 := fun n' k n a => Cert.KernelWeights.w2diag m c n' k n a
  b2 := fun n a => Cert.KernelWeights.b2cat m c n a

end Cert.KernelArrays

end
-- ==== Proof.RefGru.lean ====
/-
  The recurrent half of the reference, element by element.

  The reference computes, for every row m of its 131072 rows, an input layer (a matrix product with the transposed
  weight, a bias, a maximum with zero), two 192-wide pre-activations (one from the input layer's output, one from the
  row's hidden vector), cuts each into three 64-wide thirds, and combines them into a reset gate, an update gate, a
  candidate and the new hidden vector. Here each of those arrays is read at an index (m, j) and shown to be the
  corresponding quantity of the one-row specification at row m: feat, gi, gh, rGate, zGate, cand, newH.

  Every step is a reading of an operation at an index; the transposes, broadcasts and slices become equations between
  indices given by their coordinates; the sigmoid the program spells as 1 / (1 + exp (-x)) is the logistic function by
  definition. Nothing about finiteness is used.
-/
import proofs.«157973_j80066780332773_2_alg».proof.Proof.Gen.ReferenceIdeal.Read
import proofs.«157973_j80066780332773_2_alg».proof.Proof.RowSpec
import proofs.«157973_j80066780332773_2_alg».proof.Proof.Consts

noncomputable section

open scoped BigOperators

namespace Cert.RefRows

open Cert.ReferenceIdeal Cert.ReferenceIdeal.Read Idealize.ShloMosaic Idealize.ShloMosaic.ValueIdx Cert.RowSpec

/-- An f32 array of shape S over the extended reals: a function from the indices of S. -/
abbrev Arr (S : Shape) : Type := (⟨S, .f32⟩ : BufTy).Contents (Elt Ideal)

/-- The weights of the network, read off the argument arrays. -/
def params (x2 : Arr S64x128) (x3 : Arr S64) (x4 x5 : Arr S192x64) (x6 x7 : Arr S192) (x8 : Arr S8x64x64) (x9 : Arr S8x64)
    (x10 : Arr S8x32x64) (x11 : Arr S8x32) (x12 : Arr S8x128) (x13 : Arr S8) : Params :=
  { fcW := x2, fcB := x3, wih := x4, whh := x5, bih := x6, bhh := x7, ew1 := x8, eb1 := x9, ew2 := x10, eb2 := x11,
    gW := x12, gB := x13 }

/-! ## Indices from their coordinates -/

/-- A rank-1 index with the coordinate a is ix1 a. -/
theorem ix1_of {n : Nat} (f : (⟨1, ![n]⟩ : Shape).Idx) (a : Fin n) (h : f 0 = a) : f = ix1 a := by
  subst h; exact eq_ix1 f

/-- A rank-2 index with the coordinates a, b is ix2 a b. -/
theorem ix2_of {n0 n1 : Nat} (f : (⟨2, ![n0, n1]⟩ : Shape).Idx) (a : Fin n0) (b : Fin n1) (h0 : f 0 = a) (h1 : f 1 = b) :
    f = ix2 a b := by
  subst h0 h1; exact eq_ix2 f

/-- A rank-3 index with the coordinates a, b, c is ix3 a b c. -/
theorem ix3_of {n0 n1 n2 : Nat} (f : (⟨3, ![n0, n1, n2]⟩ : Shape).Idx) (a : Fin n0) (b : Fin n1) (c : Fin n2)
    (h0 : f 0 = a) (h1 : f 1 = b) (h2 : f 2 = c) : f = ix3 a b c := by
  subst h0 h1 h2; exact eq_ix3 f

/-! ## The sigmoid, spelled out

  The program computes a sigmoid as 1.0 / (1.0 + exp (-x)), which is the definition of the logistic function once the
  word of 1.0 is read as the real 1. -/

theorem logistic_spelled (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  simp only [Ideal.hostDivf_def, Ideal.addf_def, Ideal.hostUnary_exp_def, Ideal.hostNegf_def, Ideal.negf_def,
    Ideal.ofBits_def, Cert.Consts.ofBits_one]
  rfl

variable (x0 : Arr S16384x8x128) (x1 : Arr S16384x8x64) (x2 : Arr S64x128) (x3 : Arr S64) (x4 x5 : Arr S192x64)
  (x6 x7 : Arr S192) (x8 : Arr S8x64x64) (x9 : Arr S8x64) (x10 : Arr S8x32x64) (x11 : Arr S8x32) (x12 : Arr S8x128)
  (x13 : Arr S8)

/-! ## The input layer -/

/-- Element (m, j) of the input layer's output is feature j of row m. -/
theorem feat_at (m : Fin 131072) (j : Fin 64) :
    val_main_v6 (F := Ideal) x0 x2 x3 (ix2 m j)
      = feat (params x2 x3 x4 x5 x6 x7 x8 x9 x10 x11 x12 x13) (row (val_main_v0 (F := Ideal) x0) m) j := by
  rw [val_main_v6_apply, val_main_v5_apply, val_main_v2_apply, val_main_v4_apply, val_main_v3_apply,
    val_main_call0_v0_apply, val_main_call0_cst_apply]
  simp only [val_main_v1_apply]
  rw [show idx_main_v3 (idx_main_v4 (ix2 m j)) = ix1 j from ix1_of _ _ rfl]
  simp only [show ∀ k : Fin 128, lidx_main_v2 (ix2 m j) k = ix2 m k from fun k => ix2_of _ _ _ rfl rfl,
    show ∀ k : Fin 128, idx_main_v1 (ridx_main_v2 (ix2 m j) k) = ix2 j k from fun k => ix2_of _ _ _ rfl rfl]
  rfl

/-! ## The two 192-wide pre-activations -/

/-- Element (m, q) of the input-side pre-activation. -/
theorem gi_at (m : Fin 131072) (q : Fin 192) :
    val_main_v12 (F := Ideal) x0 x2 x3 x4 x6 (ix2 m q)
      = gi (params x2 x3 x4 x5 x6 x7 x8 x9 x10 x11 x12 x13) (row (val_main_v0 (F := Ideal) x0) m) q := by
  rw [val_main_v12_apply, val_main_v9_apply, val_main_v11_apply, val_main_v10_apply]
  simp only [val_main_v8_apply]
  rw [show idx_main_v10 (idx_main_v11 (ix2 m q)) = ix1 q from ix1_of _ _ rfl]
  simp only [show ∀ k : Fin 64, lidx_main_v9 (ix2 m q) k = ix2 m k from fun k => ix2_of _ _ _ rfl rfl,
    show ∀ k : Fin 64, idx_main_v8 (ridx_main_v9 (ix2 m q) k) = ix2 q k from fun k => ix2_of _ _ _ rfl rfl,
    feat_at x0 x2 x3 x4 x5 x6 x7 x8 x9 x10 x11 x12 x13]
  rfl

/-- Element (m, q) of the hidden-side pre-activation. -/
theorem gh_at (m : Fin 131072) (q : Fin 192) :
    val_main_v17 (F := Ideal) x1 x5 x7 (ix2 m q)
      = gh (params x2 x3 x4 x5 x6 x7 x8 x9 x10 x11 x12 x13) (row (val_main_v7 (F := Ideal) x1) m) q := by
  rw [val_main_v17_apply, val_main_v14_apply, val_main_v16_apply, val_main_v15_apply]
  simp only [val_main_v13_apply]
  rw [show idx_main_v15 (idx_main_v16 (ix2 m q)) = ix1 q from ix1_of _ _ rfl]
  simp only [show ∀ k : Fin 64, lidx_main_v14 (ix2 m q) k = ix2 m k from fun k => ix2_of _ _ _ rfl rfl,
    show ∀ k : Fin 64, idx_main_v13 (ridx_main_v14 (ix2 m q) k) = ix2 q k from fun k => ix2_of _ _ _ rfl rfl]
  rfl

/-! ## The slices: the three 64-wide thirds of a 192-wide row -/

theorem slice0 (m : Fin 131072) (j : Fin 64) : idx_main_v18 (ix2 m j) = ix2 m (third 0 j (by omega)) :=
  ix2_of _ _ _ rfl (Fin.ext (Nat.zero_add _).symm)
theorem slice1 (m : Fin 131072) (j : Fin 64) : idx_main_v19 (ix2 m j) = ix2 m (third 64 j (by omega)) :=
  ix2_of _ _ _ rfl rfl
theorem slice2 (m : Fin 131072) (j : Fin 64) : idx_main_v20 (ix2 m j) = ix2 m (third 128 j (by omega)) :=
  ix2_of _ _ _ rfl rfl
theorem slice0' (m : Fin 131072) (j : Fin 64) : idx_main_v21 (ix2 m j) = ix2 m (third 0 j (by omega)) :=
  ix2_of _ _ _ rfl (Fin.ext (Nat.zero_add _).symm)
theorem slice1' (m : Fin 131072) (j : Fin 64) : idx_main_v22 (ix2 m j) = ix2 m (third 64 j (by omega)) :=
  ix2_of _ _ _ rfl rfl
theorem slice2' (m : Fin 131072) (j : Fin 64) : idx_main_v23 (ix2 m j) = ix2 m (third 128 j (by omega)) :=
  ix2_of _ _ _ rfl rfl

/-! ## The gates and the new hidden vector -/

/-- Element (m, j) of the reset gate. -/
theorem rGate_at (m : Fin 131072) (j : Fin 64) :
    val_main_v30 (F := Ideal) x0 x1 x2 x3 x4 x5 x6 x7 (ix2 m j)
      = rGate (params x2 x3 x4 x5 x6 x7 x8 x9 x10 x11 x12 x13) (row (val_main_v0 (F := Ideal) x0) m)
          (row (val_main_v7 (F := Ideal) x1) m) j := by
  rw [val_main_v30_apply, val_main_v29_apply, val_main_cst_0_apply, val_main_v28_apply, val_main_v27_apply,
    val_main_cst_apply, val_main_v26_apply, val_main_v25_apply, logistic_spelled, val_main_v24_apply,
    val_main_v18_apply, val_main_v21_apply, slice0, slice0',
    gi_at x0 x2 x3 x4 x5 x6 x7 x8 x9 x10 x11 x12 x13, gh_at x1 x2 x3 x4 x5 x6 x7 x8 x9 x10 x11 x12 x13]
  rfl

/-- Element (m, j) of the update gate. -/
theorem zGate_at (m : Fin 131072) (j : Fin 64) :
    val_main_v37 (F := Ideal) x0 x1 x2 x3 x4 x5 x6 x7 (ix2 m j)
      = zGate (params x2 x3 x4 x5 x6 x7 x8 x9 x10 x11 x12 x13) (row (val_main_v0 (F := Ideal) x0) m)
          (row (val_main_v7 (F := Ideal) x1) m) j := by
  rw [val_main_v37_apply, val_main_v36_apply, val_main_cst_2_apply, val_main_v35_apply, val_main_v34_apply,
    val_main_cst_1_apply, val_main_v33_apply, val_main_v32_apply, logistic_spelled, val_main_v31_apply,
    val_main_v19_apply, val_main_v22_apply, slice1, slice1',
    gi_at x0 x2 x3 x4 x5 x6 x7 x8 x9 x10 x11 x12 x13, gh_at x1 x2 x3 x4 x5 x6 x7 x8 x9 x10 x11 x12 x13]
  rfl

/-- Element (m, j) of the candidate hidden vector. -/
theorem cand_at (m : Fin 131072) (j : Fin 64) :
    val_main_v40 (F := Ideal) x0 x1 x2 x3 x4 x5 x6 x7 (ix2 m j)
      = cand (params x2 x3 x4 x5 x6 x7 x8 x9 x10 x11 x12 x13) (row (val_main_v0 (F := Ideal) x0) m)
          (row (val_main_v7 (F := Ideal) x1) m) j := by
  rw [val_main_v40_apply, val_main_v39_apply, val_main_v20_apply, val_main_v38_apply, val_main_v23_apply,
    slice2, slice2', rGate_at x0 x1 x2 x3 x4 x5 x6 x7 x8 x9 x10 x11 x12 x13,
    gi_at x0 x2 x3 x4 x5 x6 x7 x8 x9 x10 x11 x12 x13, gh_at x1 x2 x3 x4 x5 x6 x7 x8 x9 x10 x11 x12 x13]
  rfl

/-- Element (m, j) of the new hidden state. -/
theorem newH_at (m : Fin 131072) (j : Fin 64) :
    val_main_v45 (F := Ideal) x0 x1 x2 x3 x4 x5 x6 x7 (ix2 m j)
      = newH (params x2 x3 x4 x5 x6 x7 x8 x9 x10 x11 x12 x13) (row (val_main_v0 (F := Ideal) x0) m)
          (row (val_main_v7 (F := Ideal) x1) m) j := by
  rw [val_main_v45_apply, val_main_v43_apply, val_main_v44_apply, val_main_v42_apply, val_main_v41_apply,
    val_main_cst_3_apply, zGate_at x0 x1 x2 x3 x4 x5 x6 x7 x8 x9 x10 x11 x12 x13,
    cand_at x0 x1 x2 x3 x4 x5 x6 x7 x8 x9 x10 x11 x12 x13]
  rfl

/-- The new hidden state, as an array over all rows, is the specification's. -/
theorem hidden_eq :
    val_main_v45 (F := Ideal) x0 x1 x2 x3 x4 x5 x6 x7
      = hiddenArr (params x2 x3 x4 x5 x6 x7 x8 x9 x10 x11 x12 x13) (val_main_v0 (F := Ideal) x0)
          (val_main_v7 (F := Ideal) x1) := by
  funext i
  obtain ⟨m, j, rfl⟩ : ∃ (m : Fin 131072) (j : Fin 64), i = ix2 m j := ⟨i 0, i 1, eq_ix2 i⟩
  exact newH_at x0 x1 x2 x3 x4 x5 x6 x7 x8 x9 x10 x11 x12 x13 m j

end Cert.RefRows
-- ==== Proof.RefExperts.lean ====
/-
  The eight experts of the reference, element by element.

  Each expert is two layers applied to the new hidden vector of a row: a 64-by-64 matrix, a bias and a maximum with
  zero, then a 32-by-64 matrix and a bias. The program computes all experts and all rows at once, with the expert
  axis first, and transposes (row, expert) at the end. Here the two layers are read at an index (n, m, k) and shown
  to be the specification's hid and expert at row m; the transposed array is then the specification's over all rows.
-/
import proofs.«157973_j80066780332773_2_alg».proof.Proof.RefGru

noncomputable section

open scoped BigOperators

namespace Cert.RefRows

open Cert.ReferenceIdeal Cert.ReferenceIdeal.Read Idealize.ShloMosaic Idealize.ShloMosaic.ValueIdx Cert.RowSpec

variable (x0 : Arr S16384x8x128) (x1 : Arr S16384x8x64) (x2 : Arr S64x128) (x3 : Arr S64) (x4 x5 : Arr S192x64)
  (x6 x7 : Arr S192) (x8 : Arr S8x64x64) (x9 : Arr S8x64) (x10 : Arr S8x32x64) (x11 : Arr S8x32) (x12 : Arr S8x128)
  (x13 : Arr S8)

/-! ## The experts' first layer -/

/-- Element (n, m, k) of the first layer's output is unit k of expert n at row m. The program multiplies the weight by
    the hidden vector, the specification the hidden vector by the weight. -/
theorem hid_at (n : Fin 8) (m : Fin 131072) (k : Fin 64) :
    val_main_v51 (F := Ideal) x0 x1 x2 x3 x4 x5 x6 x7 x8 x9 (ix3 n m k)
      = hid (params x2 x3 x4 x5 x6 x7 x8 x9 x10 x11 x12 x13) (row (val_main_v0 (F := Ideal) x0) m)
          (row (val_main_v7 (F := Ideal) x1) m) n k := by
  rw [val_main_v51_apply, val_main_v50_apply, val_main_v47_apply, val_main_v46_apply, val_main_v49_apply,
    val_main_v48_apply, val_main_call1_v0_apply, val_main_call1_cst_apply]
  rw [show idx_main_v48 (idx_main_v49 (ix3 n m k)) = ix2 n k from ix2_of _ _ _ rfl rfl]
  simp only [show ∀ j : Fin 64, lidx_main_v46 (idx_main_v47 (ix3 n m k)) j = ix3 n k j from
      fun j => ix3_of _ _ _ _ rfl rfl rfl,
    show ∀ j : Fin 64, ridx_main_v46 (idx_main_v47 (ix3 n m k)) j = ix2 m j from fun j => ix2_of _ _ _ rfl rfl,
    newH_at x0 x1 x2 x3 x4 x5 x6 x7 x8 x9 x10 x11 x12 x13]
  rw [Finset.sum_congr rfl (fun j _ => mul_comm (x8 (ix3 n k j)) _)]
  rfl

/-! ## The experts' second layer -/

/-- Element (n, m, a) of the second layer's output is output a of expert n at row m. -/
theorem expert_at (n : Fin 8) (m : Fin 131072) (a : Fin 32) :
    val_main_v55 (F := Ideal) x0 x1 x2 x3 x4 x5 x6 x7 x8 x9 x10 x11 (ix3 n m a)
      = expert (params x2 x3 x4 x5 x6 x7 x8 x9 x10 x11 x12 x13) (row (val_main_v0 (F := Ideal) x0) m)
          (row (val_main_v7 (F := Ideal) x1) m) n a := by
  rw [val_main_v55_apply, val_main_v52_apply, val_main_v54_apply, val_main_v53_apply]
  rw [show idx_main_v53 (idx_main_v54 (ix3 n m a)) = ix2 n a from ix2_of _ _ _ rfl rfl]
  simp only [show ∀ k : Fin 64, lidx_main_v52 (ix3 n m a) k = ix3 n m k from fun k => ix3_of _ _ _ _ rfl rfl rfl,
    show ∀ k : Fin 64, ridx_main_v52 (ix3 n m a) k = ix3 n a k from fun k => ix3_of _ _ _ _ rfl rfl rfl,
    hid_at x0 x1 x2 x3 x4 x5 x6 x7 x8 x9 x10 x11 x12 x13]
  rfl

/-- The experts' outputs after the exchange of the row and expert axes, as an array over all rows, are the
    specification's. -/
theorem expert_eq :
    val_main_v76 (F := Ideal) x0 x1 x2 x3 x4 x5 x6 x7 x8 x9 x10 x11
      = expertArr (params x2 x3 x4 x5 x6 x7 x8 x9 x10 x11 x12 x13) (val_main_v0 (F := Ideal) x0)
          (val_main_v7 (F := Ideal) x1) := by
  funext i
  obtain ⟨m, n, a, rfl⟩ : ∃ (m : Fin 131072) (n : Fin 8) (a : Fin 32), i = ix3 m n a := ⟨i 0, i 1, i 2, eq_ix3 i⟩
  rw [val_main_v76_apply, show idx_main_v76 (ix3 m n a) = ix3 n m a from ix3_of _ _ _ _ rfl rfl rfl]
  exact expert_at x0 x1 x2 x3 x4 x5 x6 x7 x8 x9 x10 x11 x12 x13 n m a

end Cert.RefRows
-- ==== Proof.RefMix.lean ====
/-
  The gated mean of the reference, element by element.

  The eight mixing weights of a row are the sigmoid of a 8-by-128 matrix applied to the row's input vector plus a
  bias. The output at (m, a) is the mean over the experts n of expert n's output a times weight n. The program
  spells the mean as a sum started from +0.0 and divided by 8.0, with each product in the order expert times weight;
  the specification sums weight times expert and multiplies by 0.125. The two agree on the extended reals: products
  commute, 0 + s = s, and dividing by 8 is multiplying by 1/8.
-/
import proofs.«157973_j80066780332773_2_alg».proof.Proof.RefExperts

noncomputable section

open scoped BigOperators

namespace Cert.RefRows

open Cert.ReferenceIdeal Cert.ReferenceIdeal.Read Idealize.ShloMosaic Idealize.ShloMosaic.ValueIdx Cert.RowSpec

variable (x0 : Arr S16384x8x128) (x1 : Arr S16384x8x64) (x2 : Arr S64x128) (x3 : Arr S64) (x4 x5 : Arr S192x64)
  (x6 x7 : Arr S192) (x8 : Arr S8x64x64) (x9 : Arr S8x64) (x10 : Arr S8x32x64) (x11 : Arr S8x32) (x12 : Arr S8x128)
  (x13 : Arr S8)

/-! ## The mixing weights -/

/-- Element (m, n) of the sigmoid of the gating layer is mixing weight n of row m. -/
theorem gate_at (m : Fin 131072) (n : Fin 8) :
    val_main_v66 (F := Ideal) x0 x12 x13 (ix2 m n)
      = gate (params x2 x3 x4 x5 x6 x7 x8 x9 x10 x11 x12 x13) (row (val_main_v0 (F := Ideal) x0) m) n := by
  rw [val_main_v66_apply, val_main_v65_apply, val_main_cst_5_apply, val_main_v64_apply, val_main_v63_apply,
    val_main_cst_4_apply, val_main_v62_apply, val_main_v61_apply, logistic_spelled, val_main_v60_apply,
    val_main_v57_apply, val_main_v59_apply, val_main_v58_apply]
  simp only [val_main_v56_apply]
  rw [show idx_main_v58 (idx_main_v59 (ix2 m n)) = ix1 n from ix1_of _ _ rfl]
  simp only [show ∀ k : Fin 128, lidx_main_v57 (ix2 m n) k = ix2 m k from fun k => ix2_of _ _ _ rfl rfl,
    show ∀ k : Fin 128, idx_main_v56 (ridx_main_v57 (ix2 m n) k) = ix2 n k from fun k => ix2_of _ _ _ rfl rfl]
  rfl

/-! ## The weighted mean over the experts -/

/-- Element (m, a) of the mean. The program multiplies expert by weight, sums from the word of +0.0 and divides by
    8.0; the specification multiplies weight by expert and the sum by 0.125. -/
theorem mixed_at (m : Fin 131072) (a : Fin 32) :
    val_main_v73 (F := Ideal) x0 x1 x2 x3 x4 x5 x6 x7 x8 x9 x10 x11 x12 x13 (ix2 m a)
      = mixed (params x2 x3 x4 x5 x6 x7 x8 x9 x10 x11 x12 x13) (row (val_main_v0 (F := Ideal) x0) m)
          (row (val_main_v7 (F := Ideal) x1) m) a := by
  rw [val_main_v73_apply, val_main_v72_apply, val_main_cst_7_apply, val_main_v71_apply, val_main_cst_6_apply]
  simp only [val_main_v70_apply, val_main_v69_apply, val_main_v68_apply, val_main_v67_apply]
  simp only [show ∀ k : Fin 8, idx_main_v71 (ix2 m a) k = ix3 k m a from fun k => ix3_of _ _ _ _ rfl rfl rfl,
    show ∀ k : Fin 8, idx_main_v67 (idx_main_v68 (idx_main_v69 (ix3 k m a))) = ix2 m k from
      fun k => ix2_of _ _ _ rfl rfl,
    expert_at x0 x1 x2 x3 x4 x5 x6 x7 x8 x9 x10 x11 x12 x13, gate_at x0 x2 x3 x4 x5 x6 x7 x8 x9 x10 x11 x12 x13]
  simp only [Ideal.hostDivf_def, Ideal.mulf_def, Ideal.ofBits_def]
  rw [Cert.Consts.div_eight, Cert.Consts.ofBits_zero, zero_add,
    Finset.sum_congr rfl (fun n _ => mul_comm (expert (params x2 x3 x4 x5 x6 x7 x8 x9 x10 x11 x12 x13)
      (row (val_main_v0 (F := Ideal) x0) m) (row (val_main_v7 (F := Ideal) x1) m) n a) _)]
  rfl

/-- The weighted mean, as an array over all rows and before its final change of shape, is the specification's. -/
theorem mixed_eq :
    val_main_v73 (F := Ideal) x0 x1 x2 x3 x4 x5 x6 x7 x8 x9 x10 x11 x12 x13
      = mixedArr (params x2 x3 x4 x5 x6 x7 x8 x9 x10 x11 x12 x13) (val_main_v0 (F := Ideal) x0)
          (val_main_v7 (F := Ideal) x1) := by
  funext i
  obtain ⟨m, a, rfl⟩ : ∃ (m : Fin 131072) (a : Fin 32), i = ix2 m a := ⟨i 0, i 1, eq_ix2 i⟩
  exact mixed_at x0 x1 x2 x3 x4 x5 x6 x7 x8 x9 x10 x11 x12 x13 m a

end Cert.RefRows
-- ==== Proof.lean ====
/-
  The kernel and the reference compute the same three arrays, at the ideal instance.

  Both programs reshape the inputs to 131072 rows and treat every row alone: an input layer, one recurrent (GRU) step
  giving the new hidden vector, eight two-layer experts applied to it, eight sigmoid mixing weights of the input, and
  the mean over the experts of weight times expert. The row specification (Proof/RowSpec.lean) states one row of this
  over the extended reals. The reference's run ends with its three results at the whole-array forms of that
  specification (Proof/RefGru.lean, RefExperts.lean, RefMix.lean, over the generated reading of its operations). The
  kernel's run does too (Proof/KernelArrays.lean): its body, on a block of 2048 rows, computes the specification of
  each row (Proof/KernelGru.lean, KernelExperts.lean, KernelMix.lean) from weight arrays the host laid out before the
  call (Proof/KernelWeights.lean, KernelWeightsDiag.lean, KernelLayout.lean), and its 64 blocks tile the arrays.
  What differs between the two programs vanishes on the extended reals without any finiteness: a change of float
  format is the identity; the kernel's one matrix product for the input layer and the gate is two of the reference's
  side by side; the second expert layer as one product with a block-diagonal matrix adds products with zero, and
  x * 0 = 0 for every extended real; products commute; the mean divides by 8.0 on one side and multiplies by 0.125 on
  the other, and 0.125 is exactly 1/8; the sigmoid is one function whether printed as one operation or spelled out.
  The two input reshapes are the same term on both sides and are never read; the last reshapes of the first two
  results likewise; the third result is a reshape of 256 columns to (8, 32) on one side and a transpose on the other,
  read at an index.
  The ideal pass rewrote nothing in this kernel, so the idealized kernel is the kernel's own text read at the ideal
  instance. The three frames are the generated ones.
-/
import proofs.«157973_j80066780332773_2_alg».proof.Defs
import proofs.«157973_j80066780332773_2_alg».proof.Proof.Gen.Kernel
import proofs.«157973_j80066780332773_2_alg».proof.Proof.Gen.Kernel.Skeleton
import proofs.«157973_j80066780332773_2_alg».proof.Proof.Gen.Kernel.Launch
import proofs.«157973_j80066780332773_2_alg».proof.Proof.Gen.Kernel.Points
import proofs.«157973_j80066780332773_2_alg».proof.Proof.Gen.Kernel.Frame
import proofs.«157973_j80066780332773_2_alg».proof.Proof.Gen.KernelIdeal
import proofs.«157973_j80066780332773_2_alg».proof.Proof.Gen.KernelIdeal.Skeleton
import proofs.«157973_j80066780332773_2_alg».proof.Proof.Gen.KernelIdeal.Launch
import proofs.«157973_j80066780332773_2_alg».proof.Proof.Gen.KernelIdeal.Points
import proofs.«157973_j80066780332773_2_alg».proof.Proof.Gen.KernelIdeal.Frame
import proofs.«157973_j80066780332773_2_alg».proof.Proof.Gen.ReferenceIdeal
import proofs.«157973_j80066780332773_2_alg».proof.Proof.Gen.ReferenceIdeal.Run
import proofs.«157973_j80066780332773_2_alg».proof.Proof.Gen.ReferenceIdeal.Read
import proofs.«157973_j80066780332773_2_alg».proof.Proof.Gen.Pre_finite_inputs
import proofs.«157973_j80066780332773_2_alg».proof.Proof.KernelLayout
import proofs.«157973_j80066780332773_2_alg».proof.Proof.RefMix
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

set_option maxHeartbeats 2000000 in
/-- Both runs end with the three results at the same whole-array functions of arguments that agree (three results,
    each rewritten by the fourteen agreements of the arguments). -/
theorem algebraic : Cert.algebraic_KernelIdeal_ReferenceIdeal := by
  intro m ρ m' ρ' _ hagree
  refine ⟨_, _, _, Cert.KernelArrays.kernel_run m ρ (Cert.KernelArrays.gruOK m) (Cert.KernelArrays.expertOK m), ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  all_goals obtain ⟨a0, a1, a2, a3, a4, a5, a6, a7, a8, a9, a10, a11, a12, a13⟩ := hagree c
  · -- the gated mean: the same reshape of the same array
    rw [Cert.ReferenceIdeal.Read.val_main_v74_eq]
    unfold Cert.ReferenceIdeal.Read.val_main_v74
    rw [Cert.RefRows.mixed_eq, a0, a1, a2, a3, a4, a5, a6, a7, a8, a9, a10, a11, a12, a13,
      Cert.KernelWeights.in_rows m c, Cert.KernelWeights.hid_rows m c]
    rfl
  · -- the new hidden state: the same reshape of the same array
    rw [Cert.ReferenceIdeal.Read.val_main_v75_eq]
    unfold Cert.ReferenceIdeal.Read.val_main_v75
    rw [Cert.RefRows.hidden_eq _ _ _ _ _ _ _ _ (m' ((c.tc : Thread _ _).loc Cert.ReferenceIdeal.main_arg8))
        (m' ((c.tc : Thread _ _).loc Cert.ReferenceIdeal.main_arg9)) (m' ((c.tc : Thread _ _).loc Cert.ReferenceIdeal.main_arg10))
        (m' ((c.tc : Thread _ _).loc Cert.ReferenceIdeal.main_arg11)) (m' ((c.tc : Thread _ _).loc Cert.ReferenceIdeal.main_arg12))
        (m' ((c.tc : Thread _ _).loc Cert.ReferenceIdeal.main_arg13)),
      a0, a1, a2, a3, a4, a5, a6, a7, a8, a9, a10, a11, a12, a13,
      Cert.KernelWeights.in_rows m c, Cert.KernelWeights.hid_rows m c]
    rfl
  · -- the experts' outputs: 256 columns split to (8, 32) on one side, a transpose on the other
    refine (Cert.ReferenceIdeal.Read.val_main_v76_eq m' c).trans ?_
    refine (Cert.RefRows.expert_eq _ _ _ _ _ _ _ _ _ _ _ _ (m' ((c.tc : Thread _ _).loc Cert.ReferenceIdeal.main_arg12))
        (m' ((c.tc : Thread _ _).loc Cert.ReferenceIdeal.main_arg13))).trans ?_
    rw [a0, a1, a2, a3, a4, a5, a6, a7, a8, a9, a10, a11, a12, a13,
      Cert.KernelWeights.in_rows m c, Cert.KernelWeights.hid_rows m c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
